-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x256 .f32) (main_arg1 : IVec S4x4096x4096 1) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x1024x256 : Shape := ⟨3, ![1, 1024, 256]⟩
abbrev S1024x256 : Shape := ⟨2, ![1024, 256]⟩
abbrev S1x256 : Shape := ⟨2, ![1, 256]⟩
abbrev S1x2048x256 : Shape := ⟨3, ![1, 2048, 256]⟩
abbrev S1x512x256 : Shape := ⟨3, ![1, 512, 256]⟩
abbrev S1x2048x512 : Shape := ⟨3, ![1, 2048, 512]⟩
abbrev S2048x1 : Shape := ⟨2, ![2048, 1]⟩
abbrev S2048x256 : Shape := ⟨2, ![2048, 256]⟩
abbrev S512x256 : Shape := ⟨2, ![512, 256]⟩
abbrev S2048x512 : Shape := ⟨2, ![2048, 512]⟩
abbrev S2048 : Shape := ⟨1, ![2048]⟩

abbrev nBuf : Space → Nat
  | .hbm => 13
  | .vmem => 27
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .i1⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x4096x256, .bf16⟩
  | .hbm, ⟨9, _⟩ => ⟨S4x4096x256, .bf16⟩
  | .hbm, ⟨10, _⟩ => ⟨S4x4096x256, .bf16⟩
  | .hbm, ⟨11, _⟩ => ⟨S4x4096x4096, .i32⟩
  | .hbm, ⟨12, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x2048x512, .i32⟩
  | .local _ .vmem, ⟨21, _⟩ => ⟨S1x2048x512, .i32⟩
  | .local _ .vmem, ⟨22, _⟩ => ⟨S1x2048x256, .f32⟩
  | .local _ .vmem, ⟨23, _⟩ => ⟨S1x2048x256, .f32⟩
  | .local _ .vmem, ⟨24, _⟩ => ⟨S2048x1, .f32⟩
  | .local _ .vmem, ⟨25, _⟩ => ⟨S2048x1, .f32⟩
  | .local _ .vmem, ⟨26, _⟩ => ⟨S2048x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_31 : BitVec 32 := 0#32
  let v47 : BitVec 1 := Scalar.cmpi .ne v46 c0_i32_31
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x2048x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  natLt_1_32 : 1 < 32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  shapeCasts_S2048x256_S1x2048x256 : S2048x256.ShapeCasts S1x2048x256
  dot_S1024x256_S256x256_S1024x256_1_1_0_0_n_n_wf : DotDims.WF S1024x256 S256x256 S1024x256 [1] [1] [0] [0] [] []
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S4x4096x256.size a
  hwx0_7 : ∀ i : grid0.Coords, EltTy.bits .bf16 = 32 ∨ (Rect.block (s := S4x4096x256) S1x1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x256.size a ≤ S4x4096x256.size a
  hwx0_8 : ∀ i : grid0.Coords, EltTy.bits .bf16 = 32 ∨ (Rect.block (s := S4x4096x256) S1x1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S4x4096x256.size a
  hwx0_9 : ∀ i : grid0.Coords, EltTy.bits .bf16 = 32 ∨ (Rect.block (s := S4x4096x256) S1x1024x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S4x4096x256.size a
  hwx1_0 : ∀ i : grid1.Coords, EltTy.bits .bf16 = 32 ∨ (Rect.block (s := S4x4096x256) S1x2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S4x4096x256.size a
  hwx1_1 : ∀ i : grid1.Coords, EltTy.bits .bf16 = 32 ∨ (Rect.block (s := S4x4096x256) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S4x4096x256.size a
  hwx1_2 : ∀ i : grid1.Coords, EltTy.bits .bf16 = 32 ∨ (Rect.block (s := S4x4096x256) S1x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x512.size a ≤ S4x4096x4096.size a
  hwx1_3 : ∀ i : grid1.Coords, EltTy.bits .i32 = 32 ∨ (Rect.block (s := S4x4096x4096) S1x2048x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x256.size a ≤ S4x4096x256.size a
  hwx1_4 : ∀ i : grid1.Coords, EltTy.bits .f32 = 32 ∨ (Rect.block (s := S4x4096x256) S1x2048x256.size (cc1_transform_4 i) (hinb1_4 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .i1⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x4096x256, .f32⟩
  | .hbm, ⟨9, _⟩ => ⟨S1x1x256, .f32⟩
  | .hbm, ⟨10, _⟩ => ⟨S4x4096x256, .f32⟩
  | .hbm, ⟨11, _⟩ => ⟨S4x4096x256, .f32⟩
  | .hbm, ⟨12, _⟩ => ⟨S4x4096x256, .f32⟩
  | .hbm, ⟨13, _⟩ => ⟨S1x1x256, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_call0_v0 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.WordLevel.FlashRuns.lean ====
/-
  The attention kernel (the second pallas_call; grid 4 × 2 × 8, the last axis the key tiles): what its three
  control cases share.  The body resets its three scratch buffers (running maximum, running normaliser,
  running numerator) when the key-tile coordinate is 0, and stores the output block only when it is 7;
  over the 64 points in row-major order these are the points ≡ 0 and ≡ 7 (mod 8).
  Case A: tile 0 (reset, no output).  Case B: tiles 1–6.  Case C: tile 7 (output stored).
-/
import proofs.«161376_j2439541424557_2_alg».proof.Proof.Gen.Kernel.Launch
import proofs.«161376_j2439541424557_2_alg».proof.Proof.Gen.Kernel.Skeleton
import proofs.«161376_j2439541424557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, decided over the grid -/

/-- "the key-tile coordinate is 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "the key-tile coordinate is 7", as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from tile 7 the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At tile 7 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1x2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x256 .f32 := win1_4.stage (cfg1.slots t 4)
abbrev hs1_4 (t : Fin cfg1.N) : (ms1_4 t).IsWhole := hstage1_4 ((cfg1.slots t 4).cast nbuf1_4)
/-- The three scratch buffers: running maximum, running normaliser, running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x256 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x256 .f32 := scM1_2.view
/-- One staging buffer of the output window, through which its contents are stated. -/
abbrev VO1_4 : View sig .tc .vmem S1x2048x256 .f32 := (Memref.whole cc1_stg4_0 : Memref sig .tc .vmem S1x2048x256 .f32).view

end Cert.Kernel.Hand

end
-- ==== Proof.WordLevel.FlashRunA.lean ====
/-
  The attention kernel's body at the first key tile (0): the three scratch buffers are reset (the running
  maximum to the fill value, the normaliser and the numerator to zero) and then updated with this tile, so each
  ends with two whole-buffer stores; what they held before does not matter.  No output store: the output buffer
  is handed back untouched.
-/
import proofs.«161376_j2439541424557_2_alg».proof.Proof.WordLevel.FlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs in this case: the inputs' buffers are handed back as they were, each buffer the
    body stores into ends with the listed pieces written (found when the run hands the buffer to the continuation). -/
noncomputable def kernelRun1_A (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : cond1_0 i) (hc1 : ¬cond1_1 i)
    (x0 : Vec F S1x2048x256 .bf16) (x1 : Vec F S1x512x256 .bf16) (x2 : Vec F S1x512x256 .bf16) (x3 : Vec F S1x2048x512 .i32) :
    Σ' (LS0 : List (View.Piece (Elt F) S2048x1 .f32)) (LS1 : List (View.Piece (Elt F) S2048x1 .f32)), { LS2 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.WordLevel.FlashRunB.lean ====
/-
  The attention kernel's body at a middle key tile (1–6): no reset, no output store.  The three scratch buffers come in at what the tile before left and leave with one whole-buffer store each; the output buffer is untouched.
-/
import proofs.«161376_j2439541424557_2_alg».proof.Proof.WordLevel.FlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs in this case: the inputs' buffers are handed back as they were, each buffer the
    body stores into ends with the listed pieces written (found when the run hands the buffer to the continuation). -/
noncomputable def kernelRun1_B (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬cond1_0 i) (hc1 : ¬cond1_1 i)
    (x0 : Vec F S1x2048x256 .bf16) (x1 : Vec F S1x512x256 .bf16) (x2 : Vec F S1x512x256 .bf16) (x3 : Vec F S1x2048x512 .i32) (xs0 : Vec F S2048x1 .f32) (xs1 : Vec F S2048x1 .f32) (xs2 : Vec F S2048x256 .f32) :
    Σ' (LS0 : List (View.Piece (Elt F) S2048x1 .f32)) (LS1 : List (View.Piece (Elt F) S2048x1 .f32)), { LS2 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.WordLevel.FlashRunC.lean ====
/-
  The attention kernel's body at the last key tile (7): the scratch buffers are updated as at a middle tile, and
  then the output buffer is stored whole with the quotient numerator / normaliser; what it held before does not matter.
-/
import proofs.«161376_j2439541424557_2_alg».proof.Proof.WordLevel.FlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs in this case: the inputs' buffers are handed back as they were, each buffer the
    body stores into ends with the listed pieces written (found when the run hands the buffer to the continuation). -/
noncomputable def kernelRun1_C (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬cond1_0 i) (hc1 : cond1_1 i)
    (x0 : Vec F S1x2048x256 .bf16) (x1 : Vec F S1x512x256 .bf16) (x2 : Vec F S1x512x256 .bf16) (x3 : Vec F S1x2048x512 .i32) (xs0 : Vec F S2048x1 .f32) (xs1 : Vec F S2048x1 .f32) (xs2 : Vec F S2048x256 .f32) :
    Σ' (L4 : List (View.Piece (Elt F) S1x2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Hand

end
-- ==== Proof.WordLevel.FlashCases.lean ====
/-
  The attention kernel's region (the second pallas_call), at the buffer contents `V` it is entered from: what
  each control case leaves in the three scratch buffers and the output buffer, what they hold after every grid
  point (a recursion over the 64 points: at key tile 0 the scratch is reset and updated, at tiles 1–7 it is
  updated from what the tile before left, at tile 7 the output buffer is stored), the region's invariant (before
  the first point the scoped buffers at anything; afterwards the three scratch buffers at what the point before
  left), the proof data and the body obligation at every point.
-/
import proofs.«161376_j2439541424557_2_alg».proof.Proof.WordLevel.FlashRunA
import proofs.«161376_j2439541424557_2_alg».proof.Proof.WordLevel.FlashRunB
import proofs.«161376_j2439541424557_2_alg».proof.Proof.WordLevel.FlashRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves -/

section Cases

variable (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole)
variable (x0 : Vec F S1x2048x256 .bf16) (x1 : Vec F S1x512x256 .bf16) (x2 : Vec F S1x512x256 .bf16) (x3 : Vec F S1x2048x512 .i32)

/-- The output buffer where the case stores nothing into it: a placeholder nothing consults (the window is idle
    there and not written back). -/
def outIdle1_4 : Vec F S1x2048x256 .f32 := VO1_4.read (Elt F) (VO1_4.writes (Elt F) VO1_4.junk [])

/-- Tile 0: what is left in the running maximum, the running normaliser, the running numerator. -/
def sout1_A_0 (hc0 : cond1_0 i) (hc1 : ¬cond1_1 i) : Vec F S2048x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).1)
def sout1_A_1 (hc0 : cond1_0 i) (hc1 : ¬cond1_1 i) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.1)
def sout1_A_2 (hc0 : cond1_0 i) (hc1 : ¬cond1_1 i) : Vec F S2048x256 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.1)
theorem scover1_A_0 (hc0 : cond1_0 i) (hc1 : ¬cond1_1 i) (y : S2048x1.Idx) :
    ∃ pc ∈ (kernelRun1_A c i arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg3 harg3 arg4 harg4 arg5 harg5 arg6 harg6 arg7 harg7 arg8 harg8 arg9 harg9 arg10 harg10 hc0 hc1 x0 x1 x2 x3).1 S2048x1.size (by sl_kernel_rfl) y
theorem scover1_A_1 (hc0 : cond1_0 i) (hc1 : ¬cond1_1 i) (y : S2048x1.Idx) :
    ∃ pc ∈ (kernelRun1_A c i arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.1 S2048x1.size (by sl_kernel_rfl) y
theorem scover1_A_2 (hc0 : cond1_0 i) (hc1 : ¬cond1_1 i) (y : S2048x256.Idx) :
    ∃ pc ∈ (kernelRun1_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.1 S2048x256.size (by sl_kernel_rfl) y

variable (xs0 : Vec F S2048x1 .f32) (xs1 : Vec F S2048x1 .f32) (xs2 : Vec F S2048x256 .f32)

/-- Tiles 1–6: the same three, from what the tile before left (`xs·`). -/
def sout1_B_0 (hc0 : ¬cond1_0 i) (hc1 : ¬cond1_1 i) : Vec F S2048x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).1)
def sout1_B_1 (hc0 : ¬cond1_0 i) (hc1 : ¬cond1_1 i) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.1)
def sout1_B_2 (hc0 : ¬cond1_0 i) (hc1 : ¬cond1_1 i) : Vec F S2048x256 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.1)
theorem scover1_B_0 (hc0 : ¬cond1_0 i) (hc1 : ¬cond1_1 i) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).1 S2048x1.size (by sl_kernel_rfl) y
theorem scover1_B_1 (hc0 : ¬cond1_0 i) (hc1 : ¬cond1_1 i) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.1 S2048x1.size (by sl_kernel_rfl) y
theorem scover1_B_2 (hc0 : ¬cond1_0 i) (hc1 : ¬cond1_1 i) (y : S2048x256.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S2048x256.size (by sl_kernel_rfl) y

/-- Tile 7: the output buffer and the same three. -/
def out1_C_4 (hc0 : ¬cond1_0 i) (hc1 : cond1_1 i) : Vec F S1x2048x256 .f32 :=
  VO1_4.read (Elt F) (VO1_4.writes (Elt F) VO1_4.junk (kernelRun1_C c i arg3 harg3 arg4 harg4 arg5 harg5 arg6 harg6 arg7 harg7 arg8 harg8 arg9 harg9 arg10 harg10 hc0 hc1 x0 x1 x2 x3 xs0 xs1 xs2).1)
def sout1_C_0 (hc0 : ¬cond1_0 i) (hc1 : cond1_1 i) : Vec F S2048x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 xs0 xs1 xs2).2.1)
def sout1_C_1 (hc0 : ¬cond1_0 i) (hc1 : cond1_1 i) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 xs0 xs1 xs2).2.2.1)
def sout1_C_2 (hc0 : ¬cond1_0 i) (hc1 : cond1_1 i) : Vec F S2048x256 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 x3 xs0 xs1 xs2).2.2.2.1)
theorem cover1_C_4 (hc0 : ¬cond1_0 i) (hc1 : cond1_1 i) (y : S1x2048x256.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).1 S1x2048x256.size (by sl_kernel_rfl) y
theorem scover1_C_0 (hc0 : ¬cond1_0 i) (hc1 : cond1_1 i) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.1 S2048x1.size (by sl_kernel_rfl) y
theorem scover1_C_1 (hc0 : ¬cond1_0 i) (hc1 : cond1_1 i) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.1 S2048x1.size (by sl_kernel_rfl) y
theorem scover1_C_2 (hc0 : ¬cond1_0 i) (hc1 : cond1_1 i) (y : S2048x256.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.2.1 S2048x256.size (by sl_kernel_rfl) y

end Cases

end Cert.Kernel.Hand

end
-- ==== Proof.WordLevel.FlashData.lean ====
/-
  The attention kernel's region, continued: what the output buffer and the three scratch buffers hold after
  every grid point, the invariant that carries the scratch from one point to the next, the proof data and the
  body obligation.
-/
import proofs.«161376_j2439541424557_2_alg».proof.Proof.WordLevel.FlashCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## After each point -/

/-- What the output's staging buffer and the three scratch buffers (running maximum, normaliser, numerator)
    hold after the body at position `n`: tile 0 resets and updates; tiles 1–6 update what position `n − 1` left;
    tile 7 also stores the output.  (Positions run over batch, query tile, key tile in row-major order, so the
    key tile is `n % 8`.) -/
def outsAt1 (c : Dev nD) : (n : ℕ) → n < cfg1.N → Vec F S1x2048x256 .f32 × Vec F S2048x1 .f32 × Vec F S2048x1 .f32 × Vec F S2048x256 .f32
  | 0, hn => (outIdle1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (iblk1 V c 0 ⟨0, hn⟩) (iblk1 V c 1 ⟨0, hn⟩) (iblk1 V c 2 ⟨0, hn⟩) (iblk1 V c 3 ⟨0, hn⟩) ((hcond1_0 ⟨0, hn⟩).mpr (Nat.zero_mod _)) (fun h => (fun h => by (try dsimp only at h); omega) ((hcond1_1 ⟨0, hn⟩).mp h)), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (iblk1 V c 0 ⟨0, hn⟩) (iblk1 V c 1 ⟨0, hn⟩) (iblk1 V c 2 ⟨0, hn⟩) (iblk1 V c 3 ⟨0, hn⟩) ((hcond1_0 ⟨0, hn⟩).mpr (Nat.zero_mod _)) (fun h => (fun h => by (try dsimp only at h); omega) ((hcond1_1 ⟨0, hn⟩).mp h)), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (iblk1 V c 0 ⟨0, hn⟩) (iblk1 V c 1 ⟨0, hn⟩) (iblk1 V c 2 ⟨0, hn⟩) (iblk1 V c 3 ⟨0, hn⟩) ((hcond1_0 ⟨0, hn⟩).mpr (Nat.zero_mod _)) (fun h => (fun h => by (try dsimp only at h); omega) ((hcond1_1 ⟨0, hn⟩).mp h)))
  | n + 1, hn =>
    if h0 : (n + 1) % 8 = 0 then
      if h1 : (n + 1) % 8 = 7 then
        False.elim (by omega)
      else
        (outIdle1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) ((hcond1_0 ⟨n + 1, hn⟩).mpr h0) (fun h => h1 ((hcond1_1 ⟨n + 1, hn⟩).mp h)), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) ((hcond1_0 ⟨n + 1, hn⟩).mpr h0) (fun h => h1 ((hcond1_1 ⟨n + 1, hn⟩).mp h)), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) ((hcond1_0 ⟨n + 1, hn⟩).mpr h0) (fun h => h1 ((hcond1_1 ⟨n + 1, hn⟩).mp h)))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1), sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1), sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1), sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1))
      else
        (outIdle1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) (fun h => h1 ((hcond1_1 ⟨n + 1, hn⟩).mp h)), sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) (fun h => h1 ((hcond1_1 ⟨n + 1, hn⟩).mp h)), sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) (fun h => h1 ((hcond1_1 ⟨n + 1, hn⟩).mp h)))

theorem outsAt1_A (c : Dev nD) (t : Fin cfg1.N) (h0 : t.val % 8 = 0) (h1 : ¬t.val % 8 = 7) :
    outsAt1 V c t.val t.isLt = (outIdle1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((hcond1_0 t).mpr h0) (fun h => h1 ((hcond1_1 t).mp h)), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((hcond1_0 t).mpr h0) (fun h => h1 ((hcond1_1 t).mp h)), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h)), sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h)), sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h))) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1), sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1), sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1), sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that belong to the other pallas_call: untouched here, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the region is handed at entry, with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region's invariant before position `n`: before the first point, what the region is handed; afterwards the
    three scratch buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The region's proof data on core `c`: the arrays as the region finds them; after the body at point `t` each
    input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Cert.Kernel.Hand

end
-- ==== Proof.WordLevel.FlashBody.lean ====
/-
  The attention kernel's region: the body obligation at every grid point.  The key tile of a point decides its
  case (tile 0: reset and update; tiles 1–6: update; tile 7: update and store the output); the inputs' buffers hold
  their blocks; the invariant hands the body the three scratch buffers at what the point before left (at anything
  before the first point) and takes them back at this point's contents; the output buffer is handed back untouched
  except at tile 7, where it is covered by the one store.
-/
import proofs.«161376_j2439541424557_2_alg».proof.Proof.WordLevel.FlashData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0 sout1_A_1 sout1_A_2; (try dsimp only)
    by_cases hz : t.val = 0
    · rw [PhiS_castSucc V c t, PhiS_zero V c _ _ hz, PhiA1_eq]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1 sout1_C_2; (try dsimp only)
      rw [PhiS_castSucc V c t, PhiS_pos V c _ _ hz]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at entry is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨O1, O2, O3, O4, O5, O6, O7, O8, O9, O10, O11, O12, O13, O14, HS0, HS1, HS2⟩, Hg⟩
  isplitl [O1 O2 O3 O4 O5 O6 O7 O8 O9 O10 O11 O12 O13 O14 HS0 HS1 HS2]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [O14]; · iexact O14
    isplitl [HS0]; · iexists _; iexact HS0
    isplitl [HS1]; · iexists _; iexact HS1
    iexists _; iexact HS2
  iexact Hg

theorem hout1 (c : Dev nD) : (dat1 V c).Φ (Fin.last cfg1.N) ⊢ (Pipeline.ΦA spec1 c : sProp 𝕄) :=
  Phi_out1 V c _ (by rw [Fin.val_last]; have : cfg1.N = 64 := N_1; omega)

end Cert.Kernel.Hand

end
-- ==== Proof.WordLevel.QkvFrame.lean ====
/-
  The projection kernel (the first pallas_call; grid 4 × 4, point (b, s) = batch b, row tile s of 1024 rows):
  what its body does to the staging buffers, and the proof data of its pipeline.

  Windows 0–6 are inputs: a 1 × 1024 × 256 block of the activations x, then the three weight matrices and
  their biases whole (Wq, bq, Wk, bk, Wv, bv), which never move and are fetched once.  Windows 7, 8, 9 are
  the outputs Q, K, V: one 1 × 1024 × 256 block each, stored whole by the body and written back at every
  point.  The body reads each output buffer just before it stores it; that value is never used.
-/
import proofs.«161376_j2439541424557_2_alg».proof.Proof.Gen.Kernel.Launch
import proofs.«161376_j2439541424557_2_alg».proof.Proof.Gen.Kernel.Skeleton
import proofs.«161376_j2439541424557_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the projection region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s (`hA`) and whose body leaves the block in place (`hafter`): where the window is not
    fetched its block index has not moved (the weights and biases are fetched at the first point only and their
    index is constant), the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S1x1024x256 := Rect.unit (s := S1x1024x256) ![0, 0, 0] S1x1024x256.size inb_S1x1024x256_S1x1024x256_0_0_0
abbrev rW0 : Rect S256x256 := Rect.unit (s := S256x256) ![0, 0] S256x256.size inb_S256x256_S256x256_0_0
abbrev rB0 : Rect S256 := Rect.unit (s := S256) ![0] S256.size inb_S256_S256_0

/-! ## What the body leaves in each output window's buffer -/

/-- Window 7 (Q) after the body, from the input blocks: its one store, of the scaled projection of the x block by Wq, bq. -/
def out0_7 (x0 : Vec F S1x1024x256 .f32) (x1 : Vec F S256x256 .f32) (x2 : Vec F S256 .f32) (x3 : Vec F S256x256 .f32) (x4 : Vec F S256 .f32) (x5 : Vec F S256x256 .f32) (x6 : Vec F S256 .f32) : Vec F S1x1024x256 .bf16 :=
  View.canon [⟨rX0, k0_pay4 (View.ld x0 rX0) (View.ld x1 rW0) (View.ld x2 rB0)⟩]

/-- Window 8 (K) after the body: its one store, of the projection of the x block by Wk, bk. -/
def out0_8 (x0 : Vec F S1x1024x256 .f32) (x1 : Vec F S256x256 .f32) (x2 : Vec F S256 .f32) (x3 : Vec F S256x256 .f32) (x4 : Vec F S256 .f32) (x5 : Vec F S256x256 .f32) (x6 : Vec F S256 .f32) : Vec F S1x1024x256 .bf16 :=
  View.canon [⟨rX0, k0_pay5 (View.ld x0 rX0) (View.ld x3 rW0) (View.ld x4 rB0)⟩]

/-- Window 9 (V) after the body: its one store, of the projection of the x block by Wv, bv. -/
def out0_9 (x0 : Vec F S1x1024x256 .f32) (x1 : Vec F S256x256 .f32) (x2 : Vec F S256 .f32) (x3 : Vec F S256x256 .f32) (x4 : Vec F S256 .f32) (x5 : Vec F S256x256 .f32) (x6 : Vec F S256 .f32) : Vec F S1x1024x256 .bf16 :=
  View.canon [⟨rX0, k0_pay1 (k0_pay3 (View.ld x0 rX0) (View.ld x5 rW0) (View.ld x6 rB0))⟩]

/-- A whole-buffer store covers the buffer. -/
theorem cover0_X (p0 : Vec F S1x1024x256 .bf16) (y : S1x1024x256.Idx) :
    ∃ pc ∈ ([⟨rX0, p0⟩] : List (View.Piece (Elt F) S1x1024x256 .bf16)), y ∈ pc.1.set :=
  View.cover_of_tiled [⟨rX0, p0⟩] S1x1024x256.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg2 : Memref sig .tc .vmem S1x1024x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S256x256 .f32) (harg7 : arg7.IsWhole)
    (arg8 : Memref sig .tc .vmem S256 .f32) (harg8 : arg8.IsWhole) (arg9 : Memref sig .tc .vmem S1x1024x256 .bf16) (harg9 : arg9.IsWhole)
    (arg10 : Memref sig .tc .vmem S1x1024x256 .bf16) (harg10 : arg10.IsWhole) (arg11 : Memref sig .tc .vmem S1x1024x256 .bf16) (harg11 : arg11.IsWhole)
    (x0 : Vec F S1x1024x256 .f32) (x1 : Vec F S256x256 .f32) (x2 : Vec F S256 .f32) (x3 : Vec F S256x256 .f32) (x4 : Vec F S256 .f32)
    (x5 : Vec F S256x256 .f32) (x6 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare (out0_7 x0 x1 x2 x3 x4 x5 x6)
            ∗ owns (c : Thread nD τ) arg10 fullShare (out0_8 x0 x1 x2 x3 x4 x5 x6)
            ∗ owns (c : Thread nD τ) arg11 fullShare (out0_9 x0 x1 x2 x3 x4 x5 x6)) -∗ K ⟨⟩))
      ⊢ wp frame (wpE (defs₀ (F := F)) Variants.none c none) E
          (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_X _)
  isplitl [H8]
  · iexists _; isplitr
    swap; · iexact H8
    ipureintro
    exact View.read_writes_eq_canon _ _ _ (cover0_X _)
  iexists _; isplitr
  swap; · iexact H9
  ipureintro
  exact View.read_writes_eq_canon _ _ _ (cover0_X _)

/-! ## The pipeline's proof data -/

/-- The proof data of the projection pipeline on core `c`: the arrays as the region finds them (`V`); after the body
    at point `t` each input's buffer at its block and each output's at `out0_W` of the input blocks; the invariant
    "the scoped rest and the random-number register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordLevel.RegionsRun.lean ====
/-
  The run of the whole program on the TensorCores, from the two kernel regions' proof data.

  The program is three items in order: the projection kernel (region 0), one host operation (the mask's bits widened
  to 32-bit integers) and the attention kernel (region 1).  Between two items every unscoped buffer of a core is held
  whole at a known contents:

    B0  at launch: the launch memory;
    B1  after region 0: the region's arrays at what its write-backs leave, every other buffer as before;
    B2  after the host operation: its result written, every other buffer as before;
    B3  after region 1: again the region's arrays at what its write-backs leave.

  Each region is entered with its arrays split out of that state and left with them put back; the generator register and
  the core's (empty) dues ride along.  The last state is read against the final memory: the result buffer holds region
  1's output array after its last write-back, and every argument buffer what it held at launch, because no item writes
  an argument.
-/
import proofs.«161376_j2439541424557_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A TensorCore's buffer contents, core by core: what a region's proof data are stated at. -/
abbrev Cont (F : FTy → Type) : Type := (c : Dev nD) → (b : Ref sig .tc) → Buf (Elt F) ((c : Thread nD τ).loc b)

section Run

variable (dat0 : Cont F → (c : Dev nD) → Dat τ (Elt F) Unit ℕ (UR sig nD τ) ℕ cfg0 c)
  (dat1 : Cont F → (c : Dev nD) → Dat τ (Elt F) Unit ℕ (UR sig nD τ) ℕ cfg1 c)
  (m : (ℓ : Loc nD τ sig) → Buf (Elt F) ℓ)

/-! ## The buffer contents between the items -/

/-- Core c's buffers at launch. -/
abbrev B0 : Dev nD → Valuation τ sig (Elt F) := fun c b => m ((c : Dev nD), b)
/-- The same read at the TensorCore's references: what region 0 is entered from. -/
def E0 : Cont F := fun c b => B0 m c b
theorem E0_apply (c : Dev nD) (b : Ref sig .tc) : E0 m c b = m ((c : Thread nD τ).loc b) := rfl
/-- After region 0: its arrays at what the pipeline leaves, every other buffer as entered. -/
def B1 (c : Dev nD) : Valuation τ sig (Elt F) :=
  Pipeline.withArrays spec0 c (B0 m c) fun w => (dat0 (E0 m) c).arrAt w cfg0.N
/-- The same read at the TensorCore's references. -/
abbrev X0 : Cont F := fun c b => B1 dat0 m c b
/-- After the host operation. -/
abbrev B2 : Dev nD → Valuation τ sig (Elt F) := fun c => StableHlo.after hostOps1 (B1 dat0 m c)
/-- The same read at the TensorCore's references: what region 1 is entered from. -/
def E1 : Cont F := fun c b => B2 dat0 m c b
/-- After region 1: its arrays at what the pipeline leaves, every other buffer as entered. -/
def B3 (c : Dev nD) : Valuation τ sig (Elt F) :=
  Pipeline.withArrays spec1 c (B2 dat0 m c) fun w => (dat1 (E1 dat0 m) c).arrAt w cfg1.N
/-- The same read at the TensorCore's references. -/
abbrev X1 : Cont F := fun c b => B3 dat0 dat1 m c b

theorem B1_arr (c : Dev nD) (w : Fin cfg0.W) :
    B1 dat0 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 dat0 m c (Proc.devRef .tc b) = B0 m c (Proc.devRef .tc b) := by
  unfold B1; exact Pipeline.withArrays_of_ne spec0 c _ _ b hb
theorem B2_of (c : Dev nD) (r : Ref sig .tc) (h : r ∉ hostOps1_W) :
    B2 dat0 m c (Proc.devRef .tc r) = B1 dat0 m c (Proc.devRef .tc r) :=
  StableHlo.after_of_writes_sub hostOps1 _ hostOps1_writes h
theorem B3_arr (c : Dev nD) (w : Fin cfg1.W) :
    B3 dat0 dat1 m c (Proc.devRef .tc (Pipeline.arrRef spec1 w)) = (dat1 (E1 dat0 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 dat0 dat1 m c (Proc.devRef .tc b) = B2 dat0 m c (Proc.devRef .tc b) := by
  unfold B3; exact Pipeline.withArrays_of_ne spec1 c _ _ b hb

/-! ## What region 1 is entered from -/

theorem E1_v0_0 (c : Dev nD) : E1 dat0 m c main_v0_0 = (dat0 (E0 m) c).arrAt 7 cfg0.N :=
  (B2_of dat0 m c main_v0_0 (by decide)).trans (B1_arr dat0 m c 7)
theorem E1_v0_1 (c : Dev nD) : E1 dat0 m c main_v0_1 = (dat0 (E0 m) c).arrAt 8 cfg0.N :=
  (B2_of dat0 m c main_v0_1 (by decide)).trans (B1_arr dat0 m c 8)
theorem E1_v0_2 (c : Dev nD) : E1 dat0 m c main_v0_2 = (dat0 (E0 m) c).arrAt 9 cfg0.N :=
  (B2_of dat0 m c main_v0_2 (by decide)).trans (B1_arr dat0 m c 9)

theorem E1_v1 (c : Dev nD) :
    E1 dat0 m c main_v1 = ((extui 32 · natLt_1_32) : (⟨S4x4096x4096, .i1⟩ : BufTy).Contents (Elt F) → (⟨S4x4096x4096, .i32⟩ : BufTy).Contents (Elt F)) (m ((c : Thread nD τ).loc main_arg1)) := by
  show StableHlo.after hostOps1 (B1 dat0 m c) (Proc.devRef .tc main_v1) = _
  rw [hostOps1]
  after_results
  rw [B1_of_ne dat0 m c main_arg1 (by decide)]

/-! ## The arguments end as launched

No item writes an argument: region 1 and the host operation do not touch one; region 0 reads seven of them through
input windows, whose arrays no write-back changes, and bypasses the eighth. -/

section Args

variable (hA0 : ∀ V c w, (dat0 V c).A w = V c (Pipeline.arrRef spec0 w))
include hA0

/-- An argument region 0 reads through the input window w. -/
theorem B3_arg_in (c : Dev nD) (r : Ref sig .tc) (w : Fin cfg0.W) (hw : Pipeline.arrRef spec0 w = r) (hin : (cfg0.win w).isOut = false)
    (h1 : ∀ w, Pipeline.arrRef spec1 w ≠ r) (h2 : r ∉ hostOps1_W) :
    B3 dat0 dat1 m c (Proc.devRef .tc r) = m ((c : Thread nD τ).loc r) := by
  subst hw
  calc B3 dat0 dat1 m c (Proc.devRef .tc (Pipeline.arrRef spec0 w))
    _ = B2 dat0 m c (Proc.devRef .tc (Pipeline.arrRef spec0 w)) := B3_of_ne dat0 dat1 m c _ h1
    _ = B1 dat0 m c (Proc.devRef .tc (Pipeline.arrRef spec0 w)) := B2_of dat0 m c _ h2
    _ = (dat0 (E0 m) c).A w := (B1_arr dat0 m c w).trans ((dat0 (E0 m) c).arrAt_in w hin _)
    _ = E0 m c (Pipeline.arrRef spec0 w) := hA0 _ c w
    _ = m ((c : Thread nD τ).loc (Pipeline.arrRef spec0 w)) := rfl

theorem B3_main_arg0 (c : Dev nD) : B3 dat0 dat1 m c (Proc.devRef .tc main_arg0) = m ((c : Thread nD τ).loc main_arg0) :=
  B3_arg_in dat0 dat1 m hA0 c main_arg0 0 rfl rfl (by decide) (by decide)
theorem B3_main_arg2 (c : Dev nD) : B3 dat0 dat1 m c (Proc.devRef .tc main_arg2) = m ((c : Thread nD τ).loc main_arg2) :=
  B3_arg_in dat0 dat1 m hA0 c main_arg2 1 rfl rfl (by decide) (by decide)
theorem B3_main_arg3 (c : Dev nD) : B3 dat0 dat1 m c (Proc.devRef .tc main_arg3) = m ((c : Thread nD τ).loc main_arg3) :=
  B3_arg_in dat0 dat1 m hA0 c main_arg3 2 rfl rfl (by decide) (by decide)
theorem B3_main_arg4 (c : Dev nD) : B3 dat0 dat1 m c (Proc.devRef .tc main_arg4) = m ((c : Thread nD τ).loc main_arg4) :=
  B3_arg_in dat0 dat1 m hA0 c main_arg4 3 rfl rfl (by decide) (by decide)
theorem B3_main_arg5 (c : Dev nD) : B3 dat0 dat1 m c (Proc.devRef .tc main_arg5) = m ((c : Thread nD τ).loc main_arg5) :=
  B3_arg_in dat0 dat1 m hA0 c main_arg5 4 rfl rfl (by decide) (by decide)
theorem B3_main_arg6 (c : Dev nD) : B3 dat0 dat1 m c (Proc.devRef .tc main_arg6) = m ((c : Thread nD τ).loc main_arg6) :=
  B3_arg_in dat0 dat1 m hA0 c main_arg6 5 rfl rfl (by decide) (by decide)
theorem B3_main_arg7 (c : Dev nD) : B3 dat0 dat1 m c (Proc.devRef .tc main_arg7) = m ((c : Thread nD τ).loc main_arg7) :=
  B3_arg_in dat0 dat1 m hA0 c main_arg7 6 rfl rfl (by decide) (by decide)

end Args

/-- The mask: no region stages it and the host operation only reads it. -/
theorem B3_main_arg1 (c : Dev nD) : B3 dat0 dat1 m c (Proc.devRef .tc main_arg1) = m ((c : Thread nD τ).loc main_arg1) :=
  calc B3 dat0 dat1 m c (Proc.devRef .tc main_arg1)
    _ = B2 dat0 m c (Proc.devRef .tc main_arg1) := B3_of_ne dat0 dat1 m c main_arg1 (by decide)
    _ = B1 dat0 m c (Proc.devRef .tc main_arg1) := B2_of dat0 m c main_arg1 (by decide)
    _ = B0 m c (Proc.devRef .tc main_arg1) := B1_of_ne dat0 m c main_arg1 (by decide)
    _ = m ((c : Thread nD τ).loc main_arg1) := rfl

/-- The result buffer is region 1's output array after its last write-back. -/
theorem B3_main_v2 (c : Dev nD) : B3 dat0 dat1 m c (Proc.devRef .tc main_v2) = (dat1 (E1 dat0 m) c).arrAt 4 cfg1.N :=
  B3_arr dat0 dat1 m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 dat0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (B3 dat0 dat1 m c) ∗ ∃ r, prngReg c r)

/-- At region 0's exit each of its arrays holds what the pipeline leaves and every other buffer what it held at entry. -/
theorem hF0 (c : Dev nD) (w : Fin cfg0.W) : (dat0 (E0 m) c).arrAt w cfg0.N = X0 dat0 m c (Pipeline.arrRef spec0 w) :=
  (B1_arr dat0 m c w).symm
theorem hrest0 (c : Dev nD) : ∀ b, b ∉ Finset.univ.image (Pipeline.arrRef spec0) → X0 dat0 m c b = E0 m c b :=
  fun b hb => B1_of_ne dat0 m c b fun w e => hb (Finset.mem_image.mpr ⟨w, Finset.mem_univ _, e⟩)
/-- The same at region 1's exit. -/
theorem hF1 (c : Dev nD) (w : Fin cfg1.W) : (dat1 (E1 dat0 m) c).arrAt w cfg1.N = X1 dat0 dat1 m c (Pipeline.arrRef spec1 w) :=
  (B3_arr dat0 dat1 m c w).symm
theorem hrest1 (c : Dev nD) : ∀ b, b ∉ Finset.univ.image (Pipeline.arrRef spec1) → X1 dat0 dat1 m c b = E1 dat0 m c b :=
  fun b hb => B3_of_ne dat0 dat1 m c b fun w e => hb (Finset.mem_image.mpr ⟨w, Finset.mem_univ _, e⟩)

/-! ## The regions as segments -/

section Regions

variable (hA0 : ∀ V c w, (dat0 V c).A w = V c (Pipeline.arrRef spec0 w))
  (hΦ0 : ∀ V c t, (dat0 V c).Φ t = Pipeline.ΦA spec0 c)
  (hq0 : ∀ V c w, (dat0 V c).q w = fullShare) (ho0 : ∀ V c t, (dat0 V c).owed t = 0)
  (hr0 : ∀ V c t, (dat0 V c).recorded t = Set.univ)
  (hb0 : ∀ V c, BodyObligation (dat0 V c) (defs₀ (F := F)) Variants.none () Set.univ)
  (hA1 : ∀ V c w, (dat1 V c).A w = V c (Pipeline.arrRef spec1 w))
  (hq1 : ∀ V c w, (dat1 V c).q w = fullShare) (ho1 : ∀ V c t, (dat1 V c).owed t = 0)
  (hr1 : ∀ V c t, (dat1 V c).recorded t = Set.univ)
  (hb1 : ∀ V c, BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)

set_option backward.isDefEq.respectTransparency.types false in
/-- REGION 0 over the thread state: entered from every unscoped buffer at the launch contents, left at B1. Its arrays
    are split out of the unscoped buffers and put back at the exit contents; the generator register goes into the region's
    invariant and comes back; nothing is owed; the kernel has no semaphore of its own. -/
def reg0 : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := (hb0 (E0 m) c).loose
  hwaits := Pipeline.hwaits_of_owed_zero _ _ _ _ L lv 0 fun c t => ho0 (E0 m) c t
  pre c := iprop(StableHlo.held (c : Thread nD τ) (Pipeline.ucRefs τ sig) (B0 m c) ∗ R c)
  post c := iprop(StableHlo.held (c : Thread nD τ) (Pipeline.ucRefs τ sig) (B1 dat0 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hq0 (E0 m) c w) (E0 m c) fun w => hA0 (E0 m) c w
    rw [show unscopedBufs c (E0 m c) = StableHlo.held (c : Thread nD τ) (Pipeline.ucRefs τ sig) (B0 m c)
      from Pipeline.unscopedBufs_held c (B0 m c)] at hsplit
    have hrec : (pdats dat0 dat1 m 0 c).recorded 0 = Set.univ := hr0 (E0 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m 0 c).owed 0 = 0 from ho0 (E0 m) c 0]
      icases HO with ⟨%W, HO⟩; iexists W; isplitr; · ipureintro; exact fun x _ => Or.inl (by rw [hrec]; trivial)
      iexact HO
    isplitl [Hp]; · iexact Hp
    iexact Hrest
  hin c := by
    rw [show (pdats dat0 dat1 m 0 c).Φ 0 = Pipeline.ΦA spec0 c from hΦ0 (E0 m) c 0]; unfold Pipeline.ΦA
    iintro ⟨Hp, -, Hr⟩
    isplitl [Hr]; · iexact Hr
    iexact Hp
  hout c := by
    rw [Pipeline.ownSems0_none, show (pdats dat0 dat1 m 0 c).Φ (Fin.last _) = Pipeline.ΦA spec0 c from hΦ0 (E0 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hq0 (E0 m) c w)
      (E0 m c) (X0 dat0 m c) ((pdats dat0 dat1 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 m 0 c).owed (Fin.last _) = 0 from ho0 (E0 m) c _]
    icases HO with ⟨%W, -, HO⟩; iexists W; iexact HO

set_option backward.isDefEq.respectTransparency.types false in
/-- REGION 1 over the thread state: entered from every unscoped buffer at B2, left at B3 (what the launch reads at the
    end). As region 0, but its invariant is its own at every point (it names the carried scratch): the class's invariant
    yields it before the first point and it yields the class's back after the last. -/
def reg1 : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := (hb1 (E1 dat0 m) c).loose
  hwaits := Pipeline.hwaits_of_owed_zero _ _ _ _ L lv 1 fun c t => ho1 (E1 dat0 m) c t
  pre c := iprop(StableHlo.held (c : Thread nD τ) (Pipeline.ucRefs τ sig) (B2 dat0 m c) ∗ R c)
  post c := iprop(Tₙ dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hq1 (E1 dat0 m) c w) (E1 dat0 m c) fun w => hA1 (E1 dat0 m) c w
    rw [show unscopedBufs c (E1 dat0 m c) = StableHlo.held (c : Thread nD τ) (Pipeline.ucRefs τ sig) (B2 dat0 m c)
      from Pipeline.unscopedBufs_held c (B2 dat0 m c)] at hsplit
    have hrec : (pdats dat0 dat1 m 1 c).recorded 0 = Set.univ := hr1 (E1 dat0 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m 1 c).owed 0 = 0 from ho1 (E1 dat0 m) c 0]
      icases HO with ⟨%W, HO⟩; iexists W; isplitr; · ipureintro; exact fun x _ => Or.inl (by rw [hrec]; trivial)
      iexact HO
    isplitl [Hp]; · iexact Hp
    iexact Hrest
  hin c := by
    refine BIBase.Entails.trans ?_ (hin1 (E1 dat0 m) c)
    unfold Pipeline.ΦA
    iintro ⟨Hp, -, Hr⟩
    isplitl [Hr]; · iexact Hr
    iexact Hp
  hout c := by
    refine (hout1 (E1 dat0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hq1 (E1 dat0 m) c w)
      (E1 dat0 m c) (X1 dat0 dat1 m c) ((pdats dat0 dat1 m 1 c).arrAt · cfg1.N) (hF1 dat0 dat1 m c) (hrest1 dat0 dat1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 m 1 c).owed (Fin.last _) = 0 from ho1 (E1 dat0 m) c _]
    icases HO with ⟨%W, -, HO⟩; iexists W; iexact HO

/-! ## The program as segments, and the launch -/

/-- The host operation as a segment over the unscoped references from the contents B1, R riding along: it ends at B2. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 dat0 m) R

/-- The program's 3 segments in order. -/
abbrev runSegs : List (Pipeline.Seg (pcfgs (F := F)) adm (pdats dat0 dat1 m) () defs₀ 𝒱₀ L lv) :=
  [ .region (reg0 dat0 dat1 m hA0 hΦ0 hq0 ho0 hr0 hb0),
    .host (hseg1 dat0 m),
    .region (reg1 dat0 dat1 m hA1 hq1 ho1 hr1 hb1 hin1 hout1) ]

/-- The program IS the run of the segments. -/
theorem main_run (c : Dev nD) : main (F := F) c
    = Pipeline.Seg.run (runSegs dat0 dat1 m hA0 hΦ0 hq0 ho0 hr0 hb0 hA1 hq1 ho1 hr1 hb1 hin1 hout1) :=
  (main_chain c).trans (by chain_rfl)

include hA0 hΦ0 hq0 ho0 hr0 hb0 hA1 hq1 ho1 hr1 hb1 hin1 hout1 in
set_option backward.isDefEq.respectTransparency.types false in
/-- THE RUN. From any memory with zero counters, every weakly fair execution of the program on the TensorCores
    terminates, nothing faulting, and every final memory holds, on every core, region 1's output array after its last
    write-back in the result buffer and each argument as launched. -/
theorem run_regions (ρ : Dev nD → PrngReg) : θ_run defs (onTc (τ := τ) (main (F := F))) ⟨m, fun _ => 0, ρ⟩ (fun r => ∀ c : Dev nD,
      r.2.mem ((c.tc : Thread nD τ).loc main_v2) = (dat1 (E1 dat0 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats dat0 dat1 m) () cellOf_inj emb₁ defs₀ 𝒱₀ L lv m ρ main
    (runSegs dat0 dat1 m hA0 hΦ0 hq0 ho0 hr0 hb0 hA1 hq1 ho1 hr1 hb1 hin1 hout1)
    (fun c Q => by rw [main_run dat0 dat1 m hA0 hΦ0 hq0 ho0 hr0 hb0 hA1 hq1 ho1 hr1 hb1 hin1 hout1 c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ dat0 dat1 m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (B3 dat0 dat1 m c) s')
      isplitl [Hh] <;> iassumption)
    (hQ := fun s h c =>
      ⟨(h c _ (mem_uc main_v2 (by decide))).trans (B3_main_v2 dat0 dat1 m c),
       (h c _ (mem_uc main_arg0 (by decide))).trans (B3_main_arg0 dat0 dat1 m hA0 c),
       (h c _ (mem_uc main_arg1 (by decide))).trans (B3_main_arg1 dat0 dat1 m c),
       (h c _ (mem_uc main_arg2 (by decide))).trans (B3_main_arg2 dat0 dat1 m hA0 c),
       (h c _ (mem_uc main_arg3 (by decide))).trans (B3_main_arg3 dat0 dat1 m hA0 c),
       (h c _ (mem_uc main_arg4 (by decide))).trans (B3_main_arg4 dat0 dat1 m hA0 c),
       (h c _ (mem_uc main_arg5 (by decide))).trans (B3_main_arg5 dat0 dat1 m hA0 c),
       (h c _ (mem_uc main_arg6 (by decide))).trans (B3_main_arg6 dat0 dat1 m hA0 c),
       (h c _ (mem_uc main_arg7 (by decide))).trans (B3_main_arg7 dat0 dat1 m hA0 c)⟩)

end Regions

end Run

end Cert.Kernel.Hand

end
-- ==== Proof.FlashRuns.lean ====
/-
  The attention kernel (the second pallas_call; grid 4 × 2 × 8, the last axis the key tiles): what its three
  control cases share.  The body resets its three scratch buffers (running maximum, running normaliser,
  running numerator) when the key-tile coordinate is 0, and stores the output block only when it is 7;
  over the 64 points in row-major order these are the points ≡ 0 and ≡ 7 (mod 8).
  Case A: tile 0 (reset, no output).  Case B: tiles 1–6.  Case C: tile 7 (output stored).
-/
import proofs.«161376_j2439541424557_2_alg».proof.Proof.Gen.KernelIdeal.Launch
import proofs.«161376_j2439541424557_2_alg».proof.Proof.Gen.KernelIdeal.Skeleton
import proofs.«161376_j2439541424557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, decided over the grid -/

/-- "the key-tile coordinate is 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "the key-tile coordinate is 7", as the body computes it. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from tile 7 the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At tile 7 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1x2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x256 .f32 := win1_4.stage (cfg1.slots t 4)
abbrev hs1_4 (t : Fin cfg1.N) : (ms1_4 t).IsWhole := hstage1_4 ((cfg1.slots t 4).cast nbuf1_4)
/-- The three scratch buffers: running maximum, running normaliser, running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x256 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x256 .f32 := scM1_2.view
/-- One staging buffer of the output window, through which its contents are stated. -/
abbrev VO1_4 : View sig .tc .vmem S1x2048x256 .f32 := (Memref.whole cc1_stg4_0 : Memref sig .tc .vmem S1x2048x256 .f32).view

end Cert.KernelIdeal.Hand

end
-- ==== Proof.FlashRunA.lean ====
/-
  The attention kernel's body at the first key tile (0): the three scratch buffers are reset (the running
  maximum to the fill value, the normaliser and the numerator to zero) and then updated with this tile, so each
  ends with two whole-buffer stores; what they held before does not matter.  No output store: the output buffer
  is handed back untouched.
-/
import proofs.«161376_j2439541424557_2_alg».proof.Proof.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs in this case: the inputs' buffers are handed back as they were, each buffer the
    body stores into ends with the listed pieces written (found when the run hands the buffer to the continuation). -/
noncomputable def kernelRun1_A (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : cond1_0 i) (hc1 : ¬cond1_1 i)
    (x0 : Vec F S1x2048x256 .bf16) (x1 : Vec F S1x512x256 .bf16) (x2 : Vec F S1x512x256 .bf16) (x3 : Vec F S1x2048x512 .i32) :
    Σ' (LS0 : List (View.Piece (Elt F) S2048x1 .f32)) (LS1 : List (View.Piece (Elt F) S2048x1 .f32)), { LS2 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.FlashRunB.lean ====
/-
  The attention kernel's body at a middle key tile (1–6): no reset, no output store.  The three scratch buffers come in at what the tile before left and leave with one whole-buffer store each; the output buffer is untouched.
-/
import proofs.«161376_j2439541424557_2_alg».proof.Proof.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs in this case: the inputs' buffers are handed back as they were, each buffer the
    body stores into ends with the listed pieces written (found when the run hands the buffer to the continuation). -/
noncomputable def kernelRun1_B (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬cond1_0 i) (hc1 : ¬cond1_1 i)
    (x0 : Vec F S1x2048x256 .bf16) (x1 : Vec F S1x512x256 .bf16) (x2 : Vec F S1x512x256 .bf16) (x3 : Vec F S1x2048x512 .i32) (xs0 : Vec F S2048x1 .f32) (xs1 : Vec F S2048x1 .f32) (xs2 : Vec F S2048x256 .f32) :
    Σ' (LS0 : List (View.Piece (Elt F) S2048x1 .f32)) (LS1 : List (View.Piece (Elt F) S2048x1 .f32)), { LS2 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.FlashRunC.lean ====
/-
  The attention kernel's body at the last key tile (7): the scratch buffers are updated as at a middle tile, and
  then the output buffer is stored whole with the quotient numerator / normaliser; what it held before does not matter.
-/
import proofs.«161376_j2439541424557_2_alg».proof.Proof.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs in this case: the inputs' buffers are handed back as they were, each buffer the
    body stores into ends with the listed pieces written (found when the run hands the buffer to the continuation). -/
noncomputable def kernelRun1_C (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole) (hc0 : ¬cond1_0 i) (hc1 : cond1_1 i)
    (x0 : Vec F S1x2048x256 .bf16) (x1 : Vec F S1x512x256 .bf16) (x2 : Vec F S1x512x256 .bf16) (x3 : Vec F S1x2048x512 .i32) (xs0 : Vec F S2048x1 .f32) (xs1 : Vec F S2048x1 .f32) (xs2 : Vec F S2048x256 .f32) :
    Σ' (L4 : List (View.Piece (Elt F) S1x2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.FlashCases.lean ====
/-
  The attention kernel's region (the second pallas_call), at the buffer contents `V` it is entered from: what
  each control case leaves in the three scratch buffers and the output buffer, what they hold after every grid
  point (a recursion over the 64 points: at key tile 0 the scratch is reset and updated, at tiles 1–7 it is
  updated from what the tile before left, at tile 7 the output buffer is stored), the region's invariant (before
  the first point the scoped buffers at anything; afterwards the three scratch buffers at what the point before
  left), the proof data and the body obligation at every point.
-/
import proofs.«161376_j2439541424557_2_alg».proof.Proof.FlashRunA
import proofs.«161376_j2439541424557_2_alg».proof.Proof.FlashRunB
import proofs.«161376_j2439541424557_2_alg».proof.Proof.FlashRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves -/

section Cases

variable (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole)
variable (x0 : Vec F S1x2048x256 .bf16) (x1 : Vec F S1x512x256 .bf16) (x2 : Vec F S1x512x256 .bf16) (x3 : Vec F S1x2048x512 .i32)

/-- The output buffer where the case stores nothing into it: a placeholder nothing consults (the window is idle
    there and not written back). -/
def outIdle1_4 : Vec F S1x2048x256 .f32 := VO1_4.read (Elt F) (VO1_4.writes (Elt F) VO1_4.junk [])

/-- Tile 0: what is left in the running maximum, the running normaliser, the running numerator. -/
def sout1_A_0 (hc0 : cond1_0 i) (hc1 : ¬cond1_1 i) : Vec F S2048x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).1)
def sout1_A_1 (hc0 : cond1_0 i) (hc1 : ¬cond1_1 i) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.1)
def sout1_A_2 (hc0 : cond1_0 i) (hc1 : ¬cond1_1 i) : Vec F S2048x256 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.1)
theorem scover1_A_0 (hc0 : cond1_0 i) (hc1 : ¬cond1_1 i) (y : S2048x1.Idx) :
    ∃ pc ∈ (kernelRun1_A c i arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg3 harg3 arg4 harg4 arg5 harg5 arg6 harg6 arg7 harg7 arg8 harg8 arg9 harg9 arg10 harg10 hc0 hc1 x0 x1 x2 x3).1 S2048x1.size (by sl_kernel_rfl) y
theorem scover1_A_1 (hc0 : cond1_0 i) (hc1 : ¬cond1_1 i) (y : S2048x1.Idx) :
    ∃ pc ∈ (kernelRun1_A c i arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.1 S2048x1.size (by sl_kernel_rfl) y
theorem scover1_A_2 (hc0 : cond1_0 i) (hc1 : ¬cond1_1 i) (y : S2048x256.Idx) :
    ∃ pc ∈ (kernelRun1_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.1 S2048x256.size (by sl_kernel_rfl) y

variable (xs0 : Vec F S2048x1 .f32) (xs1 : Vec F S2048x1 .f32) (xs2 : Vec F S2048x256 .f32)

/-- Tiles 1–6: the same three, from what the tile before left (`xs·`). -/
def sout1_B_0 (hc0 : ¬cond1_0 i) (hc1 : ¬cond1_1 i) : Vec F S2048x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).1)
def sout1_B_1 (hc0 : ¬cond1_0 i) (hc1 : ¬cond1_1 i) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.1)
def sout1_B_2 (hc0 : ¬cond1_0 i) (hc1 : ¬cond1_1 i) : Vec F S2048x256 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.1)
theorem scover1_B_0 (hc0 : ¬cond1_0 i) (hc1 : ¬cond1_1 i) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).1 S2048x1.size (by sl_kernel_rfl) y
theorem scover1_B_1 (hc0 : ¬cond1_0 i) (hc1 : ¬cond1_1 i) (y : S2048x1.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.1 S2048x1.size (by sl_kernel_rfl) y
theorem scover1_B_2 (hc0 : ¬cond1_0 i) (hc1 : ¬cond1_1 i) (y : S2048x256.Idx) :
    ∃ pc ∈ (kernelRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S2048x256.size (by sl_kernel_rfl) y

/-- Tile 7: the output buffer and the same three. -/
def out1_C_4 (hc0 : ¬cond1_0 i) (hc1 : cond1_1 i) : Vec F S1x2048x256 .f32 :=
  VO1_4.read (Elt F) (VO1_4.writes (Elt F) VO1_4.junk (kernelRun1_C c i arg3 harg3 arg4 harg4 arg5 harg5 arg6 harg6 arg7 harg7 arg8 harg8 arg9 harg9 arg10 harg10 hc0 hc1 x0 x1 x2 x3 xs0 xs1 xs2).1)
def sout1_C_0 (hc0 : ¬cond1_0 i) (hc1 : cond1_1 i) : Vec F S2048x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 xs0 xs1 xs2).2.1)
def sout1_C_1 (hc0 : ¬cond1_0 i) (hc1 : cond1_1 i) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 xs0 xs1 xs2).2.2.1)
def sout1_C_2 (hc0 : ¬cond1_0 i) (hc1 : cond1_1 i) : Vec F S2048x256 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 x3 xs0 xs1 xs2).2.2.2.1)
theorem cover1_C_4 (hc0 : ¬cond1_0 i) (hc1 : cond1_1 i) (y : S1x2048x256.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).1 S1x2048x256.size (by sl_kernel_rfl) y
theorem scover1_C_0 (hc0 : ¬cond1_0 i) (hc1 : cond1_1 i) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.1 S2048x1.size (by sl_kernel_rfl) y
theorem scover1_C_1 (hc0 : ¬cond1_0 i) (hc1 : cond1_1 i) (y : S2048x1.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.1 S2048x1.size (by sl_kernel_rfl) y
theorem scover1_C_2 (hc0 : ¬cond1_0 i) (hc1 : cond1_1 i) (y : S2048x256.Idx) :
    ∃ pc ∈ (kernelRun1_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 xs0 xs1 xs2).2.2.2.1 S2048x256.size (by sl_kernel_rfl) y

end Cases

end Cert.KernelIdeal.Hand

end
-- ==== Proof.FlashData.lean ====
/-
  The attention kernel's region, continued: what the output buffer and the three scratch buffers hold after
  every grid point, the invariant that carries the scratch from one point to the next, the proof data and the
  body obligation.
-/
import proofs.«161376_j2439541424557_2_alg».proof.Proof.FlashCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## After each point -/

/-- What the output's staging buffer and the three scratch buffers (running maximum, normaliser, numerator)
    hold after the body at position `n`: tile 0 resets and updates; tiles 1–6 update what position `n − 1` left;
    tile 7 also stores the output.  (Positions run over batch, query tile, key tile in row-major order, so the
    key tile is `n % 8`.) -/
def outsAt1 (c : Dev nD) : (n : ℕ) → n < cfg1.N → Vec F S1x2048x256 .f32 × Vec F S2048x1 .f32 × Vec F S2048x1 .f32 × Vec F S2048x256 .f32
  | 0, hn => (outIdle1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (iblk1 V c 0 ⟨0, hn⟩) (iblk1 V c 1 ⟨0, hn⟩) (iblk1 V c 2 ⟨0, hn⟩) (iblk1 V c 3 ⟨0, hn⟩) ((hcond1_0 ⟨0, hn⟩).mpr (Nat.zero_mod _)) (fun h => (fun h => by (try dsimp only at h); omega) ((hcond1_1 ⟨0, hn⟩).mp h)), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (iblk1 V c 0 ⟨0, hn⟩) (iblk1 V c 1 ⟨0, hn⟩) (iblk1 V c 2 ⟨0, hn⟩) (iblk1 V c 3 ⟨0, hn⟩) ((hcond1_0 ⟨0, hn⟩).mpr (Nat.zero_mod _)) (fun h => (fun h => by (try dsimp only at h); omega) ((hcond1_1 ⟨0, hn⟩).mp h)), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) (iblk1 V c 0 ⟨0, hn⟩) (iblk1 V c 1 ⟨0, hn⟩) (iblk1 V c 2 ⟨0, hn⟩) (iblk1 V c 3 ⟨0, hn⟩) ((hcond1_0 ⟨0, hn⟩).mpr (Nat.zero_mod _)) (fun h => (fun h => by (try dsimp only at h); omega) ((hcond1_1 ⟨0, hn⟩).mp h)))
  | n + 1, hn =>
    if h0 : (n + 1) % 8 = 0 then
      if h1 : (n + 1) % 8 = 7 then
        False.elim (by omega)
      else
        (outIdle1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) ((hcond1_0 ⟨n + 1, hn⟩).mpr h0) (fun h => h1 ((hcond1_1 ⟨n + 1, hn⟩).mp h)), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) ((hcond1_0 ⟨n + 1, hn⟩).mpr h0) (fun h => h1 ((hcond1_1 ⟨n + 1, hn⟩).mp h)), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) ((hcond1_0 ⟨n + 1, hn⟩).mpr h0) (fun h => h1 ((hcond1_1 ⟨n + 1, hn⟩).mp h)))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1), sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1), sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1), sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) ((hcond1_1 ⟨n + 1, hn⟩).mpr h1))
      else
        (outIdle1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) (fun h => h1 ((hcond1_1 ⟨n + 1, hn⟩).mp h)), sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) (fun h => h1 ((hcond1_1 ⟨n + 1, hn⟩).mp h)), sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2 (fun h => h0 ((hcond1_0 ⟨n + 1, hn⟩).mp h)) (fun h => h1 ((hcond1_1 ⟨n + 1, hn⟩).mp h)))

theorem outsAt1_A (c : Dev nD) (t : Fin cfg1.N) (h0 : t.val % 8 = 0) (h1 : ¬t.val % 8 = 7) :
    outsAt1 V c t.val t.isLt = (outIdle1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((hcond1_0 t).mpr h0) (fun h => h1 ((hcond1_1 t).mp h)), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((hcond1_0 t).mpr h0) (fun h => h1 ((hcond1_1 t).mp h)), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h)), sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h)), sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) (fun h => h1 ((hcond1_1 t).mp h))) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1), sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1), sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1), sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (fun h => h0 ((hcond1_0 t).mp h)) ((hcond1_1 t).mpr h1)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that belong to the other pallas_call: untouched here, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the region is handed at entry, with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region's invariant before position `n`: before the first point, what the region is handed; afterwards the
    three scratch buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The region's proof data on core `c`: the arrays as the region finds them; after the body at point `t` each
    input's buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Cert.KernelIdeal.Hand

end
-- ==== Proof.FlashBody.lean ====
/-
  The attention kernel's region: the body obligation at every grid point.  The key tile of a point decides its
  case (tile 0: reset and update; tiles 1–6: update; tile 7: update and store the output); the inputs' buffers hold
  their blocks; the invariant hands the body the three scratch buffers at what the point before left (at anything
  before the first point) and takes them back at this point's contents; the output buffer is handed back untouched
  except at tile 7, where it is covered by the one store.
-/
import proofs.«161376_j2439541424557_2_alg».proof.Proof.FlashData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0 sout1_A_1 sout1_A_2; (try dsimp only)
    by_cases hz : t.val = 0
    · rw [PhiS_castSucc V c t, PhiS_zero V c _ _ hz, PhiA1_eq]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1 sout1_C_2; (try dsimp only)
      rw [PhiS_castSucc V c t, PhiS_pos V c _ _ hz]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨⟨O1, O2, O3, O4, O5, O6, O7, O8, O9, O10, O11, O12, O13, O14, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [O1 O2 O3 O4 O5 O6 O7 O8 O9 O10 O11 O12 O13 O14 HS0 HS1 HS2 Hg]
      · isplitl [O1 O2 O3 O4 O5 O6 O7 O8 O9 O10 O11 O12 O13 O14 HS0 HS1 HS2]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          isplitl [O10]; · iexact O10
          isplitl [O11]; · iexact O11
          isplitl [O12]; · iexact O12
          isplitl [O13]; · iexact O13
          isplitl [O14]; · iexact O14
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at entry is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨O1, O2, O3, O4, O5, O6, O7, O8, O9, O10, O11, O12, O13, O14, HS0, HS1, HS2⟩, Hg⟩
  isplitl [O1 O2 O3 O4 O5 O6 O7 O8 O9 O10 O11 O12 O13 O14 HS0 HS1 HS2]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [O14]; · iexact O14
    isplitl [HS0]; · iexists _; iexact HS0
    isplitl [HS1]; · iexists _; iexact HS1
    iexists _; iexact HS2
  iexact Hg

theorem hout1 (c : Dev nD) : (dat1 V c).Φ (Fin.last cfg1.N) ⊢ (Pipeline.ΦA spec1 c : sProp 𝕄) :=
  Phi_out1 V c _ (by rw [Fin.val_last]; have : cfg1.N = 64 := N_1; omega)

end Cert.KernelIdeal.Hand

end
-- ==== Proof.QkvFrame.lean ====
/-
  The projection kernel (the first pallas_call; grid 4 × 4, point (b, s) = batch b, row tile s of 1024 rows):
  what its body does to the staging buffers, and the proof data of its pipeline.

  Windows 0–6 are inputs: a 1 × 1024 × 256 block of the activations x, then the three weight matrices and
  their biases whole (Wq, bq, Wk, bk, Wv, bv), which never move and are fetched once.  Windows 7, 8, 9 are
  the outputs Q, K, V: one 1 × 1024 × 256 block each, stored whole by the body and written back at every
  point.  The body reads each output buffer just before it stores it; that value is never used.
-/
import proofs.«161376_j2439541424557_2_alg».proof.Proof.Gen.KernelIdeal.Launch
import proofs.«161376_j2439541424557_2_alg».proof.Proof.Gen.KernelIdeal.Skeleton
import proofs.«161376_j2439541424557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the projection region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s (`hA`) and whose body leaves the block in place (`hafter`): where the window is not
    fetched its block index has not moved (the weights and biases are fetched at the first point only and their
    index is constant), the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S1x1024x256 := Rect.unit (s := S1x1024x256) ![0, 0, 0] S1x1024x256.size inb_S1x1024x256_S1x1024x256_0_0_0
abbrev rW0 : Rect S256x256 := Rect.unit (s := S256x256) ![0, 0] S256x256.size inb_S256x256_S256x256_0_0
abbrev rB0 : Rect S256 := Rect.unit (s := S256) ![0] S256.size inb_S256_S256_0

/-! ## What the body leaves in each output window's buffer -/

/-- Window 7 (Q) after the body, from the input blocks: its one store, of the scaled projection of the x block by Wq, bq. -/
def out0_7 (x0 : Vec F S1x1024x256 .f32) (x1 : Vec F S256x256 .f32) (x2 : Vec F S256 .f32) (x3 : Vec F S256x256 .f32) (x4 : Vec F S256 .f32) (x5 : Vec F S256x256 .f32) (x6 : Vec F S256 .f32) : Vec F S1x1024x256 .bf16 :=
  View.canon [⟨rX0, k0_pay4 (View.ld x0 rX0) (View.ld x1 rW0) (View.ld x2 rB0)⟩]

/-- Window 8 (K) after the body: its one store, of the projection of the x block by Wk, bk. -/
def out0_8 (x0 : Vec F S1x1024x256 .f32) (x1 : Vec F S256x256 .f32) (x2 : Vec F S256 .f32) (x3 : Vec F S256x256 .f32) (x4 : Vec F S256 .f32) (x5 : Vec F S256x256 .f32) (x6 : Vec F S256 .f32) : Vec F S1x1024x256 .bf16 :=
  View.canon [⟨rX0, k0_pay5 (View.ld x0 rX0) (View.ld x3 rW0) (View.ld x4 rB0)⟩]

/-- Window 9 (V) after the body: its one store, of the projection of the x block by Wv, bv. -/
def out0_9 (x0 : Vec F S1x1024x256 .f32) (x1 : Vec F S256x256 .f32) (x2 : Vec F S256 .f32) (x3 : Vec F S256x256 .f32) (x4 : Vec F S256 .f32) (x5 : Vec F S256x256 .f32) (x6 : Vec F S256 .f32) : Vec F S1x1024x256 .bf16 :=
  View.canon [⟨rX0, k0_pay1 (k0_pay3 (View.ld x0 rX0) (View.ld x5 rW0) (View.ld x6 rB0))⟩]

/-- A whole-buffer store covers the buffer. -/
theorem cover0_X (p0 : Vec F S1x1024x256 .bf16) (y : S1x1024x256.Idx) :
    ∃ pc ∈ ([⟨rX0, p0⟩] : List (View.Piece (Elt F) S1x1024x256 .bf16)), y ∈ pc.1.set :=
  View.cover_of_tiled [⟨rX0, p0⟩] S1x1024x256.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg2 : Memref sig .tc .vmem S1x1024x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256x256 .f32) (harg5 : arg5.IsWhole)
    (arg6 : Memref sig .tc .vmem S256 .f32) (harg6 : arg6.IsWhole) (arg7 : Memref sig .tc .vmem S256x256 .f32) (harg7 : arg7.IsWhole)
    (arg8 : Memref sig .tc .vmem S256 .f32) (harg8 : arg8.IsWhole) (arg9 : Memref sig .tc .vmem S1x1024x256 .bf16) (harg9 : arg9.IsWhole)
    (arg10 : Memref sig .tc .vmem S1x1024x256 .bf16) (harg10 : arg10.IsWhole) (arg11 : Memref sig .tc .vmem S1x1024x256 .bf16) (harg11 : arg11.IsWhole)
    (x0 : Vec F S1x1024x256 .f32) (x1 : Vec F S256x256 .f32) (x2 : Vec F S256 .f32) (x3 : Vec F S256x256 .f32) (x4 : Vec F S256 .f32)
    (x5 : Vec F S256x256 .f32) (x6 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare (out0_7 x0 x1 x2 x3 x4 x5 x6)
            ∗ owns (c : Thread nD τ) arg10 fullShare (out0_8 x0 x1 x2 x3 x4 x5 x6)
            ∗ owns (c : Thread nD τ) arg11 fullShare (out0_9 x0 x1 x2 x3 x4 x5 x6)) -∗ K ⟨⟩))
      ⊢ wp frame (wpE (defs₀ (F := F)) Variants.none c none) E
          (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_X _)
  isplitl [H8]
  · iexists _; isplitr
    swap; · iexact H8
    ipureintro
    exact View.read_writes_eq_canon _ _ _ (cover0_X _)
  iexists _; isplitr
  swap; · iexact H9
  ipureintro
  exact View.read_writes_eq_canon _ _ _ (cover0_X _)

/-! ## The pipeline's proof data -/

/-- The proof data of the projection pipeline on core `c`: the arrays as the region finds them (`V`); after the body
    at point `t` each input's buffer at its block and each output's at `out0_W` of the input blocks; the invariant
    "the scoped rest and the random-number register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegionsRun.lean ====
/-
  The run of the whole program on the TensorCores, from the two kernel regions' proof data.

  The program is three items in order: the projection kernel (region 0), one host operation (the mask's bits widened
  to 32-bit integers) and the attention kernel (region 1).  Between two items every unscoped buffer of a core is held
  whole at a known contents:

    B0  at launch: the launch memory;
    B1  after region 0: the region's arrays at what its write-backs leave, every other buffer as before;
    B2  after the host operation: its result written, every other buffer as before;
    B3  after region 1: again the region's arrays at what its write-backs leave.

  Each region is entered with its arrays split out of that state and left with them put back; the generator register and
  the core's (empty) dues ride along.  The last state is read against the final memory: the result buffer holds region
  1's output array after its last write-back, and every argument buffer what it held at launch, because no item writes
  an argument.
-/
import proofs.«161376_j2439541424557_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A TensorCore's buffer contents, core by core: what a region's proof data are stated at. -/
abbrev Cont (F : FTy → Type) : Type := (c : Dev nD) → (b : Ref sig .tc) → Buf (Elt F) ((c : Thread nD τ).loc b)

section Run

variable (dat0 : Cont F → (c : Dev nD) → Dat τ (Elt F) Unit ℕ (UR sig nD τ) ℕ cfg0 c)
  (dat1 : Cont F → (c : Dev nD) → Dat τ (Elt F) Unit ℕ (UR sig nD τ) ℕ cfg1 c)
  (m : (ℓ : Loc nD τ sig) → Buf (Elt F) ℓ)

/-! ## The buffer contents between the items -/

/-- Core c's buffers at launch. -/
abbrev B0 : Dev nD → Valuation τ sig (Elt F) := fun c b => m ((c : Dev nD), b)
/-- The same read at the TensorCore's references: what region 0 is entered from. -/
def E0 : Cont F := fun c b => B0 m c b
theorem E0_apply (c : Dev nD) (b : Ref sig .tc) : E0 m c b = m ((c : Thread nD τ).loc b) := rfl
/-- After region 0: its arrays at what the pipeline leaves, every other buffer as entered. -/
def B1 (c : Dev nD) : Valuation τ sig (Elt F) :=
  Pipeline.withArrays spec0 c (B0 m c) fun w => (dat0 (E0 m) c).arrAt w cfg0.N
/-- The same read at the TensorCore's references. -/
abbrev X0 : Cont F := fun c b => B1 dat0 m c b
/-- After the host operation. -/
abbrev B2 : Dev nD → Valuation τ sig (Elt F) := fun c => StableHlo.after hostOps1 (B1 dat0 m c)
/-- The same read at the TensorCore's references: what region 1 is entered from. -/
def E1 : Cont F := fun c b => B2 dat0 m c b
/-- After region 1: its arrays at what the pipeline leaves, every other buffer as entered. -/
def B3 (c : Dev nD) : Valuation τ sig (Elt F) :=
  Pipeline.withArrays spec1 c (B2 dat0 m c) fun w => (dat1 (E1 dat0 m) c).arrAt w cfg1.N
/-- The same read at the TensorCore's references. -/
abbrev X1 : Cont F := fun c b => B3 dat0 dat1 m c b

theorem B1_arr (c : Dev nD) (w : Fin cfg0.W) :
    B1 dat0 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 dat0 m c (Proc.devRef .tc b) = B0 m c (Proc.devRef .tc b) := by
  unfold B1; exact Pipeline.withArrays_of_ne spec0 c _ _ b hb
theorem B2_of (c : Dev nD) (r : Ref sig .tc) (h : r ∉ hostOps1_W) :
    B2 dat0 m c (Proc.devRef .tc r) = B1 dat0 m c (Proc.devRef .tc r) :=
  StableHlo.after_of_writes_sub hostOps1 _ hostOps1_writes h
theorem B3_arr (c : Dev nD) (w : Fin cfg1.W) :
    B3 dat0 dat1 m c (Proc.devRef .tc (Pipeline.arrRef spec1 w)) = (dat1 (E1 dat0 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 dat0 dat1 m c (Proc.devRef .tc b) = B2 dat0 m c (Proc.devRef .tc b) := by
  unfold B3; exact Pipeline.withArrays_of_ne spec1 c _ _ b hb

/-! ## What region 1 is entered from -/

theorem E1_v0_0 (c : Dev nD) : E1 dat0 m c main_v0_0 = (dat0 (E0 m) c).arrAt 7 cfg0.N :=
  (B2_of dat0 m c main_v0_0 (by decide)).trans (B1_arr dat0 m c 7)
theorem E1_v0_1 (c : Dev nD) : E1 dat0 m c main_v0_1 = (dat0 (E0 m) c).arrAt 8 cfg0.N :=
  (B2_of dat0 m c main_v0_1 (by decide)).trans (B1_arr dat0 m c 8)
theorem E1_v0_2 (c : Dev nD) : E1 dat0 m c main_v0_2 = (dat0 (E0 m) c).arrAt 9 cfg0.N :=
  (B2_of dat0 m c main_v0_2 (by decide)).trans (B1_arr dat0 m c 9)

theorem E1_v1 (c : Dev nD) :
    E1 dat0 m c main_v1 = ((extui 32 · natLt_1_32) : (⟨S4x4096x4096, .i1⟩ : BufTy).Contents (Elt F) → (⟨S4x4096x4096, .i32⟩ : BufTy).Contents (Elt F)) (m ((c : Thread nD τ).loc main_arg1)) := by
  show StableHlo.after hostOps1 (B1 dat0 m c) (Proc.devRef .tc main_v1) = _
  rw [hostOps1]
  after_results
  rw [B1_of_ne dat0 m c main_arg1 (by decide)]

/-! ## The arguments end as launched

No item writes an argument: region 1 and the host operation do not touch one; region 0 reads seven of them through
input windows, whose arrays no write-back changes, and bypasses the eighth. -/

section Args

variable (hA0 : ∀ V c w, (dat0 V c).A w = V c (Pipeline.arrRef spec0 w))
include hA0

/-- An argument region 0 reads through the input window w. -/
theorem B3_arg_in (c : Dev nD) (r : Ref sig .tc) (w : Fin cfg0.W) (hw : Pipeline.arrRef spec0 w = r) (hin : (cfg0.win w).isOut = false)
    (h1 : ∀ w, Pipeline.arrRef spec1 w ≠ r) (h2 : r ∉ hostOps1_W) :
    B3 dat0 dat1 m c (Proc.devRef .tc r) = m ((c : Thread nD τ).loc r) := by
  subst hw
  calc B3 dat0 dat1 m c (Proc.devRef .tc (Pipeline.arrRef spec0 w))
    _ = B2 dat0 m c (Proc.devRef .tc (Pipeline.arrRef spec0 w)) := B3_of_ne dat0 dat1 m c _ h1
    _ = B1 dat0 m c (Proc.devRef .tc (Pipeline.arrRef spec0 w)) := B2_of dat0 m c _ h2
    _ = (dat0 (E0 m) c).A w := (B1_arr dat0 m c w).trans ((dat0 (E0 m) c).arrAt_in w hin _)
    _ = E0 m c (Pipeline.arrRef spec0 w) := hA0 _ c w
    _ = m ((c : Thread nD τ).loc (Pipeline.arrRef spec0 w)) := rfl

theorem B3_main_arg0 (c : Dev nD) : B3 dat0 dat1 m c (Proc.devRef .tc main_arg0) = m ((c : Thread nD τ).loc main_arg0) :=
  B3_arg_in dat0 dat1 m hA0 c main_arg0 0 rfl rfl (by decide) (by decide)
theorem B3_main_arg2 (c : Dev nD) : B3 dat0 dat1 m c (Proc.devRef .tc main_arg2) = m ((c : Thread nD τ).loc main_arg2) :=
  B3_arg_in dat0 dat1 m hA0 c main_arg2 1 rfl rfl (by decide) (by decide)
theorem B3_main_arg3 (c : Dev nD) : B3 dat0 dat1 m c (Proc.devRef .tc main_arg3) = m ((c : Thread nD τ).loc main_arg3) :=
  B3_arg_in dat0 dat1 m hA0 c main_arg3 2 rfl rfl (by decide) (by decide)
theorem B3_main_arg4 (c : Dev nD) : B3 dat0 dat1 m c (Proc.devRef .tc main_arg4) = m ((c : Thread nD τ).loc main_arg4) :=
  B3_arg_in dat0 dat1 m hA0 c main_arg4 3 rfl rfl (by decide) (by decide)
theorem B3_main_arg5 (c : Dev nD) : B3 dat0 dat1 m c (Proc.devRef .tc main_arg5) = m ((c : Thread nD τ).loc main_arg5) :=
  B3_arg_in dat0 dat1 m hA0 c main_arg5 4 rfl rfl (by decide) (by decide)
theorem B3_main_arg6 (c : Dev nD) : B3 dat0 dat1 m c (Proc.devRef .tc main_arg6) = m ((c : Thread nD τ).loc main_arg6) :=
  B3_arg_in dat0 dat1 m hA0 c main_arg6 5 rfl rfl (by decide) (by decide)
theorem B3_main_arg7 (c : Dev nD) : B3 dat0 dat1 m c (Proc.devRef .tc main_arg7) = m ((c : Thread nD τ).loc main_arg7) :=
  B3_arg_in dat0 dat1 m hA0 c main_arg7 6 rfl rfl (by decide) (by decide)

end Args

/-- The mask: no region stages it and the host operation only reads it. -/
theorem B3_main_arg1 (c : Dev nD) : B3 dat0 dat1 m c (Proc.devRef .tc main_arg1) = m ((c : Thread nD τ).loc main_arg1) :=
  calc B3 dat0 dat1 m c (Proc.devRef .tc main_arg1)
    _ = B2 dat0 m c (Proc.devRef .tc main_arg1) := B3_of_ne dat0 dat1 m c main_arg1 (by decide)
    _ = B1 dat0 m c (Proc.devRef .tc main_arg1) := B2_of dat0 m c main_arg1 (by decide)
    _ = B0 m c (Proc.devRef .tc main_arg1) := B1_of_ne dat0 m c main_arg1 (by decide)
    _ = m ((c : Thread nD τ).loc main_arg1) := rfl

/-- The result buffer is region 1's output array after its last write-back. -/
theorem B3_main_v2 (c : Dev nD) : B3 dat0 dat1 m c (Proc.devRef .tc main_v2) = (dat1 (E1 dat0 m) c).arrAt 4 cfg1.N :=
  B3_arr dat0 dat1 m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 dat0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (B3 dat0 dat1 m c) ∗ ∃ r, prngReg c r)

/-- At region 0's exit each of its arrays holds what the pipeline leaves and every other buffer what it held at entry. -/
theorem hF0 (c : Dev nD) (w : Fin cfg0.W) : (dat0 (E0 m) c).arrAt w cfg0.N = X0 dat0 m c (Pipeline.arrRef spec0 w) :=
  (B1_arr dat0 m c w).symm
theorem hrest0 (c : Dev nD) : ∀ b, b ∉ Finset.univ.image (Pipeline.arrRef spec0) → X0 dat0 m c b = E0 m c b :=
  fun b hb => B1_of_ne dat0 m c b fun w e => hb (Finset.mem_image.mpr ⟨w, Finset.mem_univ _, e⟩)
/-- The same at region 1's exit. -/
theorem hF1 (c : Dev nD) (w : Fin cfg1.W) : (dat1 (E1 dat0 m) c).arrAt w cfg1.N = X1 dat0 dat1 m c (Pipeline.arrRef spec1 w) :=
  (B3_arr dat0 dat1 m c w).symm
theorem hrest1 (c : Dev nD) : ∀ b, b ∉ Finset.univ.image (Pipeline.arrRef spec1) → X1 dat0 dat1 m c b = E1 dat0 m c b :=
  fun b hb => B3_of_ne dat0 dat1 m c b fun w e => hb (Finset.mem_image.mpr ⟨w, Finset.mem_univ _, e⟩)

/-! ## The regions as segments -/

section Regions

variable (hA0 : ∀ V c w, (dat0 V c).A w = V c (Pipeline.arrRef spec0 w))
  (hΦ0 : ∀ V c t, (dat0 V c).Φ t = Pipeline.ΦA spec0 c)
  (hq0 : ∀ V c w, (dat0 V c).q w = fullShare) (ho0 : ∀ V c t, (dat0 V c).owed t = 0)
  (hr0 : ∀ V c t, (dat0 V c).recorded t = Set.univ)
  (hb0 : ∀ V c, BodyObligation (dat0 V c) (defs₀ (F := F)) Variants.none () Set.univ)
  (hA1 : ∀ V c w, (dat1 V c).A w = V c (Pipeline.arrRef spec1 w))
  (hq1 : ∀ V c w, (dat1 V c).q w = fullShare) (ho1 : ∀ V c t, (dat1 V c).owed t = 0)
  (hr1 : ∀ V c t, (dat1 V c).recorded t = Set.univ)
  (hb1 : ∀ V c, BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)

set_option backward.isDefEq.respectTransparency.types false in
/-- REGION 0 over the thread state: entered from every unscoped buffer at the launch contents, left at B1. Its arrays
    are split out of the unscoped buffers and put back at the exit contents; the generator register goes into the region's
    invariant and comes back; nothing is owed; the kernel has no semaphore of its own. -/
def reg0 : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := (hb0 (E0 m) c).loose
  hwaits := Pipeline.hwaits_of_owed_zero _ _ _ _ L lv 0 fun c t => ho0 (E0 m) c t
  pre c := iprop(StableHlo.held (c : Thread nD τ) (Pipeline.ucRefs τ sig) (B0 m c) ∗ R c)
  post c := iprop(StableHlo.held (c : Thread nD τ) (Pipeline.ucRefs τ sig) (B1 dat0 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hq0 (E0 m) c w) (E0 m c) fun w => hA0 (E0 m) c w
    rw [show unscopedBufs c (E0 m c) = StableHlo.held (c : Thread nD τ) (Pipeline.ucRefs τ sig) (B0 m c)
      from Pipeline.unscopedBufs_held c (B0 m c)] at hsplit
    have hrec : (pdats dat0 dat1 m 0 c).recorded 0 = Set.univ := hr0 (E0 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m 0 c).owed 0 = 0 from ho0 (E0 m) c 0]
      icases HO with ⟨%W, HO⟩; iexists W; isplitr; · ipureintro; exact fun x _ => Or.inl (by rw [hrec]; trivial)
      iexact HO
    isplitl [Hp]; · iexact Hp
    iexact Hrest
  hin c := by
    rw [show (pdats dat0 dat1 m 0 c).Φ 0 = Pipeline.ΦA spec0 c from hΦ0 (E0 m) c 0]; unfold Pipeline.ΦA
    iintro ⟨Hp, -, Hr⟩
    isplitl [Hr]; · iexact Hr
    iexact Hp
  hout c := by
    rw [Pipeline.ownSems0_none, show (pdats dat0 dat1 m 0 c).Φ (Fin.last _) = Pipeline.ΦA spec0 c from hΦ0 (E0 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hq0 (E0 m) c w)
      (E0 m c) (X0 dat0 m c) ((pdats dat0 dat1 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 m 0 c).owed (Fin.last _) = 0 from ho0 (E0 m) c _]
    icases HO with ⟨%W, -, HO⟩; iexists W; iexact HO

set_option backward.isDefEq.respectTransparency.types false in
/-- REGION 1 over the thread state: entered from every unscoped buffer at B2, left at B3 (what the launch reads at the
    end). As region 0, but its invariant is its own at every point (it names the carried scratch): the class's invariant
    yields it before the first point and it yields the class's back after the last. -/
def reg1 : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := (hb1 (E1 dat0 m) c).loose
  hwaits := Pipeline.hwaits_of_owed_zero _ _ _ _ L lv 1 fun c t => ho1 (E1 dat0 m) c t
  pre c := iprop(StableHlo.held (c : Thread nD τ) (Pipeline.ucRefs τ sig) (B2 dat0 m c) ∗ R c)
  post c := iprop(Tₙ dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hq1 (E1 dat0 m) c w) (E1 dat0 m c) fun w => hA1 (E1 dat0 m) c w
    rw [show unscopedBufs c (E1 dat0 m c) = StableHlo.held (c : Thread nD τ) (Pipeline.ucRefs τ sig) (B2 dat0 m c)
      from Pipeline.unscopedBufs_held c (B2 dat0 m c)] at hsplit
    have hrec : (pdats dat0 dat1 m 1 c).recorded 0 = Set.univ := hr1 (E1 dat0 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m 1 c).owed 0 = 0 from ho1 (E1 dat0 m) c 0]
      icases HO with ⟨%W, HO⟩; iexists W; isplitr; · ipureintro; exact fun x _ => Or.inl (by rw [hrec]; trivial)
      iexact HO
    isplitl [Hp]; · iexact Hp
    iexact Hrest
  hin c := by
    refine BIBase.Entails.trans ?_ (hin1 (E1 dat0 m) c)
    unfold Pipeline.ΦA
    iintro ⟨Hp, -, Hr⟩
    isplitl [Hr]; · iexact Hr
    iexact Hp
  hout c := by
    refine (hout1 (E1 dat0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hq1 (E1 dat0 m) c w)
      (E1 dat0 m c) (X1 dat0 dat1 m c) ((pdats dat0 dat1 m 1 c).arrAt · cfg1.N) (hF1 dat0 dat1 m c) (hrest1 dat0 dat1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 m 1 c).owed (Fin.last _) = 0 from ho1 (E1 dat0 m) c _]
    icases HO with ⟨%W, -, HO⟩; iexists W; iexact HO

/-! ## The program as segments, and the launch -/

/-- The host operation as a segment over the unscoped references from the contents B1, R riding along: it ends at B2. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 dat0 m) R

/-- The program's 3 segments in order. -/
abbrev runSegs : List (Pipeline.Seg (pcfgs (F := F)) adm (pdats dat0 dat1 m) () defs₀ 𝒱₀ L lv) :=
  [ .region (reg0 dat0 dat1 m hA0 hΦ0 hq0 ho0 hr0 hb0),
    .host (hseg1 dat0 m),
    .region (reg1 dat0 dat1 m hA1 hq1 ho1 hr1 hb1 hin1 hout1) ]

/-- The program IS the run of the segments. -/
theorem main_run (c : Dev nD) : main (F := F) c
    = Pipeline.Seg.run (runSegs dat0 dat1 m hA0 hΦ0 hq0 ho0 hr0 hb0 hA1 hq1 ho1 hr1 hb1 hin1 hout1) :=
  (main_chain c).trans (by chain_rfl)

include hA0 hΦ0 hq0 ho0 hr0 hb0 hA1 hq1 ho1 hr1 hb1 hin1 hout1 in
set_option backward.isDefEq.respectTransparency.types false in
/-- THE RUN. From any memory with zero counters, every weakly fair execution of the program on the TensorCores
    terminates, nothing faulting, and every final memory holds, on every core, region 1's output array after its last
    write-back in the result buffer and each argument as launched. -/
theorem run_regions (ρ : Dev nD → PrngReg) : θ_run defs (onTc (τ := τ) (main (F := F))) ⟨m, fun _ => 0, ρ⟩ (fun r => ∀ c : Dev nD,
      r.2.mem ((c.tc : Thread nD τ).loc main_v2) = (dat1 (E1 dat0 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats dat0 dat1 m) () cellOf_inj emb₁ defs₀ 𝒱₀ L lv m ρ main
    (runSegs dat0 dat1 m hA0 hΦ0 hq0 ho0 hr0 hb0 hA1 hq1 ho1 hr1 hb1 hin1 hout1)
    (fun c Q => by rw [main_run dat0 dat1 m hA0 hΦ0 hq0 ho0 hr0 hb0 hA1 hq1 ho1 hr1 hb1 hin1 hout1 c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ dat0 dat1 m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (B3 dat0 dat1 m c) s')
      isplitl [Hh] <;> iassumption)
    (hQ := fun s h c =>
      ⟨(h c _ (mem_uc main_v2 (by decide))).trans (B3_main_v2 dat0 dat1 m c),
       (h c _ (mem_uc main_arg0 (by decide))).trans (B3_main_arg0 dat0 dat1 m hA0 c),
       (h c _ (mem_uc main_arg1 (by decide))).trans (B3_main_arg1 dat0 dat1 m c),
       (h c _ (mem_uc main_arg2 (by decide))).trans (B3_main_arg2 dat0 dat1 m hA0 c),
       (h c _ (mem_uc main_arg3 (by decide))).trans (B3_main_arg3 dat0 dat1 m hA0 c),
       (h c _ (mem_uc main_arg4 (by decide))).trans (B3_main_arg4 dat0 dat1 m hA0 c),
       (h c _ (mem_uc main_arg5 (by decide))).trans (B3_main_arg5 dat0 dat1 m hA0 c),
       (h c _ (mem_uc main_arg6 (by decide))).trans (B3_main_arg6 dat0 dat1 m hA0 c),
       (h c _ (mem_uc main_arg7 (by decide))).trans (B3_main_arg7 dat0 dat1 m hA0 c)⟩)

end Regions

end Run

end Cert.KernelIdeal.Hand

end
-- ==== Proof.Spec.lean ====
/-
  Masked single-head attention on the extended reals, as two formulas of the argument arrays.

  Shapes: activations x[4, 4096, 256]; a mask[4, 4096, 4096] of bits (a set bit EXCLUDES the key);
  three weight matrices W[256, 256] with biases b[256], used as y = x Wᵀ + b.

  * `lin`      — one entry of a projection: y(b, s, e) = Σ_d x(b, s, d) · W(e, d) + β(e).
  * `score`    — the masked, scaled score of query row q against key row k:
                  the fill −1e9 where the mask bit is set, else (Σ_d query(b,q,d) · key(b,k,d)) / √4096.
  * `attnAt`   — softmax over k of the scores (shifted by their maximum), applied to the values:
                  Σ_k (e^{s_k − M} / Σ_k' e^{s_k' − M}) · value(b, k, e),  M = max_k s_k.
  * `onM`, `onL`, `onA` — the same quantity accumulated tile by tile (512 keys per tile): the running
                  maximum m, the running normaliser l and one column of the running numerator, each
                  rescaled by e^{m_old − m_new} when the maximum moves; the start values are the
                  fill, 0 and 0.  After all eight tiles the quotient `onA / onL` is `attnAt`
                  whenever every score and value is a real number (proved elsewhere).
-/
import Idealize.ShloMosaic.PureOps.Ideal
import Idealize.ShloMosaic.Lib.ValueIdx

noncomputable section

namespace Cert.Attn

open Idealize.ShloMosaic Idealize.ShloMosaic.ValueIdx

abbrev SX : Shape := ⟨3, ![4, 4096, 256]⟩
abbrev SM : Shape := ⟨3, ![4, 4096, 4096]⟩
abbrev SW : Shape := ⟨2, ![256, 256]⟩
abbrev SB : Shape := ⟨1, ![256]⟩

/-- The score given to an excluded key: the float −1e9. -/
abbrev NEG : EReal := Ideal.ofBits .f32 0xCE6E6B28#32
/-- The float 1/64. -/
abbrev C64 : EReal := Ideal.ofBits .f32 0x3C800000#32
/-- √4096 as the power 4096^(1/2). -/
abbrev SCALE : EReal := Ideal.pow (Ideal.ofBits .f32 0x45800000#32) (Ideal.ofBits .f32 0x3F000000#32)

/-- One entry of a linear projection y = x Wᵀ + β. -/
def lin (x : SX.Idx → EReal) (W : SW.Idx → EReal) (β : SB.Idx → EReal) (b : Fin 4) (s : Fin 4096) (e : Fin 256) : EReal :=
  (∑ d : Fin 256, x (ix3 b s d) * W (ix2 e d)) + β (ix1 e)

/-- The masked, scaled score of query row `q` against key row `k` in batch `b`. -/
def score (x : SX.Idx → EReal) (mask : SM.Idx → BitVec 1) (Wq : SW.Idx → EReal) (bq : SB.Idx → EReal)
    (Wk : SW.Idx → EReal) (bk : SB.Idx → EReal) (b : Fin 4) (q k : Fin 4096) : EReal :=
  Scalar.select (mask (ix3 b q k)) NEG
    (Ideal.div (∑ d : Fin 256, lin x Wq bq b q d * lin x Wk bk b k d) SCALE)

/-- Softmax attention of one query row, one output column: scores `S`, values `V` over the 4096 keys. -/
def softmaxDot (S V : Fin 4096 → EReal) : EReal :=
  ∑ k : Fin 4096, Ideal.div (Ideal.exp (S k - Finset.univ.sup S))
      (∑ k' : Fin 4096, Ideal.exp (S k' - Finset.univ.sup S)) * V k

/-- One entry of masked softmax attention. -/
def attnAt (x : SX.Idx → EReal) (mask : SM.Idx → BitVec 1) (Wq : SW.Idx → EReal) (bq : SB.Idx → EReal)
    (Wk : SW.Idx → EReal) (bk : SB.Idx → EReal) (Wv : SW.Idx → EReal) (bv : SB.Idx → EReal)
    (b : Fin 4) (q : Fin 4096) (e : Fin 256) : EReal :=
  softmaxDot (fun k => score x mask Wq bq Wk bk b q k) (fun k => lin x Wv bv b k e)

/-- The whole result array. -/
def attn (x : SX.Idx → EReal) (mask : SM.Idx → BitVec 1) (Wq : SW.Idx → EReal) (bq : SB.Idx → EReal)
    (Wk : SW.Idx → EReal) (bk : SB.Idx → EReal) (Wv : SW.Idx → EReal) (bv : SB.Idx → EReal) : SX.Idx → EReal :=
  fun i => attnAt x mask Wq bq Wk bk Wv bv (i 0) (i 1) (i 2)

/-- Tile `n` (512 consecutive keys) of a row of 4096. -/
def tile (S : Fin 4096 → EReal) (n : ℕ) (j : Fin 512) : EReal :=
  if h : 512 * n + j.val < 4096 then S ⟨512 * n + j.val, h⟩ else 0

/-- The running maximum after `n` tiles. -/
def onM (s : ℕ → Fin 512 → EReal) : ℕ → EReal
  | 0 => NEG
  | n + 1 => max (onM s n) (Finset.univ.sup (s n))

/-- The running normaliser after `n` tiles. -/
def onL (s : ℕ → Fin 512 → EReal) : ℕ → EReal
  | 0 => 0
  | n + 1 => Ideal.exp (onM s n - onM s (n + 1)) * onL s n + ∑ j : Fin 512, Ideal.exp (s n j - onM s (n + 1))

/-- One column of the running numerator after `n` tiles. -/
def onA (s v : ℕ → Fin 512 → EReal) : ℕ → EReal
  | 0 => 0
  | n + 1 => Ideal.exp (onM s n - onM s (n + 1)) * onA s v n
      + ∑ j : Fin 512, Ideal.exp (s n j - onM s (n + 1)) * v n j

end Cert.Attn

end
-- ==== Proof.FlashRow.lean ====
/-
  The scores of one query row and one column of the values, as the attention kernel forms them from the arrays it
  is handed: queries (already scaled), keys, values, and the mask as 32-bit words (a non-zero word excludes the key).
-/
import proofs.«161376_j2439541424557_2_alg».proof.Proof.FlashData
import proofs.«161376_j2439541424557_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The four arrays the region is handed, at their element types at this instance. -/
def arrQ (c : Dev nD) : S4x4096x256.Idx → EReal := V c main_v0_0
def arrK (c : Dev nD) : S4x4096x256.Idx → EReal := V c main_v0_1
def arrV (c : Dev nD) : S4x4096x256.Idx → EReal := V c main_v0_2
def arrM (c : Dev nD) : S4x4096x4096.Idx → BitVec 32 := V c main_v1

/-- The scores of query row `q` of batch `b`: the fill where the mask word is non-zero, else query · key. -/
def rowS (c : Dev nD) (b : Fin 4) (q : Fin 4096) : Fin 4096 → EReal := fun k =>
  Scalar.select (IntOp.cmpi .ne (arrM V c (ix3 b q k)) 0#32) Cert.Attn.NEG
    (∑ d : Fin 256, arrQ V c (ix3 b q d) * arrK V c (ix3 b k d))

/-- Column `e` of the values of batch `b`. -/
def colV (c : Dev nD) (b : Fin 4) (e : Fin 256) : Fin 4096 → EReal := fun k => arrV V c (ix3 b k e)

end Cert.KernelIdeal.Hand

end
-- ==== Proof.FlashArr.lean ====
/-
  The attention kernel's region, read as arrays.  Grid point t = 16 b + 8 q + n (b the batch, q the query tile
  of 2048 rows, n the key tile of 512 keys) reads rows 2048 q … of batch b of Q, rows 512 n … of K and of V, and
  the 2048 × 512 corner (q, n) of the mask; it writes the output rows 2048 q … of batch b back only at the last
  key tile, n = 7.  Those eight blocks tile the output array: the point covering entry (b, s, e) is
  16 b + 8 (s / 2048) + 7.
-/
import proofs.«161376_j2439541424557_2_alg».proof.Proof.FlashData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Where each window's block sits -/

/-- The printed index maps, decided over the 64 points: with t = 16 b + 8 q + n, the Q and output blocks are
    block (b, q, 0), the K and V blocks block (b, n, 0), the mask block block (b, q, n). -/
theorem idx_facts1 : ∀ t : Fin cfg1.N,
    (win1_0.index t (0 : Fin 3) = t.val / 16 ∧ win1_0.index t (1 : Fin 3) = t.val / 8 % 2 ∧ win1_0.index t (2 : Fin 3) = 0)
    ∧ (win1_1.index t (0 : Fin 3) = t.val / 16 ∧ win1_1.index t (1 : Fin 3) = t.val % 8 ∧ win1_1.index t (2 : Fin 3) = 0)
    ∧ (win1_2.index t (0 : Fin 3) = t.val / 16 ∧ win1_2.index t (1 : Fin 3) = t.val % 8 ∧ win1_2.index t (2 : Fin 3) = 0)
    ∧ (win1_3.index t (0 : Fin 3) = t.val / 16 ∧ win1_3.index t (1 : Fin 3) = t.val / 8 % 2 ∧ win1_3.index t (2 : Fin 3) = t.val % 8)
    ∧ (win1_4.index t (0 : Fin 3) = t.val / 16 ∧ win1_4.index t (1 : Fin 3) = t.val / 8 % 2 ∧ win1_4.index t (2 : Fin 3) = 0) :=
  (by decide +kernel : ∀ t : Fin grid1.N, _)

/-! ## The input blocks as entries of the arrays -/

/-- The Q block at point t: row r, column d is Q at batch t / 16, row 2048 (t / 8 mod 2) + r, column d. -/
theorem iblk1_0_apply (c : Dev nD) (t : Fin cfg1.N) (r : Fin 2048) (d : Fin 256) (k : S4x4096x256.Idx)
    (h0 : (k 0).val = t.val / 16) (h1 : (k 1).val = 2048 * (t.val / 8 % 2) + r.val) (h2 : (k 2).val = d.val) :
    iblk1 V c 0 t (ix3 (0 : Fin 1) r d) = V c main_v0_0 k := by
  obtain ⟨⟨e0, e1, e2⟩, -, -, -, -⟩ := idx_facts1 t
  unfold iblk1
  rw [View.read_apply]
  show V c main_v0_0 _ = V c main_v0_0 _
  refine congrArg (V c main_v0_0) ?_
  funext a
  apply Fin.ext
  match a with
  | ⟨0, _⟩ => show win1_0.index t (0 : Fin 3) * 1 + 1 * 0 = (k 0).val; rw [e0, h0]; omega
  | ⟨1, _⟩ => show win1_0.index t (1 : Fin 3) * 2048 + 1 * r.val = (k 1).val; rw [e1, h1]; omega
  | ⟨2, _⟩ => show win1_0.index t (2 : Fin 3) * 256 + 1 * d.val = (k 2).val; rw [e2, h2]; omega

/-- The K block at point t: row j, column d is K at batch t / 16, row 512 (t mod 8) + j, column d. -/
theorem iblk1_1_apply (c : Dev nD) (t : Fin cfg1.N) (j : Fin 512) (d : Fin 256) (k : S4x4096x256.Idx)
    (h0 : (k 0).val = t.val / 16) (h1 : (k 1).val = 512 * (t.val % 8) + j.val) (h2 : (k 2).val = d.val) :
    iblk1 V c 1 t (ix3 (0 : Fin 1) j d) = V c main_v0_1 k := by
  obtain ⟨-, ⟨e0, e1, e2⟩, -, -, -⟩ := idx_facts1 t
  unfold iblk1
  rw [View.read_apply]
  show V c main_v0_1 _ = V c main_v0_1 _
  refine congrArg (V c main_v0_1) ?_
  funext a
  apply Fin.ext
  match a with
  | ⟨0, _⟩ => show win1_1.index t (0 : Fin 3) * 1 + 1 * 0 = (k 0).val; rw [e0, h0]; omega
  | ⟨1, _⟩ => show win1_1.index t (1 : Fin 3) * 512 + 1 * j.val = (k 1).val; rw [e1, h1]; omega
  | ⟨2, _⟩ => show win1_1.index t (2 : Fin 3) * 256 + 1 * d.val = (k 2).val; rw [e2, h2]; omega

/-- The V block at point t: row j, column d is V at batch t / 16, row 512 (t mod 8) + j, column d. -/
theorem iblk1_2_apply (c : Dev nD) (t : Fin cfg1.N) (j : Fin 512) (d : Fin 256) (k : S4x4096x256.Idx)
    (h0 : (k 0).val = t.val / 16) (h1 : (k 1).val = 512 * (t.val % 8) + j.val) (h2 : (k 2).val = d.val) :
    iblk1 V c 2 t (ix3 (0 : Fin 1) j d) = V c main_v0_2 k := by
  obtain ⟨-, -, ⟨e0, e1, e2⟩, -, -⟩ := idx_facts1 t
  unfold iblk1
  rw [View.read_apply]
  show V c main_v0_2 _ = V c main_v0_2 _
  refine congrArg (V c main_v0_2) ?_
  funext a
  apply Fin.ext
  match a with
  | ⟨0, _⟩ => show win1_2.index t (0 : Fin 3) * 1 + 1 * 0 = (k 0).val; rw [e0, h0]; omega
  | ⟨1, _⟩ => show win1_2.index t (1 : Fin 3) * 512 + 1 * j.val = (k 1).val; rw [e1, h1]; omega
  | ⟨2, _⟩ => show win1_2.index t (2 : Fin 3) * 256 + 1 * d.val = (k 2).val; rw [e2, h2]; omega

/-- The mask block at point t: row r, column j is the mask at batch t / 16, query 2048 (t / 8 mod 2) + r, key 512 (t mod 8) + j. -/
theorem iblk1_3_apply (c : Dev nD) (t : Fin cfg1.N) (r : Fin 2048) (j : Fin 512) (k : S4x4096x4096.Idx)
    (h0 : (k 0).val = t.val / 16) (h1 : (k 1).val = 2048 * (t.val / 8 % 2) + r.val) (h2 : (k 2).val = 512 * (t.val % 8) + j.val) :
    iblk1 V c 3 t (ix3 (0 : Fin 1) r j) = V c main_v1 k := by
  obtain ⟨-, -, -, ⟨e0, e1, e2⟩, -⟩ := idx_facts1 t
  unfold iblk1
  rw [View.read_apply]
  show V c main_v1 _ = V c main_v1 _
  refine congrArg (V c main_v1) ?_
  funext a
  apply Fin.ext
  match a with
  | ⟨0, _⟩ => show win1_3.index t (0 : Fin 3) * 1 + 1 * 0 = (k 0).val; rw [e0, h0]; omega
  | ⟨1, _⟩ => show win1_3.index t (1 : Fin 3) * 2048 + 1 * r.val = (k 1).val; rw [e1, h1]; omega
  | ⟨2, _⟩ => show win1_3.index t (2 : Fin 3) * 512 + 1 * j.val = (k 2).val; rw [e2, h2]; omega

/-! ## The output array -/

/-- An entry of the output array is in point t's block iff each coordinate is in the block's range on its axis. -/
theorem mem_blk1_4 (t : Fin cfg1.N) (i : S4x4096x256.Idx) :
    i ∈ ((cfg1.win 4).blk t).view.set ↔ ∀ a : Fin 3, win1_4.index t a * S1x2048x256.size a ≤ (i a).val ∧ (i a).val < win1_4.index t a * S1x2048x256.size a + S1x2048x256.size a := by
  show i ∈ ((View.whole main_v2).slice (win1_4.rect t)).set ↔ _
  rw [View.set_slice_whole, Rect.mem_set_unit]
  exact Iff.rfl

/-- Every entry (b, s, e) of the output is in the block of the point 16 b + 8 (s / 2048) + 7, a last key tile, which is
    written back. -/
theorem cover1_4 (i : S4x4096x256.Idx) : ∃ t : Fin cfg1.N, (cfg1.win 4).flush t = true ∧ i ∈ ((cfg1.win 4).blk t).view.set := by
  have hN : cfg1.N = 64 := N_1
  have h0 : (i 0).val < 4 := (i 0).isLt
  have h1 : (i 1).val < 4096 := (i 1).isLt
  have h2 : (i 2).val < 256 := (i 2).isLt
  obtain ⟨T, hT⟩ : ∃ T : Fin cfg1.N, T.val = 16 * (i 0).val + 8 * ((i 1).val / 2048) + 7 :=
    ⟨⟨16 * (i 0).val + 8 * ((i 1).val / 2048) + 7, by rw [hN]; omega⟩, rfl⟩
  obtain ⟨-, -, -, -, ⟨e0, e1, e2⟩⟩ := idx_facts1 T
  refine ⟨T, (flush1_4 T).mpr (by rw [hT]; omega), ?_⟩
  rw [mem_blk1_4]
  intro a
  match a with
  | ⟨0, _⟩ => show win1_4.index T (0 : Fin 3) * 1 ≤ (i 0).val ∧ (i 0).val < win1_4.index T (0 : Fin 3) * 1 + 1; rw [e0, hT]; omega
  | ⟨1, _⟩ => show win1_4.index T (1 : Fin 3) * 2048 ≤ (i 1).val ∧ (i 1).val < win1_4.index T (1 : Fin 3) * 2048 + 2048; rw [e1, hT]; omega
  | ⟨2, _⟩ => show win1_4.index T (2 : Fin 3) * 256 ≤ (i 2).val ∧ (i 2).val < win1_4.index T (2 : Fin 3) * 256 + 256; rw [e2]; omega

/-- What a last-key-tile point writes back is its block of `G`, for any whole-array function `G` that the output
    buffer after that point agrees with entry by entry. -/
theorem flushed1_4_eq_of (c : Dev nD) (G : S4x4096x256.Idx → EReal)
    (hG : ∀ (t : Fin cfg1.N), t.val % 8 = 7 → ∀ (r : Fin 2048) (e : Fin 256) (k : S4x4096x256.Idx), (k 0).val = t.val / 16 →
      (k 1).val = 2048 * (t.val / 8 % 2) + r.val → (k 2).val = e.val → (outsAt1 V c t.val t.isLt).1 (ix3 (0 : Fin 1) r e) = G k)
    (t : Fin cfg1.N) (hf : (cfg1.win 4).flush t = true) :
    (dat1 (F := Ideal) V c).flushed 4 t = ((cfg1.win 4).blk t).view.read (Elt Ideal) G := by
  have h7 : t.val % 8 = 7 := (flush1_4 t).mp hf
  show (cfg1.win 4).cut (grid1.coords t) ((dat1 V c).after 4 t) = _
  rw [after1_4]
  obtain ⟨-, -, -, -, ⟨e0, e1, e2⟩⟩ := idx_facts1 t
  funext j
  obtain ⟨u, r, e, rfl⟩ : ∃ (u : Fin 1) (r : Fin 2048) (e : Fin 256), j = ix3 u r e := ⟨j 0, j 1, j 2, eq_ix3 j⟩
  obtain rfl : u = 0 := Subsingleton.elim _ _
  rw [View.read_apply]
  refine hG t h7 r e _ ?_ ?_ ?_
  · show win1_4.index t (0 : Fin 3) * 1 + 1 * 0 = t.val / 16; rw [e0]; omega
  · show win1_4.index t (1 : Fin 3) * 2048 + 1 * r.val = 2048 * (t.val / 8 % 2) + r.val; rw [e1]; omega
  · show win1_4.index t (2 : Fin 3) * 256 + 1 * e.val = e.val; rw [e2]; omega

/-- The output array after the region is `G`, for any such `G`. -/
theorem final1_4_of (c : Dev nD) (G : S4x4096x256.Idx → EReal)
    (hG : ∀ (t : Fin cfg1.N), t.val % 8 = 7 → ∀ (r : Fin 2048) (e : Fin 256) (k : S4x4096x256.Idx), (k 0).val = t.val / 16 →
      (k 1).val = 2048 * (t.val / 8 % 2) + r.val → (k 2).val = e.val → (outsAt1 V c t.val t.isLt).1 (ix3 (0 : Fin 1) r e) = G k) :
    (dat1 (F := Ideal) V c).arrAt 4 cfg1.N = G :=
  (dat1 V c).arrAt_eq_of_cover 4 G (fun t hf => flushed1_4_eq_of V c G hG t hf) cover1_4

end Cert.KernelIdeal.Hand

end
-- ==== Proof.FlashPieces.lean ====
/-
  What each control case of the attention kernel's body leaves in its buffers, as terms over the body's payloads.

  The body keeps three row statistics in scratch: the running maximum, the running normaliser and the running
  numerator.  At a middle key tile it loads the query block, the key and value tiles, the mask tile and the three
  statistics, and stores each statistic once, through the whole buffer: the new maximum, the new normaliser, the
  new numerator — each a payload of what was loaded.  At the last key tile it does the same and then stores, into
  the output block, the quotient of the numerator and the normaliser it has just stored (it reads them back).
  At the first key tile it first stores the start values of the three statistics, reads them back, and updates
  them as at a middle tile; so each scratch buffer is stored twice and the later store is what is left.

  In each case the buffer's contents after the case are the read-back of its stores over anything; the stores
  cover the buffer, a whole-buffer store at zero offsets leaves its payload, and a whole-buffer load at zero
  offsets of a whole buffer, or of what one such store left, reads the contents.
-/
import proofs.«161376_j2439541424557_2_alg».proof.Proof.FlashCases
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F]

theorem hzero2 : (![0, 0] : Fin 2 → Nat) = fun _ => 0 := funext fun a => by fin_cases a <;> rfl
theorem hzero3 : (![0, 0, 0] : Fin 3 → Nat) = fun _ => 0 := funext fun a => by fin_cases a <;> rfl

variable (c : Dev nD) (i : grid1.Coords) (arg3 : Memref sig .tc .vmem S1x2048x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x2048x512 .i32) (harg6 : arg6.IsWhole) (arg7 : Memref sig .tc .vmem S1x2048x256 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x256 .f32) (harg10 : arg10.IsWhole)
variable (x0 : Vec F S1x2048x256 .bf16) (x1 : Vec F S1x512x256 .bf16) (x2 : Vec F S1x512x256 .bf16) (x3 : Vec F S1x2048x512 .i32)
variable (xs0 : Vec F S2048x1 .f32) (xs1 : Vec F S2048x1 .f32) (xs2 : Vec F S2048x256 .f32)

/-! ## A middle key tile: each statistic updated from what the tile before left -/

/-- The running maximum after a middle tile. -/
theorem sout1_B_0_eq (hc0 : ¬cond1_0 i) (hc1 : ¬cond1_1 i) :
    sout1_B_0 c i arg3 harg3 arg4 harg4 arg5 harg5 arg6 harg6 arg7 harg7 arg8 harg8 arg9 harg9 arg10 harg10 x0 x1 x2 x3 xs0 xs1 xs2 hc0 hc1 = k1_pay3 (k1_pay10 x0 x1 x3 xs0) := by
  unfold sout1_B_0
  rw [View.read_writes_eq_canon _ _ _ (scover1_B_0 c i arg3 harg3 arg4 harg4 arg5 harg5 arg6 harg6 arg7 harg7 arg8 harg8 arg9 harg9 arg10 harg10 x0 x1 x2 x3 xs0 xs1 xs2 hc0 hc1)]
  unfold kernelRun1_B
  dsimp only
  rw [View.canon_unit_zero hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The running normaliser after a middle tile (the maximum it is rescaled from is the one loaded). -/
theorem sout1_B_1_eq (hc0 : ¬cond1_0 i) (hc1 : ¬cond1_1 i) :
    sout1_B_1 c i arg3 harg3 arg4 harg4 arg5 harg5 arg6 harg6 arg7 harg7 arg8 harg8 arg9 harg9 arg10 harg10 x0 x1 x2 x3 xs0 xs1 xs2 hc0 hc1 = k1_pay1 (k1_pay13 x0 x1 x3 xs0 xs0 xs1) := by
  unfold sout1_B_1
  rw [View.read_writes_eq_canon _ _ _ (scover1_B_1 c i arg3 harg3 arg4 harg4 arg5 harg5 arg6 harg6 arg7 harg7 arg8 harg8 arg9 harg9 arg10 harg10 x0 x1 x2 x3 xs0 xs1 xs2 hc0 hc1)]
  unfold kernelRun1_B
  dsimp only
  rw [View.canon_unit_zero hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The running numerator after a middle tile. -/
theorem sout1_B_2_eq (hc0 : ¬cond1_0 i) (hc1 : ¬cond1_1 i) :
    sout1_B_2 c i arg3 harg3 arg4 harg4 arg5 harg5 arg6 harg6 arg7 harg7 arg8 harg8 arg9 harg9 arg10 harg10 x0 x1 x2 x3 xs0 xs1 xs2 hc0 hc1 = k1_pay2 (k1_pay8 x2) (k1_pay11 x0 x1 x3 xs0) (k1_pay12 x0 x1 x3 xs0 xs0) xs2 := by
  unfold sout1_B_2
  rw [View.read_writes_eq_canon _ _ _ (scover1_B_2 c i arg3 harg3 arg4 harg4 arg5 harg5 arg6 harg6 arg7 harg7 arg8 harg8 arg9 harg9 arg10 harg10 x0 x1 x2 x3 xs0 xs1 xs2 hc0 hc1)]
  unfold kernelRun1_B
  dsimp only
  rw [View.canon_unit_zero hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-! ## The last key tile: the same three updates, then the output block -/

/-- The running maximum after the last tile. -/
theorem sout1_C_0_eq (hc0 : ¬cond1_0 i) (hc1 : cond1_1 i) :
    sout1_C_0 c i arg3 harg3 arg4 harg4 arg5 harg5 arg6 harg6 arg7 harg7 arg8 harg8 arg9 harg9 arg10 harg10 x0 x1 x2 x3 xs0 xs1 xs2 hc0 hc1 = k1_pay3 (k1_pay10 x0 x1 x3 xs0) := by
  unfold sout1_C_0
  rw [View.read_writes_eq_canon _ _ _ (scover1_C_0 c i arg3 harg3 arg4 harg4 arg5 harg5 arg6 harg6 arg7 harg7 arg8 harg8 arg9 harg9 arg10 harg10 x0 x1 x2 x3 xs0 xs1 xs2 hc0 hc1)]
  unfold kernelRun1_C
  dsimp only
  rw [View.canon_unit_zero hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The running normaliser after the last tile. -/
theorem sout1_C_1_eq (hc0 : ¬cond1_0 i) (hc1 : cond1_1 i) :
    sout1_C_1 c i arg3 harg3 arg4 harg4 arg5 harg5 arg6 harg6 arg7 harg7 arg8 harg8 arg9 harg9 arg10 harg10 x0 x1 x2 x3 xs0 xs1 xs2 hc0 hc1 = k1_pay1 (k1_pay13 x0 x1 x3 xs0 xs0 xs1) := by
  unfold sout1_C_1
  rw [View.read_writes_eq_canon _ _ _ (scover1_C_1 c i arg3 harg3 arg4 harg4 arg5 harg5 arg6 harg6 arg7 harg7 arg8 harg8 arg9 harg9 arg10 harg10 x0 x1 x2 x3 xs0 xs1 xs2 hc0 hc1)]
  unfold kernelRun1_C
  dsimp only
  sl_unfold_words
  dsimp only
  rw [View.canon_unit_zero hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The running numerator after the last tile. -/
theorem sout1_C_2_eq (hc0 : ¬cond1_0 i) (hc1 : cond1_1 i) :
    sout1_C_2 c i arg3 harg3 arg4 harg4 arg5 harg5 arg6 harg6 arg7 harg7 arg8 harg8 arg9 harg9 arg10 harg10 x0 x1 x2 x3 xs0 xs1 xs2 hc0 hc1 = k1_pay2 (k1_pay8 x2) (k1_pay11 x0 x1 x3 xs0) (k1_pay12 x0 x1 x3 xs0 xs0) xs2 := by
  unfold sout1_C_2
  rw [View.read_writes_eq_canon _ _ _ (scover1_C_2 c i arg3 harg3 arg4 harg4 arg5 harg5 arg6 harg6 arg7 harg7 arg8 harg8 arg9 harg9 arg10 harg10 x0 x1 x2 x3 xs0 xs1 xs2 hc0 hc1)]
  unfold kernelRun1_C
  dsimp only
  sl_unfold_words
  dsimp only
  rw [View.canon_unit_zero hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The output block: the numerator just stored divided by the normaliser just stored. -/
theorem out1_C_4_eq (hc0 : ¬cond1_0 i) (hc1 : cond1_1 i) :
    out1_C_4 c i arg3 harg3 arg4 harg4 arg5 harg5 arg6 harg6 arg7 harg7 arg8 harg8 arg9 harg9 arg10 harg10 x0 x1 x2 x3 xs0 xs1 xs2 hc0 hc1 = k1_pay4 (k1_pay2 (k1_pay8 x2) (k1_pay11 x0 x1 x3 xs0) (k1_pay12 x0 x1 x3 xs0 xs0) xs2) (k1_pay1 (k1_pay13 x0 x1 x3 xs0 xs0 xs1)) := by
  unfold out1_C_4
  rw [View.read_writes_eq_canon _ _ _ (cover1_C_4 c i arg3 harg3 arg4 harg4 arg5 harg5 arg6 harg6 arg7 harg7 arg8 harg8 arg9 harg9 arg10 harg10 x0 x1 x2 x3 xs0 xs1 xs2 hc0 hc1)]
  unfold kernelRun1_C
  dsimp only
  sl_unfold_words
  dsimp only
  rw [View.canon_unit_zero hzero3]
  rw [View.readCov_unit_zero (S := S2048x256) _ hzero2, View.readCov_unit_zero (S := S2048x1) _ hzero2]
  simp only [View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-! ## The first key tile: the start values stored, read back and updated -/

/-- The running maximum after the first tile: the update of its start value. -/
theorem sout1_A_0_eq (hc0 : cond1_0 i) (hc1 : ¬cond1_1 i) :
    sout1_A_0 c i arg3 harg3 arg4 harg4 arg5 harg5 arg6 harg6 arg7 harg7 arg8 harg8 arg9 harg9 arg10 harg10 x0 x1 x2 x3 hc0 hc1 = k1_pay3 (k1_pay10 x0 x1 x3 k1_pay5) := by
  unfold sout1_A_0
  rw [View.read_writes_eq_canon _ _ _ (scover1_A_0 c i arg3 harg3 arg4 harg4 arg5 harg5 arg6 harg6 arg7 harg7 arg8 harg8 arg9 harg9 arg10 harg10 x0 x1 x2 x3 hc0 hc1)]
  unfold kernelRun1_A
  dsimp only
  sl_unfold_words
  dsimp only
  rw [View.canon_cons_unit_zero (S := S2048x1) hzero2]
  simp only [View.readCov_unit_zero (S := S2048x1) _ hzero2, View.readCov_unit_zero (S := S2048x256) _ hzero2, View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The running normaliser after the first tile: the update of its start value. -/
theorem sout1_A_1_eq (hc0 : cond1_0 i) (hc1 : ¬cond1_1 i) :
    sout1_A_1 c i arg3 harg3 arg4 harg4 arg5 harg5 arg6 harg6 arg7 harg7 arg8 harg8 arg9 harg9 arg10 harg10 x0 x1 x2 x3 hc0 hc1 = k1_pay1 (k1_pay13 x0 x1 x3 k1_pay5 k1_pay5 k1_pay6) := by
  unfold sout1_A_1
  rw [View.read_writes_eq_canon _ _ _ (scover1_A_1 c i arg3 harg3 arg4 harg4 arg5 harg5 arg6 harg6 arg7 harg7 arg8 harg8 arg9 harg9 arg10 harg10 x0 x1 x2 x3 hc0 hc1)]
  unfold kernelRun1_A
  dsimp only
  sl_unfold_words
  dsimp only
  rw [View.canon_cons_unit_zero (S := S2048x1) hzero2]
  simp only [View.readCov_unit_zero (S := S2048x1) _ hzero2, View.readCov_unit_zero (S := S2048x256) _ hzero2, View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

/-- The running numerator after the first tile: the update of its start value. -/
theorem sout1_A_2_eq (hc0 : cond1_0 i) (hc1 : ¬cond1_1 i) :
    sout1_A_2 c i arg3 harg3 arg4 harg4 arg5 harg5 arg6 harg6 arg7 harg7 arg8 harg8 arg9 harg9 arg10 harg10 x0 x1 x2 x3 hc0 hc1 = k1_pay2 (k1_pay8 x2) (k1_pay11 x0 x1 x3 k1_pay5) (k1_pay12 x0 x1 x3 k1_pay5 k1_pay5) k1_pay7 := by
  unfold sout1_A_2
  rw [View.read_writes_eq_canon _ _ _ (scover1_A_2 c i arg3 harg3 arg4 harg4 arg5 harg5 arg6 harg6 arg7 harg7 arg8 harg8 arg9 harg9 arg10 harg10 x0 x1 x2 x3 hc0 hc1)]
  unfold kernelRun1_A
  dsimp only
  sl_unfold_words
  dsimp only
  rw [View.canon_cons_unit_zero (S := S2048x256) hzero2]
  simp only [View.readCov_unit_zero (S := S2048x1) _ hzero2, View.readCov_unit_zero (S := S2048x256) _ hzero2, View.readAt_eq_ld, harg3.read_unread, harg4.read_unread, harg5.read_unread, harg6.read_unread, harg7.read_unread, harg8.read_unread, harg9.read_unread, harg10.read_unread, View.ld_unit_zero (S := S1x2048x256) hzero3, View.ld_unit_zero (S := S1x512x256) hzero3, View.ld_unit_zero (S := S1x2048x512) hzero3, View.ld_unit_zero (S := S2048x1) hzero2, View.ld_unit_zero (S := S2048x256) hzero2]

end Cert.KernelIdeal.Hand

end
-- ==== Proof.FlashPayloadLayout.lean ====
/-
  Two layout readings the online-softmax step needs, for a column kept as a trailing unit axis:
  a vector [a] viewed as the column [a, 1], and a column [a, 1] repeated along the lanes to [a, b].
-/
import Idealize.ShloMosaic.Lib.ValueIdx
import Idealize.ShloMosaic.Lib.ValueLayout
import Idealize.ShloMosaic.Lib.Pipeline.Value

noncomputable section

namespace Cert.KernelIdeal.FlashValue

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.FlashValue

end
-- ==== Proof.FlashPayloadScore.lean ====
/-
  One step of the online softmax, read entry by entry on the extended reals.

  A step sees 2048 query rows q(r, ·), a tile of 512 key rows k(j, ·), the tile's mask words and the carried
  row statistics: the running maximum m, the previous maximum, and the running normaliser l.
    * the tile's scores  s(r, j) = the fill −1e9 where the mask word is not 0, else Σ_d q(r, d) · k(j, d);
    * the new maximum    m'(r)  = max(m(r), sup_j s(r, j))   (the lane maximum starts from −∞, the least element);
    * the weights        p(r, j) = exp(s(r, j) − m'(r));
    * the rescaling      a(r)   = exp(m_old(r) − m'(r));
    * the new normaliser l'(r)  = a(r) · l(r) + Σ_j p(r, j)  (the lane sum starts from 0).
-/
import proofs.«161376_j2439541424557_2_alg».proof.Proof.Gen.KernelIdeal.Skeleton
import proofs.«161376_j2439541424557_2_alg».proof.Proof.Spec
import proofs.«161376_j2439541424557_2_alg».proof.Proof.FlashPayloadLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FlashValue

open Cert.KernelIdeal Cert.KernelIdeal.Gen Idealize.ShloMosaic Idealize.ShloMosaic.ValueIdx

/-! ## The contraction of query rows against key rows -/

theorem qk_lhs0 (i : S2048x512.Idx) (q : dot_S2048x256_S512x256_S2048x512_1_1_0_0_n_n.contr.Idx) : (dot_S2048x256_S512x256_S2048x512_1_1_0_0_n_n.lhsIdx i q 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem qk_lhs1 (i : S2048x512.Idx) (q : dot_S2048x256_S512x256_S2048x512_1_1_0_0_n_n.contr.Idx) : (dot_S2048x256_S512x256_S2048x512_1_1_0_0_n_n.lhsIdx i q 1).val = (q ⟨0, by decide⟩).val :=
  dot_S2048x256_S512x256_S2048x512_1_1_0_0_n_n.lhsIdx_val_of_single rfl i q
theorem qk_rhs0 (i : S2048x512.Idx) (q : dot_S2048x256_S512x256_S2048x512_1_1_0_0_n_n.contr.Idx) : (dot_S2048x256_S512x256_S2048x512_1_1_0_0_n_n.rhsIdx i q 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
theorem qk_rhs1 (i : S2048x512.Idx) (q : dot_S2048x256_S512x256_S2048x512_1_1_0_0_n_n.contr.Idx) : (dot_S2048x256_S512x256_S2048x512_1_1_0_0_n_n.rhsIdx i q 1).val = (q ⟨0, by decide⟩).val :=
  dot_S2048x256_S512x256_S2048x512_1_1_0_0_n_n.rhsIdx_val_of_single rfl i q

/-- Into a zero accumulator, entry (r, j) of q kᵀ is the inner product of query row r and key row j over the 256 features. -/
theorem qk_apply (q : FVec Ideal S2048x256 .bf16) (k : FVec Ideal S512x256 .bf16) (r : Fin 2048) (j : Fin 512) :
    FloatOps.matmul dot_S2048x256_S512x256_S2048x512_1_1_0_0_n_n none q k (constant (F := Ideal) S2048x512 .f32 0x00000000#32) (ix2 r j)
      = ∑ d : Fin 256, q (ix2 r d) * k (ix2 j d) := by
  rw [Ideal.matmul_constant_zero_apply, ← Equiv.sum_comp (contrEquiv1 dot_S2048x256_S512x256_S2048x512_1_1_0_0_n_n 256 rfl rfl).symm]
  refine Finset.sum_congr rfl fun d _ => ?_
  have hk := contrEquiv1_symm_val dot_S2048x256_S512x256_S2048x512_1_1_0_0_n_n 256 rfl rfl d
  have el : dot_S2048x256_S512x256_S2048x512_1_1_0_0_n_n.lhsIdx (ix2 r j) ((contrEquiv1 dot_S2048x256_S512x256_S2048x512_1_1_0_0_n_n 256 rfl rfl).symm d) = ix2 r d := funext fun a => Fin.ext (by
    match a with
    | ⟨0, _⟩ => exact qk_lhs0 _ _
    | ⟨1, _⟩ => exact (qk_lhs1 _ _).trans hk)
  have er : dot_S2048x256_S512x256_S2048x512_1_1_0_0_n_n.rhsIdx (ix2 r j) ((contrEquiv1 dot_S2048x256_S512x256_S2048x512_1_1_0_0_n_n 256 rfl rfl).symm d) = ix2 j d := funext fun a => Fin.ext (by
    match a with
    | ⟨0, _⟩ => exact qk_rhs0 _ _
    | ⟨1, _⟩ => exact (qk_rhs1 _ _).trans hk)
  rw [el, er]

/-! ## The lane reductions of a [2048, 512] tile -/

/-- The f32 pattern of −∞ denotes the least extended real. -/
theorem ofBits_neg_inf : Ideal.ofBits .f32 0xFF800000#32 = ⊥ := by simp [Ideal.ofBits, Ideal.ieee]

/-- Folding `max` from ⊥ over all of a finite index set gives the supremum. -/
theorem fold_max_bot_eq_sup {n : ℕ} (f : Fin n → EReal) :
    (Finset.univ : Finset (Fin n)).fold max ⊥ f = Finset.univ.sup f := by
  apply le_antisymm
  · exact (Finset.fold_max_le _).mpr ⟨bot_le, fun x hx => Finset.le_sup hx⟩
  · exact Finset.sup_le fun x hx => (Finset.le_fold_max _).mpr (Or.inr ⟨x, hx, le_rfl⟩)

/-- The index of row r with lane k inserted is (r, k). -/
theorem lift_row (h : S2048x512.Reduces [1] S2048) (r : Fin 2048) (k : Fin 512) : h.lift (ix1 r) k = ix2 r k :=
  funext fun a => Fin.ext (by match a with | ⟨0, _⟩ => rfl | ⟨1, _⟩ => rfl)

/-- The lane maximum from −∞ of row r is the supremum of the row. -/
theorem laneMax_apply (src : FVec Ideal S2048x512 .f32) (h : S2048x512.Reduces [1] S2048) (hφ : FKind.Formats .f32)
    (hacc : (0xFF800000#32 : BitVec 32) = FKind.maximumf.neutral .f32 hφ) (r : Fin 2048) :
    multiReduction .maximumf [1] S2048 src 0xFF800000#32 h hφ hacc (ix1 r)
      = Finset.univ.sup (fun j : Fin 512 => src (ix2 r j)) := by
  refine (Ideal.multiReduction_maximumf_single src 0xFF800000#32 h hφ hacc (ix1 r)).trans ?_
  show Finset.fold max (Ideal.ofBits .f32 0xFF800000#32) (fun k : Fin 512 => src (h.lift (ix1 r) k)) Finset.univ = _
  simp only [lift_row, ofBits_neg_inf]
  exact fold_max_bot_eq_sup _

/-- The lane sum from 0 of row r is the sum of the row. -/
theorem laneSum_apply (src : FVec Ideal S2048x512 .f32) (h : S2048x512.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ j : Fin 512, src (ix2 r j) := by
  refine (Ideal.multiReduction_add_single src 0x00000000#32 h hφ hacc (ix1 r)).trans ?_
  show ∑ k : Fin 512, src (h.lift (ix1 r) k) = _
  simp only [lift_row]

/-! ## The payloads -/

/-- The exponential at an index is the exponential of the element. -/
theorem exp_apply {s : Shape} {φ : FTy} (a : FVec Ideal s φ) (i : s.Idx) : exp a i = Ideal.exp (a i) := rfl

variable (x0 : Vec Ideal S1x2048x256 .bf16) (x1 : Vec Ideal S1x512x256 .bf16) (x3 : Vec Ideal S1x2048x512 .i32)
  (m0 m1 l0 : Vec Ideal S2048x1 .f32) (r : Fin 2048) (j : Fin 512)

/-- The tile's masked scores. -/
theorem pay9_apply : k1_pay9 x0 x1 x3 (ix2 r j)
    = Scalar.select (IntOp.cmpi .ne (x3 (ix3 0 r j)) 0#32) Cert.Attn.NEG (∑ d : Fin 256, x0 (ix3 0 r d) * x1 (ix3 0 j d)) := by
  unfold k1_pay9
  refine (select_apply _ _ _ _).trans ?_
  have e1 : cmpi .ne (shapeCast S2048x512 x3 shapeCasts_S1x2048x512_S2048x512) (constantI S2048x512 32 0#32) (ix2 r j)
      = IntOp.cmpi .ne (x3 (ix3 0 r j)) 0#32 :=
    congrArg (IntOp.cmpi .ne · 0#32) (shapeCast_1ab_ab_apply x3 _ r j)
  have e2 : matmul dot_S2048x256_S512x256_S2048x512_1_1_0_0_n_n none (shapeCast S2048x256 x0 shapeCasts_S1x2048x256_S2048x256)
      (shapeCast S512x256 x1 shapeCasts_S1x512x256_S512x256) (constant (F := Ideal) S2048x512 .f32 0x00000000#32) (ix2 r j)
      = ∑ d : Fin 256, x0 (ix3 0 r d) * x1 (ix3 0 j d) :=
    (qk_apply _ _ r j).trans (Finset.sum_congr rfl fun d _ => by
      rw [shapeCast_1ab_ab_apply x0 _ r d, shapeCast_1ab_ab_apply x1 _ j d])
  rw [e1, e2]
  rfl

/-- The new running maximum. -/
theorem pay10_apply : k1_pay10 x0 x1 x3 m0 (ix2 r 0)
    = max (m0 (ix2 r 0)) (Finset.univ.sup (fun j : Fin 512 => k1_pay9 x0 x1 x3 (ix2 r j))) := by
  unfold k1_pay10
  refine (maximumf_apply _ _ _).trans ?_
  exact congrArg (max (m0 (ix2 r 0))) ((shapeCast_a_a1_apply _ _ r 0).trans (laneMax_apply _ _ _ _ r))

/-- The tile's softmax weights against the new maximum. -/
theorem pay11_apply : k1_pay11 x0 x1 x3 m0 (ix2 r j)
    = Ideal.exp (k1_pay9 x0 x1 x3 (ix2 r j) - k1_pay10 x0 x1 x3 m0 (ix2 r 0)) := by
  unfold k1_pay11
  refine (exp_apply _ _).trans (congrArg Ideal.exp ?_)
  refine (subf_apply _ _ _).trans ?_
  exact congrArg (k1_pay9 x0 x1 x3 (ix2 r j) - ·) (broadcastTo_a1_ab_apply _ _ r j)

/-- The rescaling of the carried sums when the maximum moves. -/
theorem pay12_apply : k1_pay12 x0 x1 x3 m0 m1 (ix2 r 0)
    = Ideal.exp (m1 (ix2 r 0) - k1_pay10 x0 x1 x3 m0 (ix2 r 0)) := by
  unfold k1_pay12
  exact (exp_apply _ _).trans (congrArg Ideal.exp (subf_apply _ _ _))

/-- The new running normaliser. -/
theorem pay13_apply : k1_pay13 x0 x1 x3 m0 m1 l0 (ix2 r 0)
    = k1_pay12 x0 x1 x3 m0 m1 (ix2 r 0) * l0 (ix2 r 0) + ∑ j : Fin 512, k1_pay11 x0 x1 x3 m0 (ix2 r j) := by
  unfold k1_pay13
  refine (addf_apply _ _ _).trans ?_
  exact congrArg₂ (· + ·) (mulf_apply _ _ _) ((shapeCast_a_a1_apply _ _ r 0).trans (laneSum_apply _ _ _ _ r))

end Cert.KernelIdeal.FlashValue

end
-- ==== Proof.FlashPayloadAcc.lean ====
/-
  The rest of an online-softmax step, read entry by entry on the extended reals: the value tile as loaded,
  the update of the running numerator  acc'(r, e) = a(r) · acc(r, e) + Σ_j p(r, j) · v(j, e)  (the weights p
  against the tile's 512 value rows, into a zero accumulator), the final quotient acc(r, e) / l(r), the row
  statistics stored back unchanged, and the start values: the fill −1e9 for the maximum, 0 for the normaliser
  and for the numerator.
-/
import proofs.«161376_j2439541424557_2_alg».proof.Proof.Gen.KernelIdeal.Skeleton
import proofs.«161376_j2439541424557_2_alg».proof.Proof.Spec
import proofs.«161376_j2439541424557_2_alg».proof.Proof.FlashPayloadLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FlashValue

open Cert.KernelIdeal Cert.KernelIdeal.Gen Idealize.ShloMosaic Idealize.ShloMosaic.ValueIdx

/-! ## The contraction of the weights against the value rows -/

theorem pv_lhs0 (i : S2048x256.Idx) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem pv_lhs1 (i : S2048x256.Idx) (q : dot_S2048x512_S512x256_S2048x256_1_0_0_1_n_n.contr.Idx) : (dot_S2048x512_S512x256_S2048x256_1_0_0_1_n_n.lhsIdx i q 1).val = (q ⟨0, by decide⟩).val :=
  dot_S2048x512_S512x256_S2048x256_1_0_0_1_n_n.lhsIdx_val_of_single rfl i q
theorem pv_rhs0 (i : S2048x256.Idx) (q : dot_S2048x512_S512x256_S2048x256_1_0_0_1_n_n.contr.Idx) : (dot_S2048x512_S512x256_S2048x256_1_0_0_1_n_n.rhsIdx i q 0).val = (q ⟨0, by decide⟩).val :=
  dot_S2048x512_S512x256_S2048x256_1_0_0_1_n_n.rhsIdx_val_of_single rfl i q
theorem pv_rhs1 (i : S2048x256.Idx) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Into a zero accumulator, entry (r, e) of p v is the sum over the tile's 512 keys of weight times value. -/
theorem pv_apply (p : FVec Ideal S2048x512 .bf16) (v : FVec Ideal S512x256 .bf16) (r : Fin 2048) (e : Fin 256) :
    FloatOps.matmul dot_S2048x512_S512x256_S2048x256_1_0_0_1_n_n none p v (constant (F := Ideal) S2048x256 .f32 0x00000000#32) (ix2 r e)
      = ∑ j : Fin 512, p (ix2 r j) * v (ix2 j e) := by
  rw [Ideal.matmul_constant_zero_apply, ← Equiv.sum_comp (contrEquiv1 dot_S2048x512_S512x256_S2048x256_1_0_0_1_n_n 512 rfl rfl).symm]
  refine Finset.sum_congr rfl fun j _ => ?_
  have hk := contrEquiv1_symm_val dot_S2048x512_S512x256_S2048x256_1_0_0_1_n_n 512 rfl rfl j
  have el : dot_S2048x512_S512x256_S2048x256_1_0_0_1_n_n.lhsIdx (ix2 r e) ((contrEquiv1 dot_S2048x512_S512x256_S2048x256_1_0_0_1_n_n 512 rfl rfl).symm j) = ix2 r j := funext fun a => Fin.ext (by
    match a with
    | ⟨0, _⟩ => exact pv_lhs0 _ _
    | ⟨1, _⟩ => exact (pv_lhs1 _ _).trans hk)
  have er : dot_S2048x512_S512x256_S2048x256_1_0_0_1_n_n.rhsIdx (ix2 r e) ((contrEquiv1 dot_S2048x512_S512x256_S2048x256_1_0_0_1_n_n 512 rfl rfl).symm j) = ix2 j e := funext fun a => Fin.ext (by
    match a with
    | ⟨0, _⟩ => exact (pv_rhs0 _ _).trans hk
    | ⟨1, _⟩ => exact pv_rhs1 _ _)
  rw [el, er]

/-! ## The payloads -/

/-- The value tile as the step uses it: the loaded block without its unit axis. -/
theorem pay8_apply (x2 : Vec Ideal S1x512x256 .bf16) (j : Fin 512) (e : Fin 256) : k1_pay8 x2 (ix2 j e) = x2 (ix3 0 j e) := by
  unfold k1_pay8
  exact shapeCast_1ab_ab_apply x2 _ j e

/-- The new running numerator. -/
theorem pay2_apply (v8 : FVec Ideal S512x256 .bf16) (v21 : FVec Ideal S2048x512 .f32) (v24 : FVec Ideal S2048x1 .f32)
    (v33 : Vec Ideal S2048x256 .f32) (r : Fin 2048) (e : Fin 256) :
    k1_pay2 v8 v21 v24 v33 (ix2 r e) = v24 (ix2 r 0) * v33 (ix2 r e) + ∑ j : Fin 512, v21 (ix2 r j) * v8 (ix2 j e) := by
  unfold k1_pay2
  refine (congrFun (shapeCast_self _ shapeCasts_S2048x256_S2048x256) (ix2 r e)).trans ?_
  refine (addf_apply _ _ _).trans ?_
  refine congrArg₂ (· + ·) ((mulf_apply _ _ _).trans (congrArg (· * v33 (ix2 r e)) (broadcastTo_a1_ab_apply _ _ r e))) ?_
  exact (pv_apply _ _ r e).trans (Finset.sum_congr rfl fun j _ => congrArg (· * v8 (ix2 j e)) (truncf_apply v21 _ (ix2 r j)))

/-- The result block: the numerator divided by the normaliser of its row. -/
theorem pay4_apply (v48 : Vec Ideal S2048x256 .f32) (v49 : Vec Ideal S2048x1 .f32) (r : Fin 2048) (e : Fin 256) :
    k1_pay4 v48 v49 (ix3 0 r e) = Ideal.div (v48 (ix2 r e)) (v49 (ix2 r 0)) := by
  unfold k1_pay4
  refine (shapeCast_ab_1ab_apply _ _ 0 r e).trans ?_
  refine (divf_apply _ _ _).trans ?_
  exact congrArg (Ideal.div (v48 (ix2 r e))) (broadcastTo_a1_ab_apply _ _ r e)

/-- The normaliser is stored back as it is. -/
theorem pay1_eq (v : FVec Ideal S2048x1 .f32) : k1_pay1 v = v := by
  unfold k1_pay1
  exact shapeCast_self v _

/-- The maximum is stored back as it is. -/
theorem pay3_eq (v : FVec Ideal S2048x1 .f32) : k1_pay3 v = v := by
  unfold k1_pay3
  exact shapeCast_self v _

/-- The running maximum starts at the fill −1e9. -/
theorem pay5_apply (r : Fin 2048) : (k1_pay5 (F := Ideal)) (ix2 r 0) = Cert.Attn.NEG := by
  unfold k1_pay5
  exact congrFun (shapeCast_self _ shapeCasts_S2048x1_S2048x1) (ix2 r 0)

/-- The running normaliser starts at 0. -/
theorem pay6_apply (r : Fin 2048) : (k1_pay6 (F := Ideal)) (ix2 r 0) = 0 := by
  unfold k1_pay6
  exact (congrFun (shapeCast_self _ shapeCasts_S2048x1_S2048x1) (ix2 r 0)).trans Ideal.ofBits_zero_f32

/-- The running numerator starts at 0. -/
theorem pay7_apply (r : Fin 2048) (e : Fin 256) : (k1_pay7 (F := Ideal)) (ix2 r e) = 0 := by
  unfold k1_pay7
  exact (congrFun (shapeCast_self _ shapeCasts_S2048x256_S2048x256) (ix2 r e)).trans Ideal.ofBits_zero_f32

end Cert.KernelIdeal.FlashValue

end
-- ==== Proof.FlashPayload.lean ====
/-
  The payloads of one online-softmax step, each read at an entry: the tile's masked scores, the new running
  maximum, the weights, the rescaling, the new normaliser (FlashPayloadScore), and the value tile, the new
  numerator, the final quotient and the start values (FlashPayloadAcc).
-/
import proofs.«161376_j2439541424557_2_alg».proof.Proof.FlashPayloadScore
import proofs.«161376_j2439541424557_2_alg».proof.Proof.FlashPayloadAcc
-- ==== Proof.FlashStep.lean ====
/-
  One step of the tile-by-tile softmax, read at an entry, as equations between extended reals.

  For one query row r and one tile of 512 keys: given the row's masked scores s against the tile, the tile's values v,
  and the carried running maximum M, normaliser L and numerator A of the row,

    the new maximum is    max M (sup s),
    the new normaliser    e^{M − M'} · L + Σ_j e^{s_j − M'},
    the new numerator     e^{M − M'} · A_e + Σ_j e^{s_j − M'} · v_{j e}      (M' the new maximum),

  and the result block is the numerator divided by the normaliser of its row.
-/
import proofs.«161376_j2439541424557_2_alg».proof.Proof.FlashPayload

noncomputable section

namespace Cert.KernelIdeal.FlashValue

open Cert.KernelIdeal Cert.KernelIdeal.Gen Idealize.ShloMosaic Idealize.ShloMosaic.ValueIdx

variable (x0 : Vec Ideal S1x2048x256 .bf16) (x1 : Vec Ideal S1x512x256 .bf16) (x2 : Vec Ideal S1x512x256 .bf16)
  (x3 : Vec Ideal S1x2048x512 .i32) (m0 l0 : Vec Ideal S2048x1 .f32) (a0 : Vec Ideal S2048x256 .f32) (r : Fin 2048)
  (s : Fin 512 → EReal)
  (hs : ∀ j : Fin 512, Scalar.select (IntOp.cmpi .ne (x3 (ix3 0 r j)) 0#32) Cert.Attn.NEG (∑ d : Fin 256, x0 (ix3 0 r d) * x1 (ix3 0 j d)) = s j)
  (v : Fin 512 → Fin 256 → EReal) (hv : ∀ (j : Fin 512) (e : Fin 256), x2 (ix3 0 j e) = v j e)
  (M L : EReal) (A : Fin 256 → EReal) (hM : m0 (ix2 r 0) = M) (hL : l0 (ix2 r 0) = L) (hA : ∀ e : Fin 256, a0 (ix2 r e) = A e)

/-! ## The step's intermediate values -/

include hs in
/-- The tile's masked score of key j. -/
theorem score_s (j : Fin 512) : k1_pay9 x0 x1 x3 (ix2 r j) = s j :=
  (pay9_apply x0 x1 x3 r j).trans (hs j)

include hs hM in
/-- The new running maximum. -/
theorem max_s : k1_pay10 x0 x1 x3 m0 (ix2 r 0) = max M (Finset.univ.sup s) :=
  (pay10_apply x0 x1 x3 m0 r).trans
    (congrArg₂ max hM (congrArg (Finset.sup Finset.univ) (funext fun j => score_s x0 x1 x3 r s hs j)))

include hs hM in
/-- The weight of key j against the new maximum. -/
theorem weight_s (j : Fin 512) : k1_pay11 x0 x1 x3 m0 (ix2 r j) = Ideal.exp (s j - max M (Finset.univ.sup s)) :=
  (pay11_apply x0 x1 x3 m0 r j).trans
    (congrArg Ideal.exp (congrArg₂ (fun a b : EReal => a - b) (score_s x0 x1 x3 r s hs j) (max_s x0 x1 x3 m0 r s hs M hM)))

include hs hM in
/-- The rescaling of the carried sums. -/
theorem rescale_s : k1_pay12 x0 x1 x3 m0 m0 (ix2 r 0) = Ideal.exp (M - max M (Finset.univ.sup s)) :=
  (pay12_apply x0 x1 x3 m0 m0 r).trans
    (congrArg Ideal.exp (congrArg₂ (fun a b : EReal => a - b) hM (max_s x0 x1 x3 m0 r s hs M hM)))

/-! ## The step -/

include hs hM in
theorem step_m : k1_pay3 (k1_pay10 x0 x1 x3 m0) (ix2 r 0) = max M (Finset.univ.sup s) :=
  (congrFun (pay3_eq (k1_pay10 x0 x1 x3 m0)) (ix2 r 0)).trans (max_s x0 x1 x3 m0 r s hs M hM)

include hs hM hL in
theorem step_l : k1_pay1 (k1_pay13 x0 x1 x3 m0 m0 l0) (ix2 r 0)
    = Ideal.exp (M - max M (Finset.univ.sup s)) * L + ∑ j : Fin 512, Ideal.exp (s j - max M (Finset.univ.sup s)) :=
  (congrFun (pay1_eq (k1_pay13 x0 x1 x3 m0 m0 l0)) (ix2 r 0)).trans <|
    (pay13_apply x0 x1 x3 m0 m0 l0 r).trans
      (congrArg₂ (fun a b : EReal => a + b)
        (congrArg₂ (fun a b : EReal => a * b) (rescale_s x0 x1 x3 m0 r s hs M hM) hL)
        (Finset.sum_congr rfl fun j _ => weight_s x0 x1 x3 m0 r s hs M hM j))

include hs hv hM hA in
theorem step_a (e : Fin 256) : k1_pay2 (k1_pay8 x2) (k1_pay11 x0 x1 x3 m0) (k1_pay12 x0 x1 x3 m0 m0) a0 (ix2 r e)
    = Ideal.exp (M - max M (Finset.univ.sup s)) * A e + ∑ j : Fin 512, Ideal.exp (s j - max M (Finset.univ.sup s)) * v j e :=
  (pay2_apply (k1_pay8 x2) (k1_pay11 x0 x1 x3 m0) (k1_pay12 x0 x1 x3 m0 m0) a0 r e).trans
    (congrArg₂ (fun a b : EReal => a + b)
      (congrArg₂ (fun a b : EReal => a * b) (rescale_s x0 x1 x3 m0 r s hs M hM) (hA e))
      (Finset.sum_congr rfl fun j _ =>
        congrArg₂ (fun a b : EReal => a * b) (weight_s x0 x1 x3 m0 r s hs M hM j) ((pay8_apply x2 j e).trans (hv j e))))

omit x0 x1 x2 x3 m0 l0 a0 s v M L A in
theorem step_out (accN : Vec Ideal S2048x256 .f32) (lN : Vec Ideal S2048x1 .f32) (e : Fin 256) (X Y : EReal)
    (hX : accN (ix2 r e) = X) (hY : lN (ix2 r 0) = Y) : k1_pay4 accN lN (ix3 0 r e) = Ideal.div X Y :=
  (pay4_apply accN lN r e).trans (congrArg₂ Ideal.div hX hY)

end Cert.KernelIdeal.FlashValue

end
-- ==== Proof.OnlineConsts.lean ====
/-
  The three float constants of the attention formulas, as the real numbers their patterns denote,
  and the passage of a finite sum of reals into the extended reals.
-/
import proofs.«161376_j2439541424557_2_alg».proof.Proof.Spec

noncomputable section

namespace Cert.Attn

open Idealize.ShloMosaic

/-- The inclusion of the reals in the extended reals commutes with finite sums. -/
theorem coe_sum {ι : Type*} (t : Finset ι) (f : ι → ℝ) :
    ((∑ i ∈ t, f i : ℝ) : EReal) = ∑ i ∈ t, (f i : EReal) := by
  refine Finset.cons_induction ?_ ?_ t
  · simp
  · intro a t ha ih
    rw [Finset.sum_cons, Finset.sum_cons, EReal.coe_add, ih]

/-- The fill value is the real number −10⁹: sign 1, exponent 156, mantissa 0x6E6B28, i.e.
    −(2²³ + 7236392) · 2⁶ = −15625000 · 64. -/
theorem NEG_eq : NEG = ((-1000000000 : ℝ) : EReal) := by
  simp [NEG, Ideal.ofBits, Ideal.ieee, -EReal.coe_mul]; norm_num

theorem NEG_real : ∃ r : ℝ, NEG = (r : EReal) := ⟨_, NEG_eq⟩

/-- The pattern 0x3C800000 is 2²³ · 2^(121 − 127 − 23) = 2⁻⁶. -/
theorem C64_eq : C64 = ((1 / 64 : ℝ) : EReal) := by
  simp [C64, Ideal.ofBits, Ideal.ieee, -EReal.coe_mul]; norm_num

/-- 0x45800000 is 2¹² = 4096 and 0x3F000000 is 2⁻¹; on two finite values the power is the real
    power, and 4096^(1/2) = (64²)^(1/2) = 64. -/
theorem SCALE_eq : SCALE = ((64 : ℝ) : EReal) := by
  have h1 : Ideal.ofBits .f32 0x45800000#32 = ((4096 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  have h3 : Real.rpow 4096 (1 / 2) = 64 := by
    show (4096 : ℝ) ^ ((1 / 2 : ℝ)) = 64
    rw [show (4096 : ℝ) = 64 ^ (2 : ℝ) by norm_num, ← Real.rpow_mul (by norm_num)]
    norm_num
  rw [SCALE, h1, h2, Ideal.pow_coe_coe, h3]

end Cert.Attn

end
-- ==== Proof.OnlineSoftmax.lean ====
/-
  Accumulating softmax attention tile by tile, with rescaling when the running maximum moves,
  gives the same quotient as the plain softmax, when every score and value is a real number.

  With real scores s_k and values v_k, after n tiles the running maximum is a real number m_n and
      onL n = Σ_{k < 512 n} e^{s_k − m_n},      onA n = Σ_{k < 512 n} e^{s_k − m_n} · v_k,
  because the rescaling factor e^{m_n − m_{n+1}} turns e^{s_k − m_n} into e^{s_k − m_{n+1}}.
  After eight tiles the quotient is (Σ e^{s_k − m} v_k) / (Σ e^{s_k − m}), and this quotient does not
  depend on the shift m: replacing m by the maximum M multiplies numerator and denominator by the
  same positive factor e^{M − m}.
-/
import proofs.«161376_j2439541424557_2_alg».proof.Proof.Spec
import proofs.«161376_j2439541424557_2_alg».proof.Proof.OnlineConsts

noncomputable section

namespace Cert.Attn

open Idealize.ShloMosaic

/-- The maximum of finitely many (at least one) real numbers, taken in the extended reals, is real. -/
theorem sup_real {ι : Type*} [Fintype ι] [Nonempty ι] (f : ι → EReal)
    (hf : ∀ i, ∃ r : ℝ, f i = (r : EReal)) : ∃ r : ℝ, Finset.univ.sup f = (r : EReal) := by
  obtain ⟨i, -, hi⟩ := Finset.exists_mem_eq_sup Finset.univ Finset.univ_nonempty f
  obtain ⟨r, hr⟩ := hf i
  exact ⟨r, hi.trans hr⟩

theorem onM_succ (s : ℕ → Fin 512 → EReal) (n : ℕ) :
    onM s (n + 1) = max (onM s n) (Finset.univ.sup (s n)) := rfl

theorem onL_succ (s : ℕ → Fin 512 → EReal) (n : ℕ) :
    onL s (n + 1) = Ideal.exp (onM s n - onM s (n + 1)) * onL s n
      + ∑ j : Fin 512, Ideal.exp (s n j - onM s (n + 1)) := rfl

theorem onA_succ (s v : ℕ → Fin 512 → EReal) (n : ℕ) :
    onA s v (n + 1) = Ideal.exp (onM s n - onM s (n + 1)) * onA s v n
      + ∑ j : Fin 512, Ideal.exp (s n j - onM s (n + 1)) * v n j := rfl

/-- One step in the reals: rescale the sum over the first N keys from the shift m to the shift m'
    and add the next 512 keys. -/
theorem step_real (f w : ℕ → ℝ) (m m' : ℝ) (N : ℕ) :
    Real.exp (m - m') * (∑ i ∈ Finset.range N, Real.exp (f i - m) * w i)
      + ∑ j : Fin 512, Real.exp (f (N + j.val) - m') * w (N + j.val)
    = ∑ i ∈ Finset.range (N + 512), Real.exp (f i - m') * w i := by
  rw [Finset.sum_range_add, Finset.mul_sum,
    Fin.sum_univ_eq_sum_range (fun j => Real.exp (f (N + j) - m') * w (N + j)) 512]
  congr 1
  refine Finset.sum_congr rfl (fun i _ => ?_)
  rw [← mul_assoc, ← Real.exp_add]
  congr 2
  ring

/-- The invariant of the accumulation: the tiles `σ`, `τ` list the real sequences `f`, `w` 512 at a
    time; after `n` tiles the running maximum is a real `m`, and the normaliser and the numerator are
    the sums of e^{f i − m} and of e^{f i − m} · w i over the first 512 n indices. -/
theorem online_inv (f w : ℕ → ℝ) (σ τ : ℕ → Fin 512 → EReal)
    (hσ : ∀ n j, σ n j = ((f (512 * n + j.val) : ℝ) : EReal))
    (hτ : ∀ n j, τ n j = ((w (512 * n + j.val) : ℝ) : EReal)) (n : ℕ) :
    ∃ m : ℝ, onM σ n = (m : EReal)
      ∧ onL σ n = ((∑ i ∈ Finset.range (512 * n), Real.exp (f i - m) : ℝ) : EReal)
      ∧ onA σ τ n = ((∑ i ∈ Finset.range (512 * n), Real.exp (f i - m) * w i : ℝ) : EReal) := by
  induction n with
  | zero =>
    obtain ⟨r, hr⟩ := NEG_real
    refine ⟨r, hr, ?_, ?_⟩
    · simp [onL]
    · simp [onA]
  | succ n ih =>
    obtain ⟨m, hM, hL, hA⟩ := ih
    obtain ⟨t, ht⟩ := sup_real (σ n) (fun j => ⟨_, hσ n j⟩)
    have hM' : onM σ (n + 1) = ((max m t : ℝ) : EReal) := by
      rw [onM_succ, hM, ht]
      exact (EReal.coe_strictMono.monotone.map_max).symm
    refine ⟨max m t, hM', ?_, ?_⟩
    · rw [onL_succ, hM', hM, hL]
      have e1 : ∀ j : Fin 512, Ideal.exp (σ n j - ((max m t : ℝ) : EReal))
          = ((Real.exp (f (512 * n + j.val) - max m t) * (fun _ => (1 : ℝ)) (512 * n + j.val) : ℝ) : EReal) := by
        intro j
        rw [hσ n j, ← EReal.coe_sub, Ideal.exp_coe, mul_one]
      rw [Finset.sum_congr rfl (fun j _ => e1 j), ← coe_sum, ← EReal.coe_sub, Ideal.exp_coe,
        ← EReal.coe_mul, ← EReal.coe_add]
      congr 1
      have := step_real f (fun _ => (1 : ℝ)) m (max m t) (512 * n)
      simp only [mul_one] at this ⊢
      rw [this, Nat.mul_succ]
    · rw [onA_succ, hM', hM, hA]
      have e1 : ∀ j : Fin 512, Ideal.exp (σ n j - ((max m t : ℝ) : EReal)) * τ n j
          = ((Real.exp (f (512 * n + j.val) - max m t) * w (512 * n + j.val) : ℝ) : EReal) := by
        intro j
        rw [hσ n j, hτ n j, ← EReal.coe_sub, Ideal.exp_coe, ← EReal.coe_mul]
      rw [Finset.sum_congr rfl (fun j _ => e1 j), ← coe_sum, ← EReal.coe_sub, Ideal.exp_coe,
        ← EReal.coe_mul, ← EReal.coe_add]
      congr 1
      rw [step_real f w m (max m t) (512 * n), Nat.mul_succ]

/-- The quotient (Σ e^{s_k − m} v_k) / (Σ e^{s_k − m}) does not depend on the shift m. -/
theorem quotient_shift {ι : Type*} [Fintype ι] [Nonempty ι] (s v : ι → ℝ) (m M : ℝ) :
    (∑ k, Real.exp (s k - m) * v k) * (1 / ∑ k, Real.exp (s k - m))
      = ∑ k, Real.exp (s k - M) * (1 / ∑ k', Real.exp (s k' - M)) * v k := by
  have hD : 0 < ∑ k, Real.exp (s k - M) :=
    Finset.sum_pos (fun i _ => Real.exp_pos _) Finset.univ_nonempty
  have hc : 0 < Real.exp (M - m) := Real.exp_pos _
  have e : ∀ k, Real.exp (s k - m) = Real.exp (M - m) * Real.exp (s k - M) := by
    intro k
    rw [← Real.exp_add]
    congr 1
    ring
  have hA : (∑ k, Real.exp (s k - m) * v k) = Real.exp (M - m) * ∑ k, Real.exp (s k - M) * v k := by
    rw [Finset.mul_sum]
    refine Finset.sum_congr rfl (fun k _ => ?_)
    rw [e k, mul_assoc]
  have hL : (∑ k, Real.exp (s k - m)) = Real.exp (M - m) * ∑ k, Real.exp (s k - M) := by
    rw [Finset.mul_sum]
    exact Finset.sum_congr rfl (fun k _ => e k)
  have hR : (∑ k, Real.exp (s k - M) * (1 / ∑ k', Real.exp (s k' - M)) * v k)
      = (∑ k, Real.exp (s k - M) * v k) * (1 / ∑ k', Real.exp (s k' - M)) := by
    rw [Finset.sum_mul]
    refine Finset.sum_congr rfl (fun k _ => ?_)
    ring
  rw [hA, hL, hR]
  field_simp

/-- THE MAIN ONE: accumulating tile by tile with rescaling equals softmax, when every score and
    value is real. -/
theorem online_eq_softmax (S V : Fin 4096 → EReal) (hS : ∀ k, ∃ r : ℝ, S k = (r : EReal))
    (hV : ∀ k, ∃ r : ℝ, V k = (r : EReal)) :
    Ideal.div (onA (tile S) (tile V) 8) (onL (tile S) 8) = softmaxDot S V := by
  choose s hs using hS
  choose v hv using hV
  -- the scores and values as sequences indexed by ℕ (0 beyond the 4096 keys)
  let f : ℕ → ℝ := fun i => if h : i < 4096 then s ⟨i, h⟩ else 0
  let w : ℕ → ℝ := fun i => if h : i < 4096 then v ⟨i, h⟩ else 0
  have hσ : ∀ n j, tile S n j = ((f (512 * n + j.val) : ℝ) : EReal) := by
    intro n j
    by_cases h : 512 * n + j.val < 4096
    · simp only [tile, f, dif_pos h, hs]
    · simp only [tile, f, dif_neg h, EReal.coe_zero]
  have hτ : ∀ n j, tile V n j = ((w (512 * n + j.val) : ℝ) : EReal) := by
    intro n j
    by_cases h : 512 * n + j.val < 4096
    · simp only [tile, w, dif_pos h, hv]
    · simp only [tile, w, dif_neg h, EReal.coe_zero]
  obtain ⟨m, -, hL, hA⟩ := online_inv f w (tile S) (tile V) hσ hτ 8
  have hf : ∀ k : Fin 4096, f k.val = s k := fun k => by simp only [f, dif_pos k.isLt, Fin.eta]
  have hw : ∀ k : Fin 4096, w k.val = v k := fun k => by simp only [w, dif_pos k.isLt, Fin.eta]
  have hL' : (∑ i ∈ Finset.range (512 * 8), Real.exp (f i - m)) = ∑ k : Fin 4096, Real.exp (s k - m) := by
    rw [show 512 * 8 = 4096 from rfl, ← Fin.sum_univ_eq_sum_range (fun i => Real.exp (f i - m)) 4096]
    exact Finset.sum_congr rfl (fun k _ => by rw [hf k])
  have hA' : (∑ i ∈ Finset.range (512 * 8), Real.exp (f i - m) * w i)
      = ∑ k : Fin 4096, Real.exp (s k - m) * v k := by
    rw [show 512 * 8 = 4096 from rfl, ← Fin.sum_univ_eq_sum_range (fun i => Real.exp (f i - m) * w i) 4096]
    exact Finset.sum_congr rfl (fun k _ => by rw [hf k, hw k])
  rw [hL, hA, hL', hA']
  -- the maximum of the scores is a real number M
  obtain ⟨M, hM⟩ := sup_real S (fun k => ⟨_, hs k⟩)
  have hLpos : (∑ k : Fin 4096, Real.exp (s k - m)) ≠ 0 :=
    (Finset.sum_pos (fun i _ => Real.exp_pos _) Finset.univ_nonempty).ne'
  have hDpos : (∑ k : Fin 4096, Real.exp (s k - M)) ≠ 0 :=
    (Finset.sum_pos (fun i _ => Real.exp_pos _) Finset.univ_nonempty).ne'
  have hD : (∑ k' : Fin 4096, Ideal.exp (S k' - Finset.univ.sup S))
      = ((∑ k' : Fin 4096, Real.exp (s k' - M) : ℝ) : EReal) := by
    rw [coe_sum]
    refine Finset.sum_congr rfl (fun k _ => ?_)
    rw [hM, hs k, ← EReal.coe_sub, Ideal.exp_coe]
  unfold softmaxDot
  rw [hD, Ideal.div_coe hLpos, ← EReal.coe_mul, quotient_shift s v m M, coe_sum]
  refine Finset.sum_congr rfl (fun k _ => ?_)
  rw [Ideal.div_coe hDpos, hM, hs k, hv k, ← EReal.coe_sub, Ideal.exp_coe, ← EReal.coe_mul,
    ← EReal.coe_mul]

end Cert.Attn

end
-- ==== Proof.ScoreFold.lean ====
/-
  The projections and the masked, scaled scores are real numbers when the arguments are, and folding
  the scale 1/64 into the query before the dot product gives the same score as dividing the dot
  product by 4096^(1/2) = 64 afterwards:
      Σ_d (q_d · (1/64)) · k_d = (Σ_d q_d · k_d) · (1/64).
-/
import proofs.«161376_j2439541424557_2_alg».proof.Proof.Spec
import proofs.«161376_j2439541424557_2_alg».proof.Proof.OnlineConsts

noncomputable section

namespace Cert.Attn

open Idealize.ShloMosaic Idealize.ShloMosaic.ValueIdx

/-- A projection of real arrays, written as one real number. -/
theorem lin_coe (x : SX.Idx → EReal) (W : SW.Idx → EReal) (β : SB.Idx → EReal)
    (xr : SX.Idx → ℝ) (Wr : SW.Idx → ℝ) (βr : SB.Idx → ℝ)
    (hx : ∀ i, x i = (xr i : EReal)) (hW : ∀ i, W i = (Wr i : EReal)) (hβ : ∀ i, β i = (βr i : EReal))
    (b : Fin 4) (s : Fin 4096) (e : Fin 256) :
    lin x W β b s e = (((∑ d : Fin 256, xr (ix3 b s d) * Wr (ix2 e d)) + βr (ix1 e) : ℝ) : EReal) := by
  unfold lin
  rw [EReal.coe_add, coe_sum, hβ]
  congr 1
  refine Finset.sum_congr rfl (fun d _ => ?_)
  rw [hx, hW, EReal.coe_mul]

theorem lin_real (x : SX.Idx → EReal) (W : SW.Idx → EReal) (β : SB.Idx → EReal)
    (hx : ∀ i, ∃ r : ℝ, x i = (r : EReal)) (hW : ∀ i, ∃ r : ℝ, W i = (r : EReal)) (hβ : ∀ i, ∃ r : ℝ, β i = (r : EReal))
    (b : Fin 4) (s : Fin 4096) (e : Fin 256) : ∃ r : ℝ, lin x W β b s e = (r : EReal) := by
  choose xr hxr using hx
  choose Wr hWr using hW
  choose βr hβr using hβ
  exact ⟨_, lin_coe x W β xr Wr βr hxr hWr hβr b s e⟩

/-- For real factors, scaling each query entry by 1/64 before the dot product is dividing the dot
    product by 64. -/
theorem dot_fold (a c : Fin 256 → EReal) (ha : ∀ d, ∃ r : ℝ, a d = (r : EReal))
    (hc : ∀ d, ∃ r : ℝ, c d = (r : EReal)) :
    (∑ d : Fin 256, (a d * C64) * c d) = Ideal.div (∑ d : Fin 256, a d * c d) SCALE
    ∧ ∃ r : ℝ, Ideal.div (∑ d : Fin 256, a d * c d) SCALE = (r : EReal) := by
  choose ar har using ha
  choose cr hcr using hc
  have h64 : (64 : ℝ) ≠ 0 := by norm_num
  have hR : Ideal.div (∑ d : Fin 256, a d * c d) SCALE
      = (((∑ d : Fin 256, ar d * cr d) * (1 / 64) : ℝ) : EReal) := by
    rw [SCALE_eq, Ideal.div_coe h64, EReal.coe_mul, coe_sum]
    congr 1
    refine Finset.sum_congr rfl (fun d _ => ?_)
    rw [har, hcr, EReal.coe_mul]
  refine ⟨?_, _, hR⟩
  rw [hR, Finset.sum_mul, coe_sum]
  refine Finset.sum_congr rfl (fun d _ => ?_)
  rw [har, hcr, C64_eq, ← EReal.coe_mul, ← EReal.coe_mul]
  congr 1
  ring

/-- the kernel folds the scale 1/64 into the query before the dot product; the reference divides the
    dot product by 4096^(1/2) -/
theorem score_fold (x : SX.Idx → EReal) (mask : SM.Idx → BitVec 1) (Wq : SW.Idx → EReal) (bq : SB.Idx → EReal) (Wk : SW.Idx → EReal) (bk : SB.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) (b : Fin 4) (q k : Fin 4096) :
    Scalar.select (mask (Idealize.ShloMosaic.ValueIdx.ix3 b q k)) NEG (∑ d : Fin 256, (lin x Wq bq b q d * C64) * lin x Wk bk b k d) = score x mask Wq bq Wk bk b q k := by
  unfold score
  rw [(dot_fold (fun d => lin x Wq bq b q d) (fun d => lin x Wk bk b k d)
    (fun d => lin_real x Wq bq hx hWq hbq b q d) (fun d => lin_real x Wk bk hx hWk hbk b k d)).1]

theorem score_real (x : SX.Idx → EReal) (mask : SM.Idx → BitVec 1) (Wq : SW.Idx → EReal) (bq : SB.Idx → EReal) (Wk : SW.Idx → EReal) (bk : SB.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) (b : Fin 4) (q k : Fin 4096) :
    ∃ r : ℝ, score x mask Wq bq Wk bk b q k = (r : EReal) := by
  unfold score Scalar.select
  split_ifs
  · exact NEG_real
  · exact (dot_fold (fun d => lin x Wq bq b q d) (fun d => lin x Wk bk b k d)
      (fun d => lin_real x Wq bq hx hWq hbq b q d) (fun d => lin_real x Wk bk hx hWk hbk b k d)).2

end Cert.Attn

end
-- ==== Proof.OnlineAttn.lean ====
/-
  One entry of the attention result from the tile-by-tile accumulation: with the scale folded into
  the query, the accumulated quotient over the eight key tiles is the masked softmax attention entry.
  The folded scores equal the reference scores, every score and value is a real number, and then the
  accumulated quotient is the softmax quotient.
-/
import proofs.«161376_j2439541424557_2_alg».proof.Proof.OnlineSoftmax
import proofs.«161376_j2439541424557_2_alg».proof.Proof.ScoreFold

noncomputable section

namespace Cert.Attn

open Idealize.ShloMosaic Idealize.ShloMosaic.ValueIdx

/-- Inside the eight tiles, entry `j` of tile `n` is key 512 n + j. -/
theorem tile_apply (S : Fin 4096 → EReal) (n : ℕ) (hn : n < 8) (j : Fin 512) :
    tile S n j = S ⟨512 * n + j.val, by omega⟩ := by
  have h : 512 * n + j.val < 4096 := by omega
  simp only [tile, dif_pos h]

theorem attn_of_online (x : SX.Idx → EReal) (mask : SM.Idx → BitVec 1) (Wq : SW.Idx → EReal) (bq : SB.Idx → EReal) (Wk : SW.Idx → EReal) (bk : SB.Idx → EReal) (Wv : SW.Idx → EReal) (bv : SB.Idx → EReal)
    (hx : ∀ i, ∃ r : ℝ, x i = (r : EReal)) (hWq : ∀ i, ∃ r : ℝ, Wq i = (r : EReal)) (hbq : ∀ i, ∃ r : ℝ, bq i = (r : EReal)) (hWk : ∀ i, ∃ r : ℝ, Wk i = (r : EReal)) (hbk : ∀ i, ∃ r : ℝ, bk i = (r : EReal)) (hWv : ∀ i, ∃ r : ℝ, Wv i = (r : EReal)) (hbv : ∀ i, ∃ r : ℝ, bv i = (r : EReal))
    (b : Fin 4) (q : Fin 4096) (e : Fin 256) :
    Ideal.div (onA (tile (fun k => Scalar.select (mask (Idealize.ShloMosaic.ValueIdx.ix3 b q k)) NEG (∑ d : Fin 256, (lin x Wq bq b q d * C64) * lin x Wk bk b k d))) (tile (fun k => lin x Wv bv b k e)) 8)
              (onL (tile (fun k => Scalar.select (mask (Idealize.ShloMosaic.ValueIdx.ix3 b q k)) NEG (∑ d : Fin 256, (lin x Wq bq b q d * C64) * lin x Wk bk b k d))) 8)
      = attnAt x mask Wq bq Wk bk Wv bv b q e := by
  have hfold : (fun k => Scalar.select (mask (Idealize.ShloMosaic.ValueIdx.ix3 b q k)) NEG
        (∑ d : Fin 256, (lin x Wq bq b q d * C64) * lin x Wk bk b k d))
      = fun k => score x mask Wq bq Wk bk b q k :=
    funext fun k => score_fold x mask Wq bq Wk bk hx hWq hbq hWk hbk b q k
  rw [hfold]
  unfold attnAt
  exact online_eq_softmax _ _ (fun k => score_real x mask Wq bq Wk bk hx hWq hbq hWk hbk b q k)
    (fun k => lin_real x Wv bv hx hWv hbv b k e)

end Cert.Attn

end
-- ==== Proof.OnlineCongr.lean ====
/-
  The accumulation after N tiles reads only the tiles before N: two tile sequences that agree on the
  first N tiles give the same running maximum, normaliser and numerator.  Also the start values.
-/
import proofs.«161376_j2439541424557_2_alg».proof.Proof.Spec

noncomputable section

namespace Cert.Attn

open Idealize.ShloMosaic

theorem onM_zero (s : ℕ → Fin 512 → EReal) : onM s 0 = NEG := rfl

theorem onL_zero (s : ℕ → Fin 512 → EReal) : onL s 0 = 0 := rfl

theorem onA_zero (s v : ℕ → Fin 512 → EReal) : onA s v 0 = 0 := rfl

theorem onM_congr (s s' : ℕ → Fin 512 → EReal) (N : ℕ) (h : ∀ n, n < N → s n = s' n) :
    onM s N = onM s' N := by
  induction N with
  | zero => rfl
  | succ N ih =>
    have h1 := ih (fun n hn => h n (Nat.lt_succ_of_lt hn))
    show max (onM s N) (Finset.univ.sup (s N)) = max (onM s' N) (Finset.univ.sup (s' N))
    rw [h1, h N (Nat.lt_succ_self N)]

theorem onL_congr (s s' : ℕ → Fin 512 → EReal) (N : ℕ) (h : ∀ n, n < N → s n = s' n) :
    onL s N = onL s' N := by
  induction N with
  | zero => rfl
  | succ N ih =>
    have hlt : ∀ n, n < N → s n = s' n := fun n hn => h n (Nat.lt_succ_of_lt hn)
    show Ideal.exp (onM s N - onM s (N + 1)) * onL s N
        + ∑ j : Fin 512, Ideal.exp (s N j - onM s (N + 1))
      = Ideal.exp (onM s' N - onM s' (N + 1)) * onL s' N
        + ∑ j : Fin 512, Ideal.exp (s' N j - onM s' (N + 1))
    rw [onM_congr s s' N hlt, onM_congr s s' (N + 1) h, ih hlt, h N (Nat.lt_succ_self N)]

theorem onA_congr (s s' v v' : ℕ → Fin 512 → EReal) (N : ℕ) (hs : ∀ n, n < N → s n = s' n)
    (hv : ∀ n, n < N → v n = v' n) : onA s v N = onA s' v' N := by
  induction N with
  | zero => rfl
  | succ N ih =>
    have hlt : ∀ n, n < N → s n = s' n := fun n hn => hs n (Nat.lt_succ_of_lt hn)
    have hlt' : ∀ n, n < N → v n = v' n := fun n hn => hv n (Nat.lt_succ_of_lt hn)
    show Ideal.exp (onM s N - onM s (N + 1)) * onA s v N
        + ∑ j : Fin 512, Ideal.exp (s N j - onM s (N + 1)) * v N j
      = Ideal.exp (onM s' N - onM s' (N + 1)) * onA s' v' N
        + ∑ j : Fin 512, Ideal.exp (s' N j - onM s' (N + 1)) * v' N j
    rw [onM_congr s s' N hlt, onM_congr s s' (N + 1) hs, ih hlt hlt', hs N (Nat.lt_succ_self N),
      hv N (Nat.lt_succ_self N)]

end Cert.Attn

end
-- ==== Proof.FlashValueStep.lean ====
/-
  One grid point of the attention kernel on one query row, in terms of the row's tile sequence.

  Let S be the row's 4096 masked scores and W_e the e-th column of the values, cut into eight tiles of 512.
  If the point's blocks hold tile n of S and of each W_e, and the scratch entries of the row come in at the
  running maximum, normaliser and numerator after n tiles, then they leave at the same three after n + 1 tiles:
  the body's update is the accumulation's successor step.
-/
import proofs.«161376_j2439541424557_2_alg».proof.Proof.FlashStep
import proofs.«161376_j2439541424557_2_alg».proof.Proof.OnlineAttn
import proofs.«161376_j2439541424557_2_alg».proof.Proof.OnlineCongr

noncomputable section

namespace Cert.KernelIdeal.Hand

open Cert.KernelIdeal Cert.KernelIdeal.Gen Idealize.ShloMosaic Idealize.ShloMosaic.ValueIdx
open Cert.Attn (tile onM onL onA)

theorem step_row (x0 : Vec Ideal S1x2048x256 .bf16) (x1 x2 : Vec Ideal S1x512x256 .bf16) (x3 : Vec Ideal S1x2048x512 .i32)
    (m0 l0 : Vec Ideal S2048x1 .f32) (a0 : Vec Ideal S2048x256 .f32) (r : Fin 2048)
    (S : Fin 4096 → EReal) (W : Fin 256 → Fin 4096 → EReal) (n : ℕ) (hn : n < 8)
    (hs : ∀ j : Fin 512, Scalar.select (IntOp.cmpi .ne (x3 (ix3 (0 : Fin 1) r j)) 0#32) Cert.Attn.NEG
        (∑ d : Fin 256, x0 (ix3 (0 : Fin 1) r d) * x1 (ix3 (0 : Fin 1) j d)) = S ⟨512 * n + j.val, by omega⟩)
    (hv : ∀ (j : Fin 512) (e : Fin 256), x2 (ix3 (0 : Fin 1) j e) = W e ⟨512 * n + j.val, by omega⟩)
    (hM : m0 (ix2 r 0) = onM (tile S) n) (hL : l0 (ix2 r 0) = onL (tile S) n)
    (hA : ∀ e : Fin 256, a0 (ix2 r e) = onA (tile S) (tile (W e)) n) :
    k1_pay3 (k1_pay10 x0 x1 x3 m0) (ix2 r 0) = onM (tile S) (n + 1)
    ∧ k1_pay1 (k1_pay13 x0 x1 x3 m0 m0 l0) (ix2 r 0) = onL (tile S) (n + 1)
    ∧ ∀ e : Fin 256, k1_pay2 (k1_pay8 x2) (k1_pay11 x0 x1 x3 m0) (k1_pay12 x0 x1 x3 m0 m0) a0 (ix2 r e)
        = onA (tile S) (tile (W e)) (n + 1) := by
  have hs' : ∀ j : Fin 512, Scalar.select (IntOp.cmpi .ne (x3 (ix3 (0 : Fin 1) r j)) 0#32) Cert.Attn.NEG
      (∑ d : Fin 256, x0 (ix3 (0 : Fin 1) r d) * x1 (ix3 (0 : Fin 1) j d)) = tile S n j :=
    fun j => (hs j).trans (Cert.Attn.tile_apply S n hn j).symm
  have hv' : ∀ (j : Fin 512) (e : Fin 256), x2 (ix3 (0 : Fin 1) j e) = tile (W e) n j :=
    fun j e => (hv j e).trans (Cert.Attn.tile_apply (W e) n hn j).symm
  refine ⟨?_, ?_, fun e => ?_⟩
  · exact (FlashValue.step_m x0 x1 x3 m0 r (tile S n) hs' (onM (tile S) n) hM).trans (Cert.Attn.onM_succ (tile S) n).symm
  · exact (FlashValue.step_l x0 x1 x3 m0 l0 r (tile S n) hs' (onM (tile S) n) (onL (tile S) n) hM hL).trans
      (Cert.Attn.onL_succ (tile S) n).symm
  · exact (FlashValue.step_a x0 x1 x2 x3 m0 a0 r (tile S n) hs' (fun j e' => tile (W e') n j) hv' (onM (tile S) n)
      (fun e' => onA (tile S) (tile (W e')) n) hM hA e).trans (Cert.Attn.onA_succ (tile S) (tile (W e)) n).symm

end Cert.KernelIdeal.Hand

end
-- ==== Proof.FlashValue.lean ====
/-
  The attention kernel's region as a value: the scratch buffers after every grid point, and the output array.

  Grid point n = 16 b + 8 q + k handles batch b, query tile q (2048 rows) and key tile k (512 keys).  For a query
  row (b, s) of that tile, with S its 4096 masked scores and W_e the e-th column of the values, the three scratch
  entries of the row after point n are the running maximum, normaliser and numerator of S (and W_e) after the
  k + 1 tiles seen so far.  By induction on n: key tile 0 starts from the start values; key tile k > 0 continues
  from what point n − 1 left, which belongs to the same row.  At key tile 7 the output block is the numerator
  over the normaliser after all eight tiles, and these blocks tile the output array.
-/
import proofs.«161376_j2439541424557_2_alg».proof.Proof.FlashRow
import proofs.«161376_j2439541424557_2_alg».proof.Proof.FlashArr
import proofs.«161376_j2439541424557_2_alg».proof.Proof.FlashPieces
import proofs.«161376_j2439541424557_2_alg».proof.Proof.FlashValueStep

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open Cert.Attn (tile onM onL onA)

variable (V : (c : Dev nD) → (b : Ref sig .tc) → Buf (Elt Ideal) ((c : Thread nD τ).loc b))

/-! ## A point's blocks hold a tile of the row's scores and of the values' columns -/

/-- At point t, for row r of the query block: the masked score the body forms against key j of the key block is
    the row's score against key 512 (t mod 8) + j. -/
theorem rowS_block (c : Dev nD) (t : Fin cfg1.N) (r : Fin 2048) (b : Fin 4) (q : Fin 4096)
    (hb : b.val = t.val / 16) (hq : q.val = 2048 * (t.val / 8 % 2) + r.val)
    (x0 : Vec Ideal S1x2048x256 .bf16) (x1 : Vec Ideal S1x512x256 .bf16) (x3 : Vec Ideal S1x2048x512 .i32)
    (h0 : x0 = iblk1 V c 0 t) (h1 : x1 = iblk1 V c 1 t) (h3 : x3 = iblk1 V c 3 t) (j : Fin 512) :
    Scalar.select (IntOp.cmpi .ne (x3 (ix3 (0 : Fin 1) r j)) 0#32) Cert.Attn.NEG
        (∑ d : Fin 256, x0 (ix3 (0 : Fin 1) r d) * x1 (ix3 (0 : Fin 1) j d))
      = rowS V c b q ⟨512 * (t.val % 8) + j.val, by omega⟩ := by
  subst h0 h1 h3
  unfold rowS arrM arrQ arrK
  rw [iblk1_3_apply V c t r j (ix3 b q ⟨512 * (t.val % 8) + j.val, by omega⟩) hb hq rfl]
  refine congrArg (Scalar.select _ Cert.Attn.NEG) (Finset.sum_congr rfl fun d _ => ?_)
  rw [iblk1_0_apply V c t r d (ix3 b q d) hb hq rfl,
    iblk1_1_apply V c t j d (ix3 b ⟨512 * (t.val % 8) + j.val, by omega⟩ d) hb rfl rfl]

/-- At point t, entry (j, e) of the value block is entry 512 (t mod 8) + j of column e of the values. -/
theorem colV_block (c : Dev nD) (t : Fin cfg1.N) (b : Fin 4) (hb : b.val = t.val / 16)
    (x2 : Vec Ideal S1x512x256 .bf16) (h2 : x2 = iblk1 V c 2 t) (j : Fin 512) (e : Fin 256) :
    x2 (ix3 (0 : Fin 1) j e) = colV V c b e ⟨512 * (t.val % 8) + j.val, by omega⟩ := by
  subst h2
  unfold colV arrV
  exact iblk1_2_apply V c t j e (ix3 b ⟨512 * (t.val % 8) + j.val, by omega⟩ e) hb rfl rfl

/-! ## The scratch buffers after every point -/

theorem scratch_inv (c : Dev nD) (n : ℕ) (hn : n < cfg1.N) (r : Fin 2048) (b : Fin 4) (q : Fin 4096)
    (hb : b.val = n / 16) (hq : q.val = 2048 * (n / 8 % 2) + r.val) :
    (outsAt1 V c n hn).2.1 (ix2 r 0) = Cert.Attn.onM (Cert.Attn.tile (rowS V c b q)) (n % 8 + 1)
    ∧ (outsAt1 V c n hn).2.2.1 (ix2 r 0) = Cert.Attn.onL (Cert.Attn.tile (rowS V c b q)) (n % 8 + 1)
    ∧ ∀ e : Fin 256, (outsAt1 V c n hn).2.2.2 (ix2 r e)
        = Cert.Attn.onA (Cert.Attn.tile (rowS V c b q)) (Cert.Attn.tile (colV V c b e)) (n % 8 + 1) := by
  induction n using Nat.strong_induction_on generalizing r b q with
  | _ n ih =>
    have h8 : n % 8 < 8 := Nat.mod_lt _ (by decide)
    have hs := fun j : Fin 512 => rowS_block V c ⟨n, hn⟩ r b q hb hq (iblk1 V c 0 ⟨n, hn⟩) (iblk1 V c 1 ⟨n, hn⟩) (iblk1 V c 3 ⟨n, hn⟩) rfl rfl rfl j
    have hv := fun (j : Fin 512) (e : Fin 256) => colV_block V c ⟨n, hn⟩ b hb (iblk1 V c 2 ⟨n, hn⟩) rfl j e
    by_cases h0 : n % 8 = 0
    · -- key tile 0: from the start values
      have h1 : ¬n % 8 = 7 := by omega
      have E : outsAt1 V c n hn = _ := outsAt1_A V c ⟨n, hn⟩ h0 h1
      rw [E]
      dsimp only
      rw [sout1_A_0_eq, sout1_A_1_eq, sout1_A_2_eq]
      exact step_row (iblk1 V c 0 ⟨n, hn⟩) (iblk1 V c 1 ⟨n, hn⟩) (iblk1 V c 2 ⟨n, hn⟩) (iblk1 V c 3 ⟨n, hn⟩) (k1_pay5 (F := Ideal)) (k1_pay6 (F := Ideal)) (k1_pay7 (F := Ideal)) r (rowS V c b q) (colV V c b) (n % 8) h8 hs hv
        (by rw [h0]; exact FlashValue.pay5_apply r) (by rw [h0]; exact FlashValue.pay6_apply r)
        (fun e => by rw [h0]; exact FlashValue.pay7_apply r e)
    · -- key tile k > 0: from what the point before left, which is the same row's
      have hp : n - 1 < cfg1.N := Nat.lt_of_le_of_lt (Nat.sub_le _ _) hn
      obtain ⟨im, il, ia⟩ := ih (n - 1) (by omega) hp r b q (by omega) (by omega)
      have e8 : (n - 1) % 8 + 1 = n % 8 := by omega
      rw [e8] at im il ia
      by_cases h1 : n % 8 = 7
      · have E : outsAt1 V c n hn = _ := outsAt1_C V c ⟨n, hn⟩ h0 h1
        rw [E]
        dsimp only
        rw [sout1_C_0_eq, sout1_C_1_eq, sout1_C_2_eq]
        exact step_row (iblk1 V c 0 ⟨n, hn⟩) (iblk1 V c 1 ⟨n, hn⟩) (iblk1 V c 2 ⟨n, hn⟩) (iblk1 V c 3 ⟨n, hn⟩) (outsAt1 V c (n - 1) hp).2.1 (outsAt1 V c (n - 1) hp).2.2.1 (outsAt1 V c (n - 1) hp).2.2.2
          r (rowS V c b q) (colV V c b) (n % 8) h8 hs hv im il ia
      · have E : outsAt1 V c n hn = _ := outsAt1_B V c ⟨n, hn⟩ h0 h1
        rw [E]
        dsimp only
        rw [sout1_B_0_eq, sout1_B_1_eq, sout1_B_2_eq]
        exact step_row (iblk1 V c 0 ⟨n, hn⟩) (iblk1 V c 1 ⟨n, hn⟩) (iblk1 V c 2 ⟨n, hn⟩) (iblk1 V c 3 ⟨n, hn⟩) (outsAt1 V c (n - 1) hp).2.1 (outsAt1 V c (n - 1) hp).2.2.1 (outsAt1 V c (n - 1) hp).2.2.2
          r (rowS V c b q) (colV V c b) (n % 8) h8 hs hv im il ia

/-! ## The output array -/

/-- At a last key tile the output block is the numerator just left over the normaliser just left. -/
theorem out_last (c : Dev nD) (t : Fin cfg1.N) (h7 : t.val % 8 = 7) :
    (outsAt1 V c t.val t.isLt).1 = k1_pay4 (outsAt1 V c t.val t.isLt).2.2.2 (outsAt1 V c t.val t.isLt).2.2.1 := by
  have h0 : ¬t.val % 8 = 0 := by omega
  rw [outsAt1_C V c t h0 h7]
  dsimp only
  rw [out1_C_4_eq, sout1_C_2_eq, sout1_C_1_eq]

/-- The output array after the region: entry (b, s, e) is the running numerator of row (b, s) against column e of
    the values over the running normaliser of the row, after all eight key tiles. -/
theorem final1_4 (c : Dev nD) : (dat1 (F := Ideal) V c).arrAt 4 cfg1.N
    = fun i => Ideal.div (Cert.Attn.onA (Cert.Attn.tile (rowS V c (i 0) (i 1))) (Cert.Attn.tile (colV V c (i 0) (i 2))) 8)
        (Cert.Attn.onL (Cert.Attn.tile (rowS V c (i 0) (i 1))) 8) := by
  refine final1_4_of V c _ ?_
  intro t h7 r e k hk0 hk1 hk2
  obtain ⟨-, hl, ha⟩ := scratch_inv V c t.val t.isLt r (k 0) (k 1) hk0 hk1
  have hk2' : (k 2 : Fin 256) = e := Fin.ext hk2
  have ha' := ha e
  rw [h7] at hl ha'
  rw [out_last V c t h7]
  show _ = Ideal.div (Cert.Attn.onA (Cert.Attn.tile (rowS V c (k 0) (k 1))) (Cert.Attn.tile (colV V c (k 0) (k 2))) 8)
      (Cert.Attn.onL (Cert.Attn.tile (rowS V c (k 0) (k 1))) 8)
  rw [hk2']
  exact FlashValue.step_out r (outsAt1 V c t.val t.isLt).2.2.2 (outsAt1 V c t.val t.isLt).2.2.1 e _ _ ha' hl

end Cert.KernelIdeal.Hand

end
-- ==== Proof.QkvPayload.lean ====
/-
  The projection kernel's three stored values at an index, on the extended reals.

  With a = the x block [1, 1024, 256], W a weight matrix [256, 256] and β its bias [256], the body computes
  (a Wᵀ + β) — for Q also times 1/64 — and stores it as a [1, 1024, 256] block.  On the extended reals the
  roundings to 16-bit floats are the identity and the product a Wᵀ is the plain sum over the contracted axis:
      entry (0, r, e)  =  Σ_d a(0, r, d) · W(e, d) + β(e)        (times 1/64 for Q).
-/
import proofs.«161376_j2439541424557_2_alg».proof.Proof.Gen.KernelIdeal.Skeleton
import proofs.«161376_j2439541424557_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-- The dimension numbers of the three products: axis 1 of the left operand against axis 1 of the right. -/
abbrev dotP := dot_S1024x256_S256x256_S1024x256_1_1_0_0_n_n

theorem dotP_lhs0 (j : S1024x256.Idx) (q : dotP.contr.Idx) : (dotP.lhsIdx j q 0).val = (j 0).val := by
  unfold DotDims.lhsIdx
  rw [dif_neg (show ¬(0 : Fin S1024x256.rank) ∈ dotP.lhsBatch by decide), dif_pos (show (0 : Fin S1024x256.rank) ∈ dotP.lhsNonContracting by decide)]
  rfl
theorem dotP_lhs1 (j : S1024x256.Idx) (q : dotP.contr.Idx) : (dotP.lhsIdx j q 1).val = (q ⟨0, by decide⟩).val :=
  dotP.lhsIdx_val_of_single rfl j q
theorem dotP_rhs0 (j : S1024x256.Idx) (q : dotP.contr.Idx) : (dotP.rhsIdx j q 0).val = (j 1).val := by
  unfold DotDims.rhsIdx
  rw [dif_neg (show ¬(0 : Fin S256x256.rank) ∈ dotP.rhsBatch by decide), dif_pos (show (0 : Fin S256x256.rank) ∈ dotP.rhsNonContracting by decide)]
  rfl
theorem dotP_rhs1 (j : S1024x256.Idx) (q : dotP.contr.Idx) : (dotP.rhsIdx j q 1).val = (q ⟨0, by decide⟩).val :=
  dotP.rhsIdx_val_of_single rfl j q

/-- The product into the zero accumulator at entry (r, e): the sum over d of a(r, d) · w(e, d). -/
theorem prod_apply (a : FVec Ideal S1024x256 .bf16) (w : FVec Ideal S256x256 .bf16) (r : Fin 1024) (e : Fin 256) :
    matmul dotP none a w (constant (F := Ideal) S1024x256 .f32 0x00000000#32) (ix2 r e) = ∑ d : Fin 256, a (ix2 r d) * w (ix2 e d) := by
  simp only [matmul]
  rw [Ideal.matmul_constant_zero_apply, ← Equiv.sum_comp (contrEquiv1 dotP 256 rfl rfl).symm]
  refine Finset.sum_congr rfl fun k _ => ?_
  have hk := contrEquiv1_symm_val dotP 256 rfl rfl k
  have el : dotP.lhsIdx (ix2 r e) ((contrEquiv1 dotP 256 rfl rfl).symm k) = ix2 r k := funext fun ax => Fin.ext (by
    match ax with
    | ⟨0, _⟩ => exact dotP_lhs0 _ _
    | ⟨1, _⟩ => exact (dotP_lhs1 _ _).trans hk)
  have er : dotP.rhsIdx (ix2 r e) ((contrEquiv1 dotP 256 rfl rfl).symm k) = ix2 e k := funext fun ax => Fin.ext (by
    match ax with
    | ⟨0, _⟩ => exact dotP_rhs0 _ _
    | ⟨1, _⟩ => exact (dotP_rhs1 _ _).trans hk)
  rw [el, er]

/-- The x block with its unit axis dropped (and rounded: the identity here): entry (r, d) is a(0, r, d). -/
theorem pay2_apply (x0 : Vec Ideal S1x1024x256 .f32) (r : Fin 1024) (d : Fin 256) :
    k0_pay2 (F := Ideal) x0 (ix2 r d) = x0 (ix3 (0 : Fin 1) r d) := by
  unfold k0_pay2
  exact shapeCast_1ab_ab_apply x0 shapeCasts_S1x1024x256_S1024x256 r d

/-- The bias as a row, repeated down the 1024 rows: entry (r, e) is β(e). -/
theorem bias_apply (β : Vec Ideal S256 .f32) (r : Fin 1024) (e : Fin 256) :
    broadcastTo S1024x256 (shapeCast S1x256 β shapeCasts_S256_S1x256) broadcasts_S1x256_S1024x256 (ix2 r e) = β (ix1 e) :=
  (broadcastTo_1b_ab_apply _ broadcasts_S1x256_S1024x256 r e).trans (shapeCast_a_1a_apply β shapeCasts_S256_S1x256 (0 : Fin 1) e)

/-- One entry of a Wᵀ + β on the block. -/
def projAt (x0 : Vec Ideal S1x1024x256 .f32) (w : Vec Ideal S256x256 .f32) (β : Vec Ideal S256 .f32) (r : Fin 1024) (e : Fin 256) : EReal :=
  (∑ d : Fin 256, x0 (ix3 (0 : Fin 1) r d) * w (ix2 e d)) + β (ix1 e)

/-- The product plus the bias, as the body spells it, at entry (r, e). -/
theorem lin_apply (x0 : Vec Ideal S1x1024x256 .f32) (w : Vec Ideal S256x256 .f32) (β : Vec Ideal S256 .f32) (r : Fin 1024) (e : Fin 256) :
    addf (matmul dotP none (k0_pay2 (F := Ideal) x0) (truncf .bf16 w bitsLt_bf16_f32) (constant (F := Ideal) S1024x256 .f32 0x00000000#32))
      (broadcastTo S1024x256 (shapeCast S1x256 β shapeCasts_S256_S1x256) broadcasts_S1x256_S1024x256) (ix2 r e) = projAt x0 w β r e := by
  show matmul dotP none (k0_pay2 (F := Ideal) x0) (truncf .bf16 w bitsLt_bf16_f32) (constant (F := Ideal) S1024x256 .f32 0x00000000#32) (ix2 r e)
      + broadcastTo S1024x256 (shapeCast S1x256 β shapeCasts_S256_S1x256) broadcasts_S1x256_S1024x256 (ix2 r e) = _
  rw [prod_apply, bias_apply]
  unfold projAt
  refine congrArg (· + β (ix1 e)) (Finset.sum_congr rfl fun d _ => ?_)
  rw [pay2_apply]
  rfl

/-- The V projection before its store: entry (r, e) of a Wvᵀ + bv. -/
theorem pay3_apply (x0 : Vec Ideal S1x1024x256 .f32) (w : Vec Ideal S256x256 .f32) (β : Vec Ideal S256 .f32) (r : Fin 1024) (e : Fin 256) :
    k0_pay3 (F := Ideal) x0 w β (ix2 r e) = projAt x0 w β r e := by
  unfold k0_pay3
  exact lin_apply x0 w β r e

/-- What is stored into the V buffer, at (u, r, e). -/
theorem pay13_apply (x0 : Vec Ideal S1x1024x256 .f32) (w : Vec Ideal S256x256 .f32) (β : Vec Ideal S256 .f32) (u : Fin 1) (r : Fin 1024) (e : Fin 256) :
    k0_pay1 (F := Ideal) (k0_pay3 (F := Ideal) x0 w β) (ix3 u r e) = projAt x0 w β r e := by
  unfold k0_pay1
  refine (shapeCast_ab_1ab_apply _ shapeCasts_S1024x256_S1x1024x256 u r e).trans ?_
  exact pay3_apply x0 w β r e

/-- What is stored into the K buffer, at (u, r, e). -/
theorem pay5_apply (x0 : Vec Ideal S1x1024x256 .f32) (w : Vec Ideal S256x256 .f32) (β : Vec Ideal S256 .f32) (u : Fin 1) (r : Fin 1024) (e : Fin 256) :
    k0_pay5 (F := Ideal) x0 w β (ix3 u r e) = projAt x0 w β r e := by
  unfold k0_pay5
  refine (shapeCast_ab_1ab_apply _ shapeCasts_S1024x256_S1x1024x256 u r e).trans ?_
  exact lin_apply x0 w β r e

/-- What is stored into the Q buffer, at (u, r, e): the projection times the float 1/64. -/
theorem pay4_apply (x0 : Vec Ideal S1x1024x256 .f32) (w : Vec Ideal S256x256 .f32) (β : Vec Ideal S256 .f32) (u : Fin 1) (r : Fin 1024) (e : Fin 256) :
    k0_pay4 (F := Ideal) x0 w β (ix3 u r e) = projAt x0 w β r e * Cert.Attn.C64 := by
  unfold k0_pay4
  refine (shapeCast_ab_1ab_apply _ shapeCasts_S1024x256_S1x1024x256 u r e).trans ?_
  exact congrArg (· * Cert.Attn.C64) (lin_apply x0 w β r e)

end Cert.KernelIdeal.Hand

end
-- ==== Proof.QkvValue.lean ====
/-
  The projection kernel's three output arrays after its region, as whole-array functions of the arrays the
  region finds: Q = (x Wqᵀ + bq) / 64, K = x Wkᵀ + bk, V = x Wvᵀ + bv.

  Grid point t = 4 b + s (b the batch, s the row tile) reads rows 1024 s … 1024 s + 1023 of batch b of x and
  the weights and biases whole, and writes back the same rows of Q, K and V.  The 16 blocks tile each output
  array: the point covering entry (b, q, e) is 4 b + q / 1024.
-/
import proofs.«161376_j2439541424557_2_alg».proof.Proof.QkvFrame
import proofs.«161376_j2439541424557_2_alg».proof.Proof.QkvPayload

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Where each window's block sits -/

/-- The printed index maps, decided over the 16 points: the x block and the three output blocks are block
    (t / 4, t mod 4, 0); the weights' and biases' only block is block 0. -/
theorem idx_facts0 : ∀ t : Fin cfg0.N,
    (win0_0.index t (0 : Fin 3) = t.val / 4 ∧ win0_0.index t (1 : Fin 3) = t.val % 4 ∧ win0_0.index t (2 : Fin 3) = 0)
    ∧ (win0_7.index t (0 : Fin 3) = t.val / 4 ∧ win0_7.index t (1 : Fin 3) = t.val % 4 ∧ win0_7.index t (2 : Fin 3) = 0)
    ∧ (win0_8.index t (0 : Fin 3) = t.val / 4 ∧ win0_8.index t (1 : Fin 3) = t.val % 4 ∧ win0_8.index t (2 : Fin 3) = 0)
    ∧ (win0_9.index t (0 : Fin 3) = t.val / 4 ∧ win0_9.index t (1 : Fin 3) = t.val % 4 ∧ win0_9.index t (2 : Fin 3) = 0) :=
  (by decide +kernel : ∀ t : Fin grid0.N, _)

theorem idx_factsW : ∀ t : Fin cfg0.N,
    (win0_1.index t (0 : Fin 2) = 0 ∧ win0_1.index t (1 : Fin 2) = 0) ∧ win0_2.index t (0 : Fin 1) = 0
    ∧ (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0 :=
  (by decide +kernel : ∀ t : Fin grid0.N, _)

/-! ## The input blocks as entries of the arrays -/

/-- The x block at point t: entry y is x at batch t / 4, row 1024 (t mod 4) + y₁, column y₂. -/
theorem iblk0_0_apply (c : Dev nD) (t : Fin cfg0.N) (y : S1x1024x256.Idx) (k : S4x4096x256.Idx)
    (h0 : (k 0).val = t.val / 4) (h1 : (k 1).val = 1024 * (t.val % 4) + (y 1).val) (h2 : (k 2).val = (y 2).val) :
    (iblk0 V c 0 t : Vec Ideal S1x1024x256 .f32) y = (V c main_arg0 : S4x4096x256.Idx → EReal) k := by
  obtain ⟨⟨e0, e1, e2⟩, -⟩ := idx_facts0 t
  have hy0 : (y 0).val < 1 := (y 0).isLt
  unfold iblk0
  rw [View.read_apply]
  show V c main_arg0 _ = V c main_arg0 _
  refine congrArg (V c main_arg0) ?_
  funext a
  apply Fin.ext
  match a with
  | ⟨0, _⟩ => show win0_0.index t (0 : Fin 3) * 1 + 1 * (y 0).val = (k 0).val; rw [e0, h0]; omega
  | ⟨1, _⟩ => show win0_0.index t (1 : Fin 3) * 1024 + 1 * (y 1).val = (k 1).val; rw [e1, h1]; omega
  | ⟨2, _⟩ => show win0_0.index t (2 : Fin 3) * 256 + 1 * (y 2).val = (k 2).val; rw [e2, h2]; omega

/-- A weight matrix's or a bias's block at any point is the whole array. -/
theorem iblk0_1_apply (c : Dev nD) (t : Fin cfg0.N) (y : S256x256.Idx) :
    (iblk0 V c 1 t : Vec Ideal S256x256 .f32) y = (V c main_arg2 : S256x256.Idx → EReal) y := by
  have f := idx_factsW t
  unfold iblk0
  rw [View.read_apply]
  show V c main_arg2 _ = V c main_arg2 _
  refine congrArg (V c main_arg2) ?_
  funext a
  apply Fin.ext
  match a with
  | ⟨0, _⟩ => show win0_1.index t (0 : Fin 2) * 256 + 1 * (y 0).val = (y 0).val; rw [f.1.1]; omega
  | ⟨1, _⟩ => show win0_1.index t (1 : Fin 2) * 256 + 1 * (y 1).val = (y 1).val; rw [f.1.2]; omega

theorem iblk0_2_apply (c : Dev nD) (t : Fin cfg0.N) (y : S256.Idx) :
    (iblk0 V c 2 t : Vec Ideal S256 .f32) y = (V c main_arg3 : S256.Idx → EReal) y := by
  have f := idx_factsW t
  unfold iblk0
  rw [View.read_apply]
  show V c main_arg3 _ = V c main_arg3 _
  refine congrArg (V c main_arg3) ?_
  funext a
  apply Fin.ext
  match a with
  | ⟨0, _⟩ => show win0_2.index t (0 : Fin 1) * 256 + 1 * (y 0).val = (y 0).val; rw [f.2.1]; omega

theorem iblk0_3_apply (c : Dev nD) (t : Fin cfg0.N) (y : S256x256.Idx) :
    (iblk0 V c 3 t : Vec Ideal S256x256 .f32) y = (V c main_arg4 : S256x256.Idx → EReal) y := by
  have f := idx_factsW t
  unfold iblk0
  rw [View.read_apply]
  show V c main_arg4 _ = V c main_arg4 _
  refine congrArg (V c main_arg4) ?_
  funext a
  apply Fin.ext
  match a with
  | ⟨0, _⟩ => show win0_3.index t (0 : Fin 2) * 256 + 1 * (y 0).val = (y 0).val; rw [f.2.2.1.1]; omega
  | ⟨1, _⟩ => show win0_3.index t (1 : Fin 2) * 256 + 1 * (y 1).val = (y 1).val; rw [f.2.2.1.2]; omega

theorem iblk0_4_apply (c : Dev nD) (t : Fin cfg0.N) (y : S256.Idx) :
    (iblk0 V c 4 t : Vec Ideal S256 .f32) y = (V c main_arg5 : S256.Idx → EReal) y := by
  have f := idx_factsW t
  unfold iblk0
  rw [View.read_apply]
  show V c main_arg5 _ = V c main_arg5 _
  refine congrArg (V c main_arg5) ?_
  funext a
  apply Fin.ext
  match a with
  | ⟨0, _⟩ => show win0_4.index t (0 : Fin 1) * 256 + 1 * (y 0).val = (y 0).val; rw [f.2.2.2.1]; omega

theorem iblk0_5_apply (c : Dev nD) (t : Fin cfg0.N) (y : S256x256.Idx) :
    (iblk0 V c 5 t : Vec Ideal S256x256 .f32) y = (V c main_arg6 : S256x256.Idx → EReal) y := by
  have f := idx_factsW t
  unfold iblk0
  rw [View.read_apply]
  show V c main_arg6 _ = V c main_arg6 _
  refine congrArg (V c main_arg6) ?_
  funext a
  apply Fin.ext
  match a with
  | ⟨0, _⟩ => show win0_5.index t (0 : Fin 2) * 256 + 1 * (y 0).val = (y 0).val; rw [f.2.2.2.2.1.1]; omega
  | ⟨1, _⟩ => show win0_5.index t (1 : Fin 2) * 256 + 1 * (y 1).val = (y 1).val; rw [f.2.2.2.2.1.2]; omega

theorem iblk0_6_apply (c : Dev nD) (t : Fin cfg0.N) (y : S256.Idx) :
    (iblk0 V c 6 t : Vec Ideal S256 .f32) y = (V c main_arg7 : S256.Idx → EReal) y := by
  have f := idx_factsW t
  unfold iblk0
  rw [View.read_apply]
  show V c main_arg7 _ = V c main_arg7 _
  refine congrArg (V c main_arg7) ?_
  funext a
  apply Fin.ext
  match a with
  | ⟨0, _⟩ => show win0_6.index t (0 : Fin 1) * 256 + 1 * (y 0).val = (y 0).val; rw [f.2.2.2.2.2]; omega

/-! ## From a block's entry to the array's -/

/-- One entry of a Wᵀ + β on a block is the projection's entry in the array, when the block's row r is row s of
    batch b of x and the weights and bias are the arrays'. -/
theorem projAt_eq_lin (x0 : Vec Ideal S1x1024x256 .f32) (w : Vec Ideal S256x256 .f32) (β : Vec Ideal S256 .f32)
    (x : S4x4096x256.Idx → EReal) (W : S256x256.Idx → EReal) (B : S256.Idx → EReal)
    (b : Fin 4) (s : Fin 4096) (r : Fin 1024) (e : Fin 256)
    (hx : ∀ d : Fin 256, x0 (ix3 (0 : Fin 1) r d) = x (ix3 b s d)) (hw : ∀ d : Fin 256, w (ix2 e d) = W (ix2 e d))
    (hβ : β (ix1 e) = B (ix1 e)) :
    projAt x0 w β r e = Cert.Attn.lin x W B b s e := by
  unfold projAt Cert.Attn.lin
  rw [hβ]
  refine congrArg (· + B (ix1 e)) (Finset.sum_congr rfl fun d _ => ?_)
  rw [hx d, hw d]

/-! ## Output window 7: Q -/

/-- What point t writes back to Q is block t of the whole-array function. -/
theorem flushed0_7_eq (c : Dev nD) (t : Fin cfg0.N) :
    (dat0 (F := Ideal) V c).flushed 7 t = ((cfg0.win 7).blk t).view.read (Elt Ideal)
      (fun i => Cert.Attn.lin (V c main_arg0) (V c main_arg2) (V c main_arg3) (i 0) (i 1) (i 2) * Cert.Attn.C64) := by
  show (cfg0.win 7).cut (grid0.coords t) ((dat0 V c).after 7 t) = _
  rw [after0_7]
  unfold out0_7
  rw [View.canon_unit_zero hz3]
  simp only [View.ld_unit_zero (S := S1x1024x256) hz3, View.ld_unit_zero (S := S256x256) hz2, View.ld_unit_zero (S := S256) hz1]
  obtain ⟨-, ⟨e0, e1, e2⟩, -, -⟩ := idx_facts0 t
  have hN : cfg0.N = 16 := N_0
  have ht := t.isLt
  funext j
  obtain ⟨u, r, e, rfl⟩ : ∃ (u : Fin 1) (r : Fin 1024) (e : Fin 256), j = ix3 u r e := ⟨j 0, j 1, j 2, eq_ix3 j⟩
  have hemb : ((cfg0.win 7).blk t).view.emb (ix3 u r e)
      = (ix3 (⟨t.val / 4, by omega⟩ : Fin 4) (⟨1024 * (t.val % 4) + r.val, by omega⟩ : Fin 4096) e : S4x4096x256.Idx) := by
    funext a; apply Fin.ext
    match a with
    | ⟨0, _⟩ => show win0_7.index t (0 : Fin 3) * 1 + 1 * u.val = t.val / 4; rw [e0]; omega
    | ⟨1, _⟩ => show win0_7.index t (1 : Fin 3) * 1024 + 1 * r.val = 1024 * (t.val % 4) + r.val; rw [e1]; omega
    | ⟨2, _⟩ => show win0_7.index t (2 : Fin 3) * 256 + 1 * e.val = e.val; rw [e2]; omega
  rw [View.read_apply, hemb]
  refine (pay4_apply (iblk0 V c 0 t) (iblk0 V c 1 t) (iblk0 V c 2 t) u r e).trans ?_
  refine congrArg (· * Cert.Attn.C64) ?_
  exact projAt_eq_lin (iblk0 V c 0 t) (iblk0 V c 1 t) (iblk0 V c 2 t) (V c main_arg0) (V c main_arg2) (V c main_arg3)
    ⟨t.val / 4, by omega⟩ ⟨1024 * (t.val % 4) + r.val, by omega⟩ r e
    (fun d => iblk0_0_apply V c t (ix3 (0 : Fin 1) r d) (ix3 ⟨t.val / 4, by omega⟩ ⟨1024 * (t.val % 4) + r.val, by omega⟩ d) rfl rfl rfl)
    (fun d => iblk0_1_apply V c t (ix2 e d)) (iblk0_2_apply V c t (ix1 e))

/-- An entry of Q is in point t's block iff each coordinate is in the block's range on its axis. -/
theorem mem_blk0_7 (t : Fin cfg0.N) (i : S4x4096x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v0_0).slice (win0_7.rect t)).set ↔ _
  rw [View.set_slice_whole, Rect.mem_set_unit]
  exact Iff.rfl

/-- Every entry (b, q, e) of Q is in the block of point 4 b + q / 1024, which is written back. -/
theorem cover0_7 (i : S4x4096x256.Idx) : ∃ t : Fin cfg0.N, (cfg0.win 7).flush t = true ∧ i ∈ ((cfg0.win 7).blk t).view.set := by
  have hN : cfg0.N = 16 := N_0
  have h0 : (i 0).val < 4 := (i 0).isLt
  have h1 : (i 1).val < 4096 := (i 1).isLt
  have h2 : (i 2).val < 256 := (i 2).isLt
  obtain ⟨T, hT⟩ : ∃ T : Fin cfg0.N, T.val = 4 * (i 0).val + (i 1).val / 1024 := ⟨⟨4 * (i 0).val + (i 1).val / 1024, by rw [hN]; omega⟩, rfl⟩
  obtain ⟨-, ⟨e0, e1, e2⟩, -, -⟩ := idx_facts0 T
  refine ⟨T, flush0_7 T, ?_⟩
  rw [mem_blk0_7]
  intro a
  match a with
  | ⟨0, _⟩ => show win0_7.index T (0 : Fin 3) * 1 ≤ (i 0).val ∧ (i 0).val < win0_7.index T (0 : Fin 3) * 1 + 1; rw [e0, hT]; omega
  | ⟨1, _⟩ => show win0_7.index T (1 : Fin 3) * 1024 ≤ (i 1).val ∧ (i 1).val < win0_7.index T (1 : Fin 3) * 1024 + 1024; rw [e1, hT]; omega
  | ⟨2, _⟩ => show win0_7.index T (2 : Fin 3) * 256 ≤ (i 2).val ∧ (i 2).val < win0_7.index T (2 : Fin 3) * 256 + 256; rw [e2]; omega

/-- The array Q after the region. -/
theorem final0_7 (c : Dev nD) : (dat0 (F := Ideal) V c).arrAt 7 cfg0.N
    = fun i => Cert.Attn.lin (V c main_arg0) (V c main_arg2) (V c main_arg3) (i 0) (i 1) (i 2) * Cert.Attn.C64 :=
  (dat0 V c).arrAt_eq_of_cover 7 _ (fun t _ => flushed0_7_eq V c t) cover0_7

/-! ## Output window 8: K -/

/-- What point t writes back to K is block t of the whole-array function. -/
theorem flushed0_8_eq (c : Dev nD) (t : Fin cfg0.N) :
    (dat0 (F := Ideal) V c).flushed 8 t = ((cfg0.win 8).blk t).view.read (Elt Ideal)
      (fun i => Cert.Attn.lin (V c main_arg0) (V c main_arg4) (V c main_arg5) (i 0) (i 1) (i 2)) := by
  show (cfg0.win 8).cut (grid0.coords t) ((dat0 V c).after 8 t) = _
  rw [after0_8]
  unfold out0_8
  rw [View.canon_unit_zero hz3]
  simp only [View.ld_unit_zero (S := S1x1024x256) hz3, View.ld_unit_zero (S := S256x256) hz2, View.ld_unit_zero (S := S256) hz1]
  obtain ⟨-, -, ⟨e0, e1, e2⟩, -⟩ := idx_facts0 t
  have hN : cfg0.N = 16 := N_0
  have ht := t.isLt
  funext j
  obtain ⟨u, r, e, rfl⟩ : ∃ (u : Fin 1) (r : Fin 1024) (e : Fin 256), j = ix3 u r e := ⟨j 0, j 1, j 2, eq_ix3 j⟩
  have hemb : ((cfg0.win 8).blk t).view.emb (ix3 u r e)
      = (ix3 (⟨t.val / 4, by omega⟩ : Fin 4) (⟨1024 * (t.val % 4) + r.val, by omega⟩ : Fin 4096) e : S4x4096x256.Idx) := by
    funext a; apply Fin.ext
    match a with
    | ⟨0, _⟩ => show win0_8.index t (0 : Fin 3) * 1 + 1 * u.val = t.val / 4; rw [e0]; omega
    | ⟨1, _⟩ => show win0_8.index t (1 : Fin 3) * 1024 + 1 * r.val = 1024 * (t.val % 4) + r.val; rw [e1]; omega
    | ⟨2, _⟩ => show win0_8.index t (2 : Fin 3) * 256 + 1 * e.val = e.val; rw [e2]; omega
  rw [View.read_apply, hemb]
  refine (pay5_apply (iblk0 V c 0 t) (iblk0 V c 3 t) (iblk0 V c 4 t) u r e).trans ?_
  exact projAt_eq_lin (iblk0 V c 0 t) (iblk0 V c 3 t) (iblk0 V c 4 t) (V c main_arg0) (V c main_arg4) (V c main_arg5)
    ⟨t.val / 4, by omega⟩ ⟨1024 * (t.val % 4) + r.val, by omega⟩ r e
    (fun d => iblk0_0_apply V c t (ix3 (0 : Fin 1) r d) (ix3 ⟨t.val / 4, by omega⟩ ⟨1024 * (t.val % 4) + r.val, by omega⟩ d) rfl rfl rfl)
    (fun d => iblk0_3_apply V c t (ix2 e d)) (iblk0_4_apply V c t (ix1 e))

/-- An entry of K is in point t's block iff each coordinate is in the block's range on its axis. -/
theorem mem_blk0_8 (t : Fin cfg0.N) (i : S4x4096x256.Idx) :
    i ∈ ((cfg0.win 8).blk t).view.set ↔ ∀ a : Fin 3, win0_8.index t a * S1x1024x256.size a ≤ (i a).val ∧ (i a).val < win0_8.index t a * S1x1024x256.size a + S1x1024x256.size a := by
  show i ∈ ((View.whole main_v0_1).slice (win0_8.rect t)).set ↔ _
  rw [View.set_slice_whole, Rect.mem_set_unit]
  exact Iff.rfl

/-- Every entry (b, q, e) of K is in the block of point 4 b + q / 1024, which is written back. -/
theorem cover0_8 (i : S4x4096x256.Idx) : ∃ t : Fin cfg0.N, (cfg0.win 8).flush t = true ∧ i ∈ ((cfg0.win 8).blk t).view.set := by
  have hN : cfg0.N = 16 := N_0
  have h0 : (i 0).val < 4 := (i 0).isLt
  have h1 : (i 1).val < 4096 := (i 1).isLt
  have h2 : (i 2).val < 256 := (i 2).isLt
  obtain ⟨T, hT⟩ : ∃ T : Fin cfg0.N, T.val = 4 * (i 0).val + (i 1).val / 1024 := ⟨⟨4 * (i 0).val + (i 1).val / 1024, by rw [hN]; omega⟩, rfl⟩
  obtain ⟨-, -, ⟨e0, e1, e2⟩, -⟩ := idx_facts0 T
  refine ⟨T, flush0_8 T, ?_⟩
  rw [mem_blk0_8]
  intro a
  match a with
  | ⟨0, _⟩ => show win0_8.index T (0 : Fin 3) * 1 ≤ (i 0).val ∧ (i 0).val < win0_8.index T (0 : Fin 3) * 1 + 1; rw [e0, hT]; omega
  | ⟨1, _⟩ => show win0_8.index T (1 : Fin 3) * 1024 ≤ (i 1).val ∧ (i 1).val < win0_8.index T (1 : Fin 3) * 1024 + 1024; rw [e1, hT]; omega
  | ⟨2, _⟩ => show win0_8.index T (2 : Fin 3) * 256 ≤ (i 2).val ∧ (i 2).val < win0_8.index T (2 : Fin 3) * 256 + 256; rw [e2]; omega

/-- The array K after the region. -/
theorem final0_8 (c : Dev nD) : (dat0 (F := Ideal) V c).arrAt 8 cfg0.N
    = fun i => Cert.Attn.lin (V c main_arg0) (V c main_arg4) (V c main_arg5) (i 0) (i 1) (i 2) :=
  (dat0 V c).arrAt_eq_of_cover 8 _ (fun t _ => flushed0_8_eq V c t) cover0_8

/-! ## Output window 9: V -/

/-- What point t writes back to V is block t of the whole-array function. -/
theorem flushed0_9_eq (c : Dev nD) (t : Fin cfg0.N) :
    (dat0 (F := Ideal) V c).flushed 9 t = ((cfg0.win 9).blk t).view.read (Elt Ideal)
      (fun i => Cert.Attn.lin (V c main_arg0) (V c main_arg6) (V c main_arg7) (i 0) (i 1) (i 2)) := by
  show (cfg0.win 9).cut (grid0.coords t) ((dat0 V c).after 9 t) = _
  rw [after0_9]
  unfold out0_9
  rw [View.canon_unit_zero hz3]
  simp only [View.ld_unit_zero (S := S1x1024x256) hz3, View.ld_unit_zero (S := S256x256) hz2, View.ld_unit_zero (S := S256) hz1]
  obtain ⟨-, -, -, ⟨e0, e1, e2⟩⟩ := idx_facts0 t
  have hN : cfg0.N = 16 := N_0
  have ht := t.isLt
  funext j
  obtain ⟨u, r, e, rfl⟩ : ∃ (u : Fin 1) (r : Fin 1024) (e : Fin 256), j = ix3 u r e := ⟨j 0, j 1, j 2, eq_ix3 j⟩
  have hemb : ((cfg0.win 9).blk t).view.emb (ix3 u r e)
      = (ix3 (⟨t.val / 4, by omega⟩ : Fin 4) (⟨1024 * (t.val % 4) + r.val, by omega⟩ : Fin 4096) e : S4x4096x256.Idx) := by
    funext a; apply Fin.ext
    match a with
    | ⟨0, _⟩ => show win0_9.index t (0 : Fin 3) * 1 + 1 * u.val = t.val / 4; rw [e0]; omega
    | ⟨1, _⟩ => show win0_9.index t (1 : Fin 3) * 1024 + 1 * r.val = 1024 * (t.val % 4) + r.val; rw [e1]; omega
    | ⟨2, _⟩ => show win0_9.index t (2 : Fin 3) * 256 + 1 * e.val = e.val; rw [e2]; omega
  rw [View.read_apply, hemb]
  refine (pay13_apply (iblk0 V c 0 t) (iblk0 V c 5 t) (iblk0 V c 6 t) u r e).trans ?_
  exact projAt_eq_lin (iblk0 V c 0 t) (iblk0 V c 5 t) (iblk0 V c 6 t) (V c main_arg0) (V c main_arg6) (V c main_arg7)
    ⟨t.val / 4, by omega⟩ ⟨1024 * (t.val % 4) + r.val, by omega⟩ r e
    (fun d => iblk0_0_apply V c t (ix3 (0 : Fin 1) r d) (ix3 ⟨t.val / 4, by omega⟩ ⟨1024 * (t.val % 4) + r.val, by omega⟩ d) rfl rfl rfl)
    (fun d => iblk0_5_apply V c t (ix2 e d)) (iblk0_6_apply V c t (ix1 e))

/-- An entry of V is in point t's block iff each coordinate is in the block's range on its axis. -/
theorem mem_blk0_9 (t : Fin cfg0.N) (i : S4x4096x256.Idx) :
    i ∈ ((cfg0.win 9).blk t).view.set ↔ ∀ a : Fin 3, win0_9.index t a * S1x1024x256.size a ≤ (i a).val ∧ (i a).val < win0_9.index t a * S1x1024x256.size a + S1x1024x256.size a := by
  show i ∈ ((View.whole main_v0_2).slice (win0_9.rect t)).set ↔ _
  rw [View.set_slice_whole, Rect.mem_set_unit]
  exact Iff.rfl

/-- Every entry (b, q, e) of V is in the block of point 4 b + q / 1024, which is written back. -/
theorem cover0_9 (i : S4x4096x256.Idx) : ∃ t : Fin cfg0.N, (cfg0.win 9).flush t = true ∧ i ∈ ((cfg0.win 9).blk t).view.set := by
  have hN : cfg0.N = 16 := N_0
  have h0 : (i 0).val < 4 := (i 0).isLt
  have h1 : (i 1).val < 4096 := (i 1).isLt
  have h2 : (i 2).val < 256 := (i 2).isLt
  obtain ⟨T, hT⟩ : ∃ T : Fin cfg0.N, T.val = 4 * (i 0).val + (i 1).val / 1024 := ⟨⟨4 * (i 0).val + (i 1).val / 1024, by rw [hN]; omega⟩, rfl⟩
  obtain ⟨-, -, -, ⟨e0, e1, e2⟩⟩ := idx_facts0 T
  refine ⟨T, flush0_9 T, ?_⟩
  rw [mem_blk0_9]
  intro a
  match a with
  | ⟨0, _⟩ => show win0_9.index T (0 : Fin 3) * 1 ≤ (i 0).val ∧ (i 0).val < win0_9.index T (0 : Fin 3) * 1 + 1; rw [e0, hT]; omega
  | ⟨1, _⟩ => show win0_9.index T (1 : Fin 3) * 1024 ≤ (i 1).val ∧ (i 1).val < win0_9.index T (1 : Fin 3) * 1024 + 1024; rw [e1, hT]; omega
  | ⟨2, _⟩ => show win0_9.index T (2 : Fin 3) * 256 ≤ (i 2).val ∧ (i 2).val < win0_9.index T (2 : Fin 3) * 256 + 256; rw [e2]; omega

/-- The array V after the region. -/
theorem final0_9 (c : Dev nD) : (dat0 (F := Ideal) V c).arrAt 9 cfg0.N
    = fun i => Cert.Attn.lin (V c main_arg0) (V c main_arg6) (V c main_arg7) (i 0) (i 1) (i 2) :=
  (dat0 V c).arrAt_eq_of_cover 9 _ (fun t _ => flushed0_9_eq V c t) cover0_9

end Cert.KernelIdeal.Hand

end
-- ==== Proof.KernelEntry.lean ====
/-
  The arrays the attention kernel is entered from, as functions of the launch memory.

  The queries, keys and values are the three linear projections of the activations (the queries already multiplied by
  1/64), and the mask words are the mask's bits widened: a word is non-zero exactly where the bit is set.  So the scores
  of a query row and a column of the values, as the kernel forms them, are the formulas of the launch arrays below.
-/
import proofs.«161376_j2439541424557_2_alg».proof.Proof.RegionsRun
import proofs.«161376_j2439541424557_2_alg».proof.Proof.QkvValue
import proofs.«161376_j2439541424557_2_alg».proof.Proof.FlashRow
import proofs.«161376_j2439541424557_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- A mask word is non-zero exactly where the mask bit is set. -/
theorem cmpi_ne_setWidth (x : BitVec 1) : IntOp.cmpi .ne (x.setWidth 32) 0#32 = x := by
  rcases BitVec.eq_zero_or_eq_one x with h | h <;> subst h <;> decide

variable (m : (ℓ : Loc nD τ sig) → Buf (Elt Ideal) ℓ) (c : Dev nD)

/-- The region's proof data of the projection kernel, as the run takes them. -/
abbrev D0 : ((c : Dev nD) → (b : Ref sig .tc) → Buf (Elt Ideal) ((c : Thread nD τ).loc b)) → (c : Dev nD) → Pipeline.Dat τ (Elt Ideal) Unit ℕ (UR sig nD τ) ℕ cfg0 c := fun V c => dat0 V c

/-- The queries: the first projection, scaled by 1/64. -/
theorem arrQ_entry : arrQ (E1 D0 m) c
    = fun i => Cert.Attn.lin (m ((c : Thread nD τ).loc main_arg0)) (m ((c : Thread nD τ).loc main_arg2)) (m ((c : Thread nD τ).loc main_arg3)) (i 0) (i 1) (i 2) * Cert.Attn.C64 :=
  (E1_v0_0 D0 m c).trans (final0_7 (E0 m) c)

/-- The keys: the second projection. -/
theorem arrK_entry : arrK (E1 D0 m) c
    = fun i => Cert.Attn.lin (m ((c : Thread nD τ).loc main_arg0)) (m ((c : Thread nD τ).loc main_arg4)) (m ((c : Thread nD τ).loc main_arg5)) (i 0) (i 1) (i 2) :=
  (E1_v0_1 D0 m c).trans (final0_8 (E0 m) c)

/-- The values: the third projection. -/
theorem arrV_entry : arrV (E1 D0 m) c
    = fun i => Cert.Attn.lin (m ((c : Thread nD τ).loc main_arg0)) (m ((c : Thread nD τ).loc main_arg6)) (m ((c : Thread nD τ).loc main_arg7)) (i 0) (i 1) (i 2) :=
  (E1_v0_2 D0 m c).trans (final0_9 (E0 m) c)

/-- The mask words: the mask's bits widened to 32 bits. -/
theorem arrM_entry : arrM (E1 D0 m) c
    = fun i => ((m ((c : Thread nD τ).loc main_arg1) : S4x4096x4096.Idx → BitVec 1) i).setWidth 32 :=
  E1_v1 D0 m c

/-- The scores of a query row, from the launch arrays. -/
theorem rowS_entry (b : Fin 4) (q : Fin 4096) :
    rowS (E1 D0 m) c b q = fun k => Scalar.select ((m ((c : Thread nD τ).loc main_arg1) : S4x4096x4096.Idx → BitVec 1) (ix3 b q k)) Cert.Attn.NEG
      (∑ d : Fin 256, (Cert.Attn.lin (m ((c : Thread nD τ).loc main_arg0)) (m ((c : Thread nD τ).loc main_arg2)) (m ((c : Thread nD τ).loc main_arg3)) b q d * Cert.Attn.C64)
        * Cert.Attn.lin (m ((c : Thread nD τ).loc main_arg0)) (m ((c : Thread nD τ).loc main_arg4)) (m ((c : Thread nD τ).loc main_arg5)) b k d) := by
  funext k
  unfold rowS
  rw [arrM_entry, arrQ_entry, arrK_entry]
  exact congrArg (Scalar.select · Cert.Attn.NEG _) (cmpi_ne_setWidth _)

/-- A column of the values, from the launch arrays. -/
theorem colV_entry (b : Fin 4) (e : Fin 256) :
    colV (E1 D0 m) c b e = fun k => Cert.Attn.lin (m ((c : Thread nD τ).loc main_arg0)) (m ((c : Thread nD τ).loc main_arg6)) (m ((c : Thread nD τ).loc main_arg7)) b k e := by
  funext k
  unfold colV
  rw [arrV_entry]

end Cert.KernelIdeal.Hand

end
-- ==== Proof.KernelResult.lean ====
/-
  The attention kernel's result array is masked softmax attention of the launch arrays.

  After its last write-back, entry (b, s, e) of the output array is the running numerator over the running
  normaliser of query row (b, s) after all eight key tiles, formed from the scores of that row and from column e
  of the values as the kernel is handed them.  Those scores and values are, in terms of the launch arrays, the
  masked inner products of the (scaled) query and key projections and the value projection.  When every entry of
  the activations, weights and biases is a real number, the tile-by-tile quotient is the softmax-weighted sum of
  the specification.
-/
import proofs.«161376_j2439541424557_2_alg».proof.Proof.FlashValue
import proofs.«161376_j2439541424557_2_alg».proof.Proof.KernelEntry
import proofs.«161376_j2439541424557_2_alg».proof.Proof.OnlineAttn
import proofs.«161376_j2439541424557_2_alg».proof.Proof.Spec
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The output array the attention kernel leaves is `Cert.Attn.attn` of the eight launch arrays, provided the seven
    float arrays hold real numbers. -/
theorem kernel_result (m : (ℓ : Loc nD τ sig) → Buf (Elt Ideal) ℓ) (c : Dev nD)
    (hx : ∀ i, ∃ r : ℝ, (m ((c : Thread nD τ).loc main_arg0)) i = (r : EReal))
    (hWq : ∀ i, ∃ r : ℝ, (m ((c : Thread nD τ).loc main_arg2)) i = (r : EReal)) (hbq : ∀ i, ∃ r : ℝ, (m ((c : Thread nD τ).loc main_arg3)) i = (r : EReal))
    (hWk : ∀ i, ∃ r : ℝ, (m ((c : Thread nD τ).loc main_arg4)) i = (r : EReal)) (hbk : ∀ i, ∃ r : ℝ, (m ((c : Thread nD τ).loc main_arg5)) i = (r : EReal))
    (hWv : ∀ i, ∃ r : ℝ, (m ((c : Thread nD τ).loc main_arg6)) i = (r : EReal)) (hbv : ∀ i, ∃ r : ℝ, (m ((c : Thread nD τ).loc main_arg7)) i = (r : EReal)) :
    (dat1 (F := Ideal) (E1 D0 m) c).arrAt 4 cfg1.N
      = Cert.Attn.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final1_4]
  refine funext fun i => ?_
  obtain ⟨b, q, e, rfl⟩ : ∃ (b : Fin 4) (q : Fin 4096) (e : Fin 256), i = ix3 b q e := ⟨i 0, i 1, i 2, eq_ix3 i⟩
  show Ideal.div (Cert.Attn.onA (Cert.Attn.tile (rowS (E1 D0 m) c b q)) (Cert.Attn.tile (colV (E1 D0 m) c b e)) 8)
      (Cert.Attn.onL (Cert.Attn.tile (rowS (E1 D0 m) c b q)) 8) = Cert.Attn.attnAt _ _ _ _ _ _ _ _ b q e
  rw [rowS_entry m c b q, colV_entry m c b e]
  exact Cert.Attn.attn_of_online _ _ _ _ _ _ _ _ hx hWq hbq hWk hbk hWv hbv b q e

end Cert.KernelIdeal.Hand

end
-- ==== Proof.RefValueLin.lean ====
/-
  The three linear projections of the reference program, each read at one entry:
  query, key and value rows are `x Wᵀ + β` with the contraction over the 256 input features.
-/
import proofs.«161376_j2439541424557_2_alg».proof.Proof.Gen.ReferenceIdeal.Read
import proofs.«161376_j2439541424557_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Attn

/-- The projection `x Wᵀ + β` of the program, read at the entry (b, s, e): the contraction runs over the
    256 input features, and the two broadcasts of the bias read β(e). -/
theorem query_eq (x0 : (⟨S4x4096x256, .f32⟩ : BufTy).Contents (Elt Ideal)) (x2 : (⟨S256x256, .f32⟩ : BufTy).Contents (Elt Ideal)) (x3 : (⟨S256, .f32⟩ : BufTy).Contents (Elt Ideal)) (b : Fin 4) (s : Fin 4096) (e : Fin 256) :
    val_main_v3 (F := Ideal) x0 x2 x3 (ix3 b s e) = lin x0 x2 x3 b s e := by
  rw [val_main_v3_apply, val_main_v0_apply, val_main_v2_apply, val_main_v1_apply]
  unfold lin
  rw [Ideal.addf_def]
  have el : ∀ k : Fin 256, lidx_main_v0 (ix3 b s e) k = ix3 b s k := fun k => funext fun a => Fin.ext (by
    match a with | ⟨0, _⟩ => rfl | ⟨1, _⟩ => rfl | ⟨2, _⟩ => rfl)
  have er : ∀ k : Fin 256, ridx_main_v0 (ix3 b s e) k = ix2 e k := fun k => funext fun a => Fin.ext (by
    match a with | ⟨0, _⟩ => rfl | ⟨1, _⟩ => rfl)
  have eb : idx_main_v1 (idx_main_v2 (ix3 b s e)) = ix1 e := funext fun a => Fin.ext (by
    match a with | ⟨0, _⟩ => rfl)
  rw [eb]
  exact congrArg (· + x3 (ix1 e)) (Finset.sum_congr rfl fun k _ => by rw [el k, er k])

/-- The projection `x Wᵀ + β` of the program, read at the entry (b, s, e): the contraction runs over the
    256 input features, and the two broadcasts of the bias read β(e). -/
theorem key_eq (x0 : (⟨S4x4096x256, .f32⟩ : BufTy).Contents (Elt Ideal)) (x4 : (⟨S256x256, .f32⟩ : BufTy).Contents (Elt Ideal)) (x5 : (⟨S256, .f32⟩ : BufTy).Contents (Elt Ideal)) (b : Fin 4) (s : Fin 4096) (e : Fin 256) :
    val_main_v7 (F := Ideal) x0 x4 x5 (ix3 b s e) = lin x0 x4 x5 b s e := by
  rw [val_main_v7_apply, val_main_v4_apply, val_main_v6_apply, val_main_v5_apply]
  unfold lin
  rw [Ideal.addf_def]
  have el : ∀ k : Fin 256, lidx_main_v4 (ix3 b s e) k = ix3 b s k := fun k => funext fun a => Fin.ext (by
    match a with | ⟨0, _⟩ => rfl | ⟨1, _⟩ => rfl | ⟨2, _⟩ => rfl)
  have er : ∀ k : Fin 256, ridx_main_v4 (ix3 b s e) k = ix2 e k := fun k => funext fun a => Fin.ext (by
    match a with | ⟨0, _⟩ => rfl | ⟨1, _⟩ => rfl)
  have eb : idx_main_v5 (idx_main_v6 (ix3 b s e)) = ix1 e := funext fun a => Fin.ext (by
    match a with | ⟨0, _⟩ => rfl)
  rw [eb]
  exact congrArg (· + x5 (ix1 e)) (Finset.sum_congr rfl fun k _ => by rw [el k, er k])

/-- The projection `x Wᵀ + β` of the program, read at the entry (b, s, e): the contraction runs over the
    256 input features, and the two broadcasts of the bias read β(e). -/
theorem value_eq (x0 : (⟨S4x4096x256, .f32⟩ : BufTy).Contents (Elt Ideal)) (x6 : (⟨S256x256, .f32⟩ : BufTy).Contents (Elt Ideal)) (x7 : (⟨S256, .f32⟩ : BufTy).Contents (Elt Ideal)) (b : Fin 4) (s : Fin 4096) (e : Fin 256) :
    val_main_v11 (F := Ideal) x0 x6 x7 (ix3 b s e) = lin x0 x6 x7 b s e := by
  rw [val_main_v11_apply, val_main_v8_apply, val_main_v10_apply, val_main_v9_apply]
  unfold lin
  rw [Ideal.addf_def]
  have el : ∀ k : Fin 256, lidx_main_v8 (ix3 b s e) k = ix3 b s k := fun k => funext fun a => Fin.ext (by
    match a with | ⟨0, _⟩ => rfl | ⟨1, _⟩ => rfl | ⟨2, _⟩ => rfl)
  have er : ∀ k : Fin 256, ridx_main_v8 (ix3 b s e) k = ix2 e k := fun k => funext fun a => Fin.ext (by
    match a with | ⟨0, _⟩ => rfl | ⟨1, _⟩ => rfl)
  have eb : idx_main_v9 (idx_main_v10 (ix3 b s e)) = ix1 e := funext fun a => Fin.ext (by
    match a with | ⟨0, _⟩ => rfl)
  rw [eb]
  exact congrArg (· + x7 (ix1 e)) (Finset.sum_congr rfl fun k _ => by rw [el k, er k])

end Cert.ReferenceIdeal.RefValue

end
-- ==== Proof.RefValueScore.lean ====
/-
  The masked, scaled score of the reference program read at one entry (b, q, k):
  the fill −1e9 where the mask bit is set, else the inner product of query row q and key row k
  (over the 256 features) divided by 4096^(1/2).
-/
import proofs.«161376_j2439541424557_2_alg».proof.Proof.Gen.ReferenceIdeal.Read
import proofs.«161376_j2439541424557_2_alg».proof.Proof.Spec
import proofs.«161376_j2439541424557_2_alg».proof.Proof.RefValueLin
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Attn

/-- The program's masked score at (b, q, k) is `Cert.Attn.score`. -/
theorem score_eq (x0 : (⟨S4x4096x256, .f32⟩ : BufTy).Contents (Elt Ideal)) (x1 : (⟨S4x4096x4096, .i1⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (q k : Fin 4096) :
    val_main_v16 (F := Ideal) x0 x1 x2 x3 x4 x5 (ix3 b q k) = score x0 x1 x2 x3 x4 x5 b q k := by
  rw [val_main_v16_apply, val_main_call0_v0_apply, val_main_cst_1_apply, val_main_v15_apply, val_main_v13_apply,
    val_main_v14_apply, val_main_v12_apply, val_main_cst_apply, val_main_cst_0_apply]
  unfold score
  simp only [Ideal.hostDivf_def, Ideal.hostPowf_def, Ideal.ofBits_def]
  have el : ∀ d : Fin 256, lidx_main_v13 (ix3 b q k) d = ix3 b q d := fun d => funext fun a => Fin.ext (by
    match a with | ⟨0, _⟩ => rfl | ⟨1, _⟩ => rfl | ⟨2, _⟩ => rfl)
  have er : ∀ d : Fin 256, ridx_main_v13 (ix3 b q k) d = ix3 b k d := fun d => funext fun a => Fin.ext (by
    match a with | ⟨0, _⟩ => rfl | ⟨1, _⟩ => rfl | ⟨2, _⟩ => rfl)
  refine congrArg (fun t => Scalar.select (x1 (ix3 b q k)) NEG (Ideal.div t SCALE)) (Finset.sum_congr rfl fun d _ => ?_)
  rw [el d, er d, query_eq, key_eq]

end Cert.ReferenceIdeal.RefValue

end
-- ==== Proof.RefValueRow.lean ====
/-
  The softmax of the reference program along a row of scores, read at one entry.
  For a fixed batch b and query row q write s(k) for the masked score at (b, q, k), k over the 4096 keys.
  The program takes M = max(−∞, fold of max from −∞ over k of s(k)), which is the supremum of s;
  then e(k) = exp(s(k) − M), the normaliser 0 + Σ_k e(k), and the weight e(k) / Σ_k' e(k').
-/
import proofs.«161376_j2439541424557_2_alg».proof.Proof.Gen.ReferenceIdeal.Read
import proofs.«161376_j2439541424557_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Attn

/-- The f32 pattern of −∞ denotes the least extended real. -/
theorem ofBits_neg_inf : Ideal.ofBits .f32 0xFF800000#32 = ⊥ := by simp [Ideal.ofBits, Ideal.ieee]

/-- Folding `max` from ⊥ over all of a finite index set gives the supremum. -/
theorem fold_max_bot_eq_sup {n : ℕ} (f : Fin n → EReal) :
    (Finset.univ : Finset (Fin n)).fold max ⊥ f = Finset.univ.sup f := by
  apply le_antisymm
  · exact (Finset.fold_max_le _).mpr ⟨bot_le, fun x hx => Finset.le_sup hx⟩
  · exact Finset.sup_le fun x hx => (Finset.le_fold_max _).mpr (Or.inr ⟨x, hx, le_rfl⟩)

/-- A maximum-reduction over the key axis from the initial value −∞, at row (b, q): the supremum of the row. -/
theorem hostMax_row (y : S4x4096x4096.Idx → EReal) (init : S_.Idx → EReal) (h' : S4x4096x4096.ReducesTo [2] S4x4096)
    (hu : 0 < S_.numel) (hinit : init (Shape.Idx.first hu) = ⊥) (b : Fin 4) (q : Fin 4096) :
    Host.reduce (FloatOps.maximumf (F := Ideal) (φ := .f32)) y init h' hu (ix2 b q)
      = Finset.univ.sup (fun k : Fin 4096 => y (ix3 b q k)) := by
  have h : S4x4096x4096.Reduces [2] S4x4096 := by decide
  rw [Host.reduce_eq_fold_single _ y init h' h hu (ix2 b q), hinit]
  have hl : ∀ k : Fin 4096, h.lift (ix2 b q) k = ix3 b q k := fun k => funext fun a => Fin.ext (by
    match a with | ⟨0, _⟩ => rfl | ⟨1, _⟩ => rfl | ⟨2, _⟩ => rfl)
  show Finset.fold max ⊥ (fun k : Fin 4096 => y (h.lift (ix2 b q) k)) Finset.univ = _
  simp only [hl]
  exact fold_max_bot_eq_sup _

/-- The program's row maximum at (b, q) is the supremum of the row of masked scores. -/
theorem rowmax_eq (x0 : (⟨S4x4096x256, .f32⟩ : BufTy).Contents (Elt Ideal)) (x1 : (⟨S4x4096x4096, .i1⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (q : Fin 4096) :
    val_main_v19 (F := Ideal) x0 x1 x2 x3 x4 x5 (ix2 b q)
      = Finset.univ.sup (fun k : Fin 4096 => val_main_v16 (F := Ideal) x0 x1 x2 x3 x4 x5 (ix3 b q k)) := by
  rw [val_main_v19_apply, val_main_v18_apply, val_main_cst_3_apply]
  unfold val_main_v17
  generalize val_main_v16 (F := Ideal) x0 x1 x2 x3 x4 x5 = y
  rw [hostMax_row y _ _ _ (by rw [val_main_cst_2_apply, Ideal.ofBits_def, ofBits_neg_inf]) b q]
  rw [Ideal.ofBits_def, ofBits_neg_inf, Ideal.maximumf_def]
  exact max_bot_left _

/-- The exponential of the shifted score at (b, q, k). -/
theorem exp_eq (x0 : (⟨S4x4096x256, .f32⟩ : BufTy).Contents (Elt Ideal)) (x1 : (⟨S4x4096x4096, .i1⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (q k : Fin 4096) :
    val_main_v23 (F := Ideal) x0 x1 x2 x3 x4 x5 (ix3 b q k)
      = Ideal.exp (val_main_v16 (F := Ideal) x0 x1 x2 x3 x4 x5 (ix3 b q k)
          - Finset.univ.sup (fun k' : Fin 4096 => val_main_v16 (F := Ideal) x0 x1 x2 x3 x4 x5 (ix3 b q k'))) := by
  rw [val_main_v23_apply, val_main_v22_apply, val_main_v21_apply, val_main_v20_apply]
  have ei : idx_main_v20 (idx_main_v21 (ix3 b q k)) = ix2 b q := funext fun a => Fin.ext (by
    match a with | ⟨0, _⟩ => rfl | ⟨1, _⟩ => rfl)
  rw [ei, rowmax_eq, Ideal.hostUnary_exp_def, Ideal.subf_def]

/-- The normaliser of row (b, q), broadcast along the keys: the sum of the row's exponentials. -/
theorem norm_eq (x0 : (⟨S4x4096x256, .f32⟩ : BufTy).Contents (Elt Ideal)) (x1 : (⟨S4x4096x4096, .i1⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (q k : Fin 4096) :
    val_main_v26 (F := Ideal) x0 x1 x2 x3 x4 x5 (ix3 b q k)
      = ∑ k' : Fin 4096, val_main_v23 (F := Ideal) x0 x1 x2 x3 x4 x5 (ix3 b q k') := by
  rw [val_main_v26_apply, val_main_v25_apply]
  have ei : idx_main_v25 (idx_main_v26 (ix3 b q k)) = ix2 b q := funext fun a => Fin.ext (by
    match a with | ⟨0, _⟩ => rfl | ⟨1, _⟩ => rfl)
  rw [ei, val_main_v24_apply, val_main_cst_4_apply, Ideal.ofBits_def, Ideal.ofBits_zero_f32, zero_add]
  refine Finset.sum_congr rfl fun k' _ => congrArg _ (funext fun a => Fin.ext (by
    match a with | ⟨0, _⟩ => rfl | ⟨1, _⟩ => rfl | ⟨2, _⟩ => rfl))

/-- The softmax weight at (b, q, k). -/
theorem weight_eq (x0 : (⟨S4x4096x256, .f32⟩ : BufTy).Contents (Elt Ideal)) (x1 : (⟨S4x4096x4096, .i1⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (q k : Fin 4096) :
    val_main_v27 (F := Ideal) x0 x1 x2 x3 x4 x5 (ix3 b q k)
      = Ideal.div (Ideal.exp (val_main_v16 (F := Ideal) x0 x1 x2 x3 x4 x5 (ix3 b q k)
            - Finset.univ.sup (fun k' : Fin 4096 => val_main_v16 (F := Ideal) x0 x1 x2 x3 x4 x5 (ix3 b q k'))))
          (∑ k'' : Fin 4096, Ideal.exp (val_main_v16 (F := Ideal) x0 x1 x2 x3 x4 x5 (ix3 b q k'')
            - Finset.univ.sup (fun k' : Fin 4096 => val_main_v16 (F := Ideal) x0 x1 x2 x3 x4 x5 (ix3 b q k')))) := by
  rw [val_main_v27_apply, norm_eq, Ideal.hostDivf_def, exp_eq]
  exact congrArg _ (Finset.sum_congr rfl fun k'' _ => exp_eq x0 x1 x2 x3 x4 x5 b q k'')

end Cert.ReferenceIdeal.RefValue

end
-- ==== Proof.RefValue.lean ====
/-
  The reference program computes masked softmax attention: its result array, entry by entry, is
  `Cert.Attn.attn` of the eight argument arrays.

  At the entry (b, q, e) the last contraction sums, over the 4096 keys k, the softmax weight of the
  score s(k) at (b, q, k) times the value projection at (b, k, e).  The weight is
  exp(s(k) − M) / Σ_k' exp(s(k') − M) with M the supremum of the row, the score is the masked and
  scaled inner product of the query and key projections, and each projection is x Wᵀ + β.
-/
import proofs.«161376_j2439541424557_2_alg».proof.Proof.Gen.ReferenceIdeal.Read
import proofs.«161376_j2439541424557_2_alg».proof.Proof.Spec
import proofs.«161376_j2439541424557_2_alg».proof.Proof.RefValueLin
import proofs.«161376_j2439541424557_2_alg».proof.Proof.RefValueScore
import proofs.«161376_j2439541424557_2_alg».proof.Proof.RefValueRow
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Attn

/-- The reference program's result is masked softmax attention. -/
theorem ref_eq (x0 : (⟨S4x4096x256, .f32⟩ : BufTy).Contents (Elt Ideal)) (x1 : (⟨S4x4096x4096, .i1⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    Cert.ReferenceIdeal.Read.val_main_v28 (F := Ideal) x0 x1 x2 x3 x4 x5 x6 x7 = Cert.Attn.attn x0 x1 x2 x3 x4 x5 x6 x7 := by
  funext i
  obtain ⟨b, q, e, rfl⟩ : ∃ (b : Fin 4) (q : Fin 4096) (e : Fin 256), i = ix3 b q e := ⟨i 0, i 1, i 2, eq_ix3 i⟩
  rw [val_main_v28_apply]
  show _ = attnAt x0 x1 x2 x3 x4 x5 x6 x7 b q e
  unfold attnAt softmaxDot
  refine Finset.sum_congr rfl fun k _ => ?_
  have el : lidx_main_v28 (ix3 b q e) k = ix3 b q k := funext fun a => Fin.ext (by
    match a with | ⟨0, _⟩ => rfl | ⟨1, _⟩ => rfl | ⟨2, _⟩ => rfl)
  have er : ridx_main_v28 (ix3 b q e) k = ix3 b k e := funext fun a => Fin.ext (by
    match a with | ⟨0, _⟩ => rfl | ⟨1, _⟩ => rfl | ⟨2, _⟩ => rfl)
  rw [el, er, weight_eq, value_eq]
  simp only [score_eq]

end Cert.ReferenceIdeal.RefValue

end
-- ==== Proof.Finite.lean ====
/-
  The finiteness precondition, read back entry by entry.

  The precondition takes, for each of the seven float arguments, the conjunction over all entries of
  |x| < +∞, and conjoins the seven results.  On the extended reals |x| = max(x, −x) is below +∞ exactly
  when x is neither −∞ nor +∞, that is, when x is a real number.  So if the precondition evaluates to
  true, every entry of every float argument is (the image of) a real.
-/
import proofs.«161376_j2439541424557_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The f32 pattern of +∞ denotes the greatest extended real. -/
theorem ofBits_pos_inf : Ideal.ofBits .f32 0x7F800000#32 = ⊤ := by simp [Ideal.ofBits, Ideal.ieee]

/-- An extended real whose absolute value max(x, −x) is below +∞ is a real number. -/
theorem real_of_abs_lt_inf (x : EReal)
    (hx : Ideal.cmp .olt (max x (-x)) (Ideal.ofBits .f32 0x7F800000#32) = 1#1) : ∃ r : ℝ, x = (r : EReal) := by
  rw [ofBits_pos_inf] at hx
  induction x using EReal.rec with
  | bot => exact absurd hx (by simp [Ideal.cmp])
  | top => exact absurd hx (by simp [Ideal.cmp])
  | coe r => exact ⟨r, rfl⟩

/-- One conjunct of the precondition: if the conjunction over all entries of |a| < +∞ is true, each entry is real. -/
theorem real_of_all {s : Shape} {axes : List (Fin s.rank)} (a : FVec Ideal s .f32)
    (hb : Cert.Pre_finite_inputs.S_.BroadcastsInDim s (![] : Fin 0 → Fin s.rank))
    (h' : s.ReducesTo axes Cert.Pre_finite_inputs.S_) (hu : 0 < Cert.Pre_finite_inputs.S_.numel)
    (e : Host.reduce IntOp.andi (cmpf .olt (Host.absf a)
          (broadcastInDim s ![] hb (constant (F := Ideal) Cert.Pre_finite_inputs.S_ .f32 0x7F800000#32)))
          (constantI Cert.Pre_finite_inputs.S_ 1 1#1) h' hu ix0 = 1#1)
    (i : s.Idx) : ∃ r : ℝ, a i = (r : EReal) := by
  have hp := Host.reduce_andi_all _ _ h' hu ix0 e i
  rw [cmpf_apply, broadcastInDim_apply _ hb _ i ix0 (fun d => d.elim0)] at hp
  exact real_of_abs_lt_inf (a i) hp

open Cert.Pre_finite_inputs in
/-- If the finiteness precondition holds, every entry of each of the seven float arguments is a real number. -/
theorem finite_of_pre [Cert.Pre_finite_inputs.Facts]
    (a0 : FVec Ideal S4x4096x256 .f32) (a1 : IVec S4x4096x4096 1) (a2 : FVec Ideal S256x256 .f32)
    (a3 : FVec Ideal S256 .f32) (a4 : FVec Ideal S256x256 .f32) (a5 : FVec Ideal S256 .f32)
    (a6 : FVec Ideal S256x256 .f32) (a7 : FVec Ideal S256 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have e := congrFun h ix0
  dsimp only [Cert.Pre_finite_inputs.fn, Cert.Pre_finite_inputs.fn_part1] at e
  change IntOp.andi _ _ = 1#1 at e
  obtain ⟨e, e7⟩ := IntOp.andi_eq_one.1 e
  change IntOp.andi _ _ = 1#1 at e
  obtain ⟨e, e6⟩ := IntOp.andi_eq_one.1 e
  change IntOp.andi _ _ = 1#1 at e
  obtain ⟨e, e5⟩ := IntOp.andi_eq_one.1 e
  change IntOp.andi _ _ = 1#1 at e
  obtain ⟨e, e4⟩ := IntOp.andi_eq_one.1 e
  change IntOp.andi _ _ = 1#1 at e
  obtain ⟨e, e3⟩ := IntOp.andi_eq_one.1 e
  change IntOp.andi _ _ = 1#1 at e
  obtain ⟨e0, e2⟩ := IntOp.andi_eq_one.1 e
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7⟩

end Cert.Finite

end
-- ==== Proof.lean ====
/-
  Masked single-head attention: a two-kernel flash-attention program against plain softmax attention.

  The kernel program projects the activations to queries, keys and values (y = x Wᵀ + b, the queries also scaled
  by 1/64) in one pallas_call, and in a second one walks the 4096 keys in eight tiles of 512, keeping per query
  row a running maximum m, a running normaliser l and a running numerator acc, each rescaled by e^{m_old − m_new}
  when the maximum moves, and stores acc / l after the last tile.  The reference computes the scores
  (query · key) / 4096^{1/2}, fills the masked ones with −1e9, applies softmax over the keys and multiplies by
  the values.

  On the extended reals, when every input is a real number, the two agree entry by entry:
  * 4096^{1/2} = 64, so scaling the query by 1/64 before the dot product is dividing the dot product by the
    scale (distributivity over a finite sum of reals);
  * the tile-by-tile accumulation leaves, after n tiles, l = Σ e^{s_k − m} and acc = Σ e^{s_k − m} v_k over the
    keys seen so far, m the running maximum (started at the fill value); the quotient acc / l does not depend
    on the shift m, so it is the softmax-weighted sum, whose shift is the row maximum.
  The frames (each program runs to the end, faults nowhere and leaves its arguments as launched) come from the
  run of the program's two kernel regions and the host operation between them, each region from its body's run
  at every grid point; the reference's from its run as a list of host operations.  The idealization rewrote
  nothing, so there is nothing to preserve.
-/
import proofs.«161376_j2439541424557_2_alg».proof.Defs
import proofs.«161376_j2439541424557_2_alg».proof.Proof.Gen.Kernel
import proofs.«161376_j2439541424557_2_alg».proof.Proof.Gen.KernelIdeal
import proofs.«161376_j2439541424557_2_alg».proof.Proof.Gen.ReferenceIdeal
import proofs.«161376_j2439541424557_2_alg».proof.Proof.Gen.Pre_finite_inputs
import proofs.«161376_j2439541424557_2_alg».proof.Proof.Gen.ReferenceIdeal.Run
import proofs.«161376_j2439541424557_2_alg».proof.Proof.Gen.ReferenceIdeal.Read
import proofs.«161376_j2439541424557_2_alg».proof.Proof.WordLevel.FlashBody
import proofs.«161376_j2439541424557_2_alg».proof.Proof.WordLevel.QkvFrame
import proofs.«161376_j2439541424557_2_alg».proof.Proof.WordLevel.RegionsRun
import proofs.«161376_j2439541424557_2_alg».proof.Proof.FlashBody
import proofs.«161376_j2439541424557_2_alg».proof.Proof.QkvFrame
import proofs.«161376_j2439541424557_2_alg».proof.Proof.RegionsRun
import proofs.«161376_j2439541424557_2_alg».proof.Proof.KernelResult
import proofs.«161376_j2439541424557_2_alg».proof.Proof.RefValue
import proofs.«161376_j2439541424557_2_alg».proof.Proof.Finite

noncomputable section

namespace Cert.Proof

open Idealize.ShloMosaic Idealize.ShloMosaic.TcCoe Idealize.SL.Sem

/-- The word-level kernel program runs to the end and leaves its arguments as launched. -/
theorem frame_k : Cert.frame_Kernel := fun m ρ _ =>
  (θ_run Cert.Kernel.defs _ _).mono (fun _ h c => (h c).2)
    (Cert.Kernel.Hand.run_regions (F := Bits) (fun V c => Cert.Kernel.Hand.dat0 V c) (fun V c => Cert.Kernel.Hand.dat1 V c) m
    (fun V c w => Cert.Kernel.Hand.A_eq0 V c w) (fun _ _ _ => rfl) (fun _ _ _ => rfl) (fun _ _ _ => rfl) (fun _ _ _ => rfl)
    (fun V c => Cert.Kernel.Hand.body_obligation0 V c)
    (fun V c w => Cert.Kernel.Hand.A_eq1 V c w) (fun _ _ _ => rfl) (fun _ _ _ => rfl) (fun _ _ _ => rfl)
    (fun V c => Cert.Kernel.Hand.body_obligation1 V c)
    (fun V c => Cert.Kernel.Hand.hin1 V c) (fun V c => Cert.Kernel.Hand.hout1 V c) ρ)

/-- So does the idealized kernel program. -/
theorem frame_ki : Cert.frame_KernelIdeal := fun m ρ _ =>
  (θ_run Cert.KernelIdeal.defs _ _).mono (fun _ h c => (h c).2)
    (Cert.KernelIdeal.Hand.run_regions (F := Ideal) (fun V c => Cert.KernelIdeal.Hand.dat0 V c) (fun V c => Cert.KernelIdeal.Hand.dat1 V c) m
    (fun V c w => Cert.KernelIdeal.Hand.A_eq0 V c w) (fun _ _ _ => rfl) (fun _ _ _ => rfl) (fun _ _ _ => rfl) (fun _ _ _ => rfl)
    (fun V c => Cert.KernelIdeal.Hand.body_obligation0 V c)
    (fun V c w => Cert.KernelIdeal.Hand.A_eq1 V c w) (fun _ _ _ => rfl) (fun _ _ _ => rfl) (fun _ _ _ => rfl)
    (fun V c => Cert.KernelIdeal.Hand.body_obligation1 V c)
    (fun V c => Cert.KernelIdeal.Hand.hin1 V c) (fun V c => Cert.KernelIdeal.Hand.hout1 V c) ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the attention of the launch arguments: the kernel program by the accumulation over
    the key tiles, the reference by its operations read index by index. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩)
      (Cert.KernelIdeal.Hand.run_regions (F := Ideal) (fun V c => Cert.KernelIdeal.Hand.dat0 V c) (fun V c => Cert.KernelIdeal.Hand.dat1 V c) m
    (fun V c w => Cert.KernelIdeal.Hand.A_eq0 V c w) (fun _ _ _ => rfl) (fun _ _ _ => rfl) (fun _ _ _ => rfl) (fun _ _ _ => rfl)
    (fun V c => Cert.KernelIdeal.Hand.body_obligation0 V c)
    (fun V c w => Cert.KernelIdeal.Hand.A_eq1 V c w) (fun _ _ _ => rfl) (fun _ _ _ => rfl) (fun _ _ _ => rfl)
    (fun V c => Cert.KernelIdeal.Hand.body_obligation1 V c)
    (fun V c => Cert.KernelIdeal.Hand.hin1 V c) (fun V c => Cert.KernelIdeal.Hand.hout1 V c) ρ)
    obtain ⟨h0, h2, h3, h4, h5, h6, h7⟩ := Cert.Finite.finite_of_pre _ _ _ _ _ _ _ _ (hpre c)
    exact Cert.KernelIdeal.Hand.kernel_result m c h0 h2 h3 h4 h5 h6 h7
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.RefValue.ref_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
